-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : IVec S4096x2048 32) (main_arg1 : FVec F S4096x2048 .f32) (main_arg2 : IVec S4096x2048 32) (main_arg3 : FVec F S4096 .f32) (main_arg4 : FVec F S4096 .f32) (main_arg5 : FVec F S4096 .f32) (main_arg6 : IVec S4096 32) : IVec S_ 1 :=
  let main_v0 : FVec F S4096x2048 .f32 := Host.absf main_arg1
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x2048 : Shape := ⟨2, ![4096, 2048]⟩
abbrev S4096 : Shape := ⟨1, ![4096]⟩
abbrev S5 : Shape := ⟨1, ![5]⟩
abbrev S4 : Shape := ⟨1, ![4]⟩
abbrev S_ : Shape := ⟨0, ![]⟩
abbrev S4096x1 : Shape := ⟨2, ![4096, 1]⟩
abbrev S4096x6 : Shape := ⟨2, ![4096, 6]⟩
abbrev S4096x4 : Shape := ⟨2, ![4096, 4]⟩
abbrev S256x2048 : Shape := ⟨2, ![256, 2048]⟩
abbrev S256x6 : Shape := ⟨2, ![256, 6]⟩
abbrev S256x4 : Shape := ⟨2, ![256, 4]⟩
abbrev S256x1 : Shape := ⟨2, ![256, 1]⟩
abbrev S256 : Shape := ⟨1, ![256]⟩
abbrev S1 : Shape := ⟨1, ![1]⟩

abbrev nBuf : Space → Nat
  | .hbm => 93
  | .vmem => 10
  | .smem => 0
  | _ => 0

abbrev bufTy : (tb : Table) → Fin (tcTables nBuf tb) → BufTy
  | .hbm, ⟨0, _⟩ => ⟨S4096x2048, .i32⟩
  | .hbm, ⟨1, _⟩ => ⟨S4096x2048, .f32⟩
  | .hbm, ⟨2, _⟩ => ⟨S4096x2048, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .i32⟩
  | .hbm, ⟨7, _⟩ => ⟨S5, .f32⟩
  | .hbm, ⟨8, _⟩ => ⟨S5, .f32⟩
  | .hbm, ⟨9, _⟩ => ⟨S4, .f32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S_, .i1⟩
  | .hbm, ⟨44, _⟩ => ⟨S4096, .i1⟩
  | .hbm, ⟨45, _⟩ => ⟨S4096, .i1⟩
  | .hbm, ⟨46, _⟩ => ⟨S4096, .i1⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x6, .f32⟩
  | .hbm, ⟨66, _⟩ => ⟨S4096x4, .f32⟩
  | .hbm, ⟨67, _⟩ => ⟨S_, .f32⟩
  | .hbm, ⟨68, _⟩ => ⟨S4, .f32⟩
  | .hbm, ⟨69, _⟩ => ⟨S_, .f32⟩
  | .hbm, ⟨70, _⟩ => ⟨S4, .f32⟩
  | .hbm, ⟨71, _⟩ => ⟨S4, .f32⟩
  | .hbm, ⟨72, _⟩ => ⟨S1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1, .f32⟩
  | .hbm, ⟨77, _⟩ => ⟨S_, .f32⟩
  | .hbm, ⟨78, _⟩ => ⟨S1, .f32⟩
  | .hbm, ⟨79, _⟩ => ⟨S_, .f32⟩
  | .hbm, ⟨80, _⟩ => ⟨S1, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .local _ .vmem, ⟨0, _⟩ => ⟨S256x2048, .i32⟩
  | .local _ .vmem, ⟨1, _⟩ => ⟨S256x2048, .i32⟩
  | .local _ .vmem, ⟨2, _⟩ => ⟨S256x2048, .f32⟩
  | .local _ .vmem, ⟨3, _⟩ => ⟨S256x2048, .f32⟩
  | .local _ .vmem, ⟨4, _⟩ => ⟨S256x2048, .i32⟩
  | .local _ .vmem, ⟨5, _⟩ => ⟨S256x2048, .i32⟩
  | .local _ .vmem, ⟨6, _⟩ => ⟨S256x6, .f32⟩
  | .local _ .vmem, ⟨7, _⟩ => ⟨S256x6, .f32⟩
  | .local _ .vmem, ⟨8, _⟩ => ⟨S256x4, .f32⟩
  | .local _ .vmem, ⟨9, _⟩ => ⟨S256x4, .f32⟩
  | _, _ => ⟨S4096x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_c_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v14 : Ref sig .tc := ⟨.hbm, 49, rfl⟩
abbrev main_c_6 : Ref sig .tc := ⟨.hbm, 50, rfl⟩
abbrev main_v15 : Ref sig .tc := ⟨.hbm, 51, rfl⟩
abbrev main_v16 : Ref sig .tc := ⟨.hbm, 52, rfl⟩
abbrev main_c_7 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_cst_9 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_10 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_11 : Ref sig .tc := ⟨.hbm, 82, rfl⟩
abbrev main_v42 : Ref sig .tc := ⟨.hbm, 83, rfl⟩
abbrev main_cst_12 : Ref sig .tc := ⟨.hbm, 84, rfl⟩
abbrev main_v43 : Ref sig .tc := ⟨.hbm, 85, rfl⟩
abbrev main_v44 : Ref sig .tc := ⟨.hbm, 86, rfl⟩
abbrev main_cst_13 : Ref sig .tc := ⟨.hbm, 87, rfl⟩
abbrev main_v45 : Ref sig .tc := ⟨.hbm, 88, rfl⟩
abbrev main_v46 : Ref sig .tc := ⟨.hbm, 89, rfl⟩
abbrev main_cst_14 : Ref sig .tc := ⟨.hbm, 90, rfl⟩
abbrev main_v47 : Ref sig .tc := ⟨.hbm, 91, rfl⟩
abbrev main_v48 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x1_S4096x1_S4096x1_S4096x1_S4096x6_d1 : Shape.Concatenates [S4096x1, S4096x1, S4096x1, S4096x1, S4096x1, S4096x1] S4096x6 1
  inb_S256x2048_S256x2048_0_0 : ∀ a, (![0, 0] : Fin 2 → Nat) a + S256x2048.size a ≤ S256x2048.size a
  h_S256x2048 : 0 < S256x2048.numel
  inb_S256x6_S256x1_0_0 : ∀ a, (![0, 0] : Fin 2 → Nat) a + S256x1.size a ≤ S256x6.size a
  h_S256x1 : 0 < S256x1.numel
  shapeCasts_S256x1_S256x1 : S256x1.ShapeCasts S256x1
  inb_S256x6_S256x1_0_1 : ∀ a, (![0, 1] : Fin 2 → Nat) a + S256x1.size a ≤ S256x6.size a
  inb_S256x6_S256x1_0_2 : ∀ a, (![0, 2] : Fin 2 → Nat) a + S256x1.size a ≤ S256x6.size a
  inb_S256x6_S256x1_0_3 : ∀ a, (![0, 3] : Fin 2 → Nat) a + S256x1.size a ≤ S256x6.size a
  inb_S256x6_S256x1_0_4 : ∀ a, (![0, 4] : Fin 2 → Nat) a + S256x1.size a ≤ S256x6.size a
  inb_S256x6_S256x1_0_5 : ∀ a, (![0, 5] : Fin 2 → Nat) a + S256x1.size a ≤ S256x6.size a
  iota_S256x2048_d1_w32 : S256x2048.Iotas .tc 32 [1]
  broadcasts_S256x1_S256x2048 : S256x1.Broadcasts S256x2048
  rotates_S256x2048_d1 : S256x2048.Rotates 1 none
  natLt_1_32 : 1 < 32
  reduces_S256x2048_S256 : S256x2048.Reduces [1] S256
  shapeCasts_S256_S256x1 : S256.ShapeCasts S256x1
  concatenates_S256x1_S256x1_S256x1_S256x1_S256x4_d1 : Shape.Concatenates [S256x1, S256x1, S256x1, S256x1] S256x4 1
  inb_S256x4_S256x4_0_0 : ∀ a, (![0, 0] : Fin 2 → Nat) a + S256x4.size a ≤ S256x4.size a
  h_S256x4 : 0 < S256x4.numel
  reducesTo_S4096x4_S4_d0 : S4096x4.ReducesTo [0] S4
  h_S_ : 0 < S_.numel
  bcast_S_S4 : S_.BroadcastsInDim S4 (![] : Fin 0 → Fin S4.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  gather_S5_S4096x1_S4096_n_0_n_n_0_1_1_wf : GatherDims.WF S5 S4096x1 S4096 [] [0] [] [0] [] 1 ![1]
  gather_S4_S4096x1_S4096_n_0_n_n_0_1_1_wf : GatherDims.WF S4 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .i32 = 32 ∨ (Rect.block (s := S4096x2048) S256x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .i32 = 32 ∨ (Rect.block (s := S4096x2048) S256x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x6.size a ≤ S4096x6.size a
  hwx0_3 : ∀ i : grid0.Coords, EltTy.bits .f32 = 32 ∨ (Rect.block (s := S4096x6) S256x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4.size a ≤ S4096x4.size a
  hwx0_4 : ∀ i : grid0.Coords, EltTy.bits .f32 = 32 ∨ (Rect.block (s := S4096x4) S256x4.size (cc0_transform_4 i) (hinb0_4 i)).WholeWords (EltTy.packing .f32)

variable [Facts₀]

def gather_S5_S4096x1_S4096_n_0_n_n_0_1_1 : GatherDims S5 S4096x1 S4096 where
  offsetDims := []
  collapsedSliceDims := [0]
  operandBatchingDims := []
  startIndicesBatchingDims := []
  startIndexMap := [0]
  indexVectorDim := 1
  sliceSizes := ![1]
  wf := gather_S5_S4096x1_S4096_n_0_n_n_0_1_1_wf
def gather_S4_S4096x1_S4096_n_0_n_n_0_1_1 : GatherDims S4 S4096x1 S4096 where
  offsetDims := []
  collapsedSliceDims := [0]
  operandBatchingDims := []
  startIndicesBatchingDims := []
  startIndexMap := [0]
  indexVectorDim := 1
  sliceSizes := ![1]
  wf := gather_S4_S4096x1_S4096_n_0_n_n_0_1_1_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S256x6.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S256x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S4 : Shape := ⟨1, ![4]⟩
abbrev S5 : Shape := ⟨1, ![5]⟩
abbrev S4096x1 : Shape := ⟨2, ![4096, 1]⟩
abbrev S_ : Shape := ⟨0, ![]⟩
abbrev S1 : Shape := ⟨1, ![1]⟩
abbrev S4096x2047 : Shape := ⟨2, ![4096, 2047]⟩

abbrev nBuf : Space → Nat
  | .hbm => 190
  | .vmem => 0
  | .smem => 0
  | _ => 0

abbrev hbmTy0_0 (i : Nat) : BufTy := match i % 128 with
  | 0 => ⟨S4096x2048, .i32⟩
  | 1 => ⟨S4096x2048, .f32⟩
  | 2 => ⟨S4096x2048, .i32⟩
  | 3 => ⟨S4096, .f32⟩
  | 4 => ⟨S4096, .f32⟩
  | 5 => ⟨S4096, .f32⟩
  | 6 => ⟨S4096, .i32⟩
  | 7 => ⟨S4, .f32⟩
  | 8 => ⟨S5, .f32⟩
  | 9 => ⟨S5, .f32⟩
  | 10 => ⟨S4096x2048, .f32⟩
  | 11 => ⟨S4096x2048, .f32⟩
  | 12 => ⟨S4096x1, .f32⟩
  | 13 => ⟨S4096, .f32⟩
  | 14 => ⟨S_, .f32⟩
  | 15 => ⟨S4096, .f32⟩
  | 16 => ⟨S4096, .f32⟩
  | 17 => ⟨S4096, .f32⟩
  | 18 => ⟨S_, .f32⟩
  | 19 => ⟨S4096, .f32⟩
  | 20 => ⟨S4096, .f32⟩
  | 21 => ⟨S_, .i32⟩
  | 22 => ⟨S1, .i32⟩
  | 23 => ⟨S4096x2048, .f32⟩
  | 24 => ⟨S_, .i32⟩
  | 25 => ⟨S1, .i32⟩
  | 26 => ⟨S4096x2048, .f32⟩
  | 27 => ⟨S_, .f32⟩
  | 28 => ⟨S4096x1, .f32⟩
  | 29 => ⟨S4096x2047, .f32⟩
  | 30 => ⟨S4096x2048, .f32⟩
  | 31 => ⟨S_, .f32⟩
  | 32 => ⟨S4096x1, .f32⟩
  | 33 => ⟨S4096x2047, .f32⟩
  | 34 => ⟨S4096x2048, .f32⟩
  | 35 => ⟨S_, .f32⟩
  | 36 => ⟨S4096x2048, .f32⟩
  | 37 => ⟨S4096x2048, .i1⟩
  | 38 => ⟨S4096x2048, .f32⟩
  | 39 => ⟨S_, .f32⟩
  | 40 => ⟨S4096x2048, .f32⟩
  | 41 => ⟨S4096x2048, .f32⟩
  | 42 => ⟨S_, .f32⟩
  | 43 => ⟨S4096x2048, .f32⟩
  | 44 => ⟨S4096x2048, .i1⟩
  | 45 => ⟨S4096x2048, .f32⟩
  | 46 => ⟨S_, .f32⟩
  | 47 => ⟨S4096x2048, .f32⟩
  | 48 => ⟨S4096x2048, .f32⟩
  | 49 => ⟨S4096x2048, .f32⟩
  | 50 => ⟨S4096x2048, .f32⟩
  | 51 => ⟨S4096x2048, .f32⟩
  | 52 => ⟨S_, .f32⟩
  | 53 => ⟨S4096x2048, .f32⟩
  | 54 => ⟨S4096x2048, .i1⟩
  | 55 => ⟨S4096x2048, .f32⟩
  | 56 => ⟨S_, .f32⟩
  | 57 => ⟨S4096x2048, .f32⟩
  | 58 => ⟨S4096x2048, .f32⟩
  | 59 => ⟨S4096x2048, .f32⟩
  | 60 => ⟨S4096x2048, .i1⟩
  | 61 => ⟨S4096x2048, .f32⟩
  | 62 => ⟨S_, .f32⟩
  | 63 => ⟨S4096x2048, .f32⟩
  | 64 => ⟨S4096x2048, .f32⟩
  | 65 => ⟨S4096x2048, .f32⟩
  | 66 => ⟨S4096x2048, .f32⟩
  | 67 => ⟨S_, .f32⟩
  | 68 => ⟨S4096, .f32⟩
  | 69 => ⟨S_, .f32⟩
  | 70 => ⟨S4096, .f32⟩
  | 71 => ⟨S4096, .f32⟩
  | 72 => ⟨S_, .f32⟩
  | 73 => ⟨S4096, .f32⟩
  | 74 => ⟨S4096, .f32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i1⟩
  | 89 => ⟨S_, .i32⟩
  | 90 => ⟨S_, .i1⟩
  | 91 => ⟨S4096, .i1⟩
  | 92 => ⟨S4096, .i1⟩
  | 93 => ⟨S4096, .i1⟩
  | 94 => ⟨S4096, .i32⟩
  | 95 => ⟨S4096, .i32⟩
  | 96 => ⟨S4096, .i32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S4096x1, .i32⟩
  | 105 => ⟨S4096, .f32⟩
  | 106 => ⟨S4096, .f32⟩
  | 107 => ⟨S_, .f32⟩
  | 108 => ⟨S4096, .f32⟩
  | 109 => ⟨S4096, .f32⟩
  | 110 => ⟨S_, .f32⟩
  | 111 => ⟨S4096, .f32⟩
  | 112 => ⟨S4096, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .i32⟩
  | 120 => ⟨S4096, .i32⟩
  | 121 => ⟨S4096, .i1⟩
  | 122 => ⟨S_, .i32⟩
  | 123 => ⟨S4096, .i32⟩
  | 124 => ⟨S4096, .i32⟩
  | 125 => ⟨S4096, .i32⟩
  | 126 => ⟨S4096x1, .i32⟩
  | 127 => ⟨S4096, .f32⟩
  | _ => ⟨S4096x2048, .i32⟩

abbrev hbmTy0_1 (i : Nat) : BufTy := match i % 128 with
  | 0 => ⟨S4096, .f32⟩
  | 1 => ⟨S4096, .f32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S4096, .f32⟩
  | 11 => ⟨S4096, .f32⟩
  | 12 => ⟨S4096, .f32⟩
  | 13 => ⟨S4096, .f32⟩
  | 14 => ⟨S_, .f32⟩
  | 15 => ⟨S_, .f32⟩
  | 16 => ⟨S_, .f32⟩
  | 17 => ⟨S_, .f32⟩
  | 18 => ⟨S_, .f32⟩
  | 19 => ⟨S4096, .f32⟩
  | 20 => ⟨S4096, .f32⟩
  | 21 => ⟨S_, .f32⟩
  | 22 => ⟨S4096, .f32⟩
  | 23 => ⟨S4096, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S4096, .f32⟩
  | 32 => ⟨S4096, .f32⟩
  | 33 => ⟨S_, .f32⟩
  | 34 => ⟨S4096, .f32⟩
  | 35 => ⟨S4096, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S4096, .f32⟩
  | 43 => ⟨S4096, .i1⟩
  | 44 => ⟨S4096, .f32⟩
  | 45 => ⟨S4096, .f32⟩
  | 46 => ⟨S4096, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | _ => ⟨S4096x2048, .i32⟩

abbrev hbmTy (i : Nat) : BufTy := match i / 128 with
  | 0 => hbmTy0_0 i
  | 1 => hbmTy0_1 i
  | _ => ⟨S4096x2048, .i32⟩

abbrev bufTy : (tb : Table) → Fin (tcTables nBuf tb) → BufTy
  | .hbm, ⟨i, _⟩ => hbmTy i
  | _, _ => ⟨S4096x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_10 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_14 : Ref sig .tc := ⟨.hbm, 67, rfl⟩
abbrev main_v44 : Ref sig .tc := ⟨.hbm, 68, rfl⟩
abbrev main_cst_15 : Ref sig .tc := ⟨.hbm, 69, rfl⟩
abbrev main_v45 : Ref sig .tc := ⟨.hbm, 70, rfl⟩
abbrev main_v46 : Ref sig .tc := ⟨.hbm, 71, rfl⟩
abbrev main_cst_16 : Ref sig .tc := ⟨.hbm, 72, rfl⟩
abbrev main_v47 : Ref sig .tc := ⟨.hbm, 73, rfl⟩
abbrev main_v48 : Ref sig .tc := ⟨.hbm, 74, rfl⟩
abbrev main_c_17 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_c_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_1 : Ref sig .tc := ⟨.hbm, 83, rfl⟩
abbrev main_call0_v5 : Ref sig .tc := ⟨.hbm, 84, rfl⟩
abbrev main_call0_v6 : Ref sig .tc := ⟨.hbm, 85, rfl⟩
abbrev main_call0_c_2 : Ref sig .tc := ⟨.hbm, 86, rfl⟩
abbrev main_call0_v7 : Ref sig .tc := ⟨.hbm, 87, rfl⟩
abbrev main_call0_v8 : Ref sig .tc := ⟨.hbm, 88, rfl⟩
abbrev main_call0_c_3 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_v12 : Ref sig .tc := ⟨.hbm, 93, rfl⟩
abbrev main_call0_v13 : Ref sig .tc := ⟨.hbm, 94, rfl⟩
abbrev main_call0_v14 : Ref sig .tc := ⟨.hbm, 95, rfl⟩
abbrev main_v49 : Ref sig .tc := ⟨.hbm, 96, rfl⟩
abbrev main_c_18 : Ref sig .tc := ⟨.hbm, 97, rfl⟩
abbrev main_v50 : Ref sig .tc := ⟨.hbm, 98, rfl⟩
abbrev main_v51 : Ref sig .tc := ⟨.hbm, 99, rfl⟩
abbrev main_c_19 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_20 : Ref sig .tc := ⟨.hbm, 107, rfl⟩
abbrev main_v58 : Ref sig .tc := ⟨.hbm, 108, rfl⟩
abbrev main_v59 : Ref sig .tc := ⟨.hbm, 109, rfl⟩
abbrev main_call1_cst : Ref sig .tc := ⟨.hbm, 110, rfl⟩
abbrev main_call1_v0 : Ref sig .tc := ⟨.hbm, 111, rfl⟩
abbrev main_v60 : Ref sig .tc := ⟨.hbm, 112, rfl⟩
abbrev main_cst_21 : Ref sig .tc := ⟨.hbm, 113, rfl⟩
abbrev main_v61 : Ref sig .tc := ⟨.hbm, 114, rfl⟩
abbrev main_cst_22 : Ref sig .tc := ⟨.hbm, 115, rfl⟩
abbrev main_v62 : Ref sig .tc := ⟨.hbm, 116, rfl⟩
abbrev main_cst_23 : Ref sig .tc := ⟨.hbm, 117, rfl⟩
abbrev main_v63 : Ref sig .tc := ⟨.hbm, 118, rfl⟩
abbrev main_c_24 : Ref sig .tc := ⟨.hbm, 119, rfl⟩
abbrev main_v64 : Ref sig .tc := ⟨.hbm, 120, rfl⟩
abbrev main_v65 : Ref sig .tc := ⟨.hbm, 121, rfl⟩
abbrev main_c_25 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_26 : Ref sig .tc := ⟨.hbm, 130, rfl⟩
abbrev main_v73 : Ref sig .tc := ⟨.hbm, 131, rfl⟩
abbrev main_v74 : Ref sig .tc := ⟨.hbm, 132, rfl⟩
abbrev main_c_27 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_28 : Ref sig .tc := ⟨.hbm, 142, rfl⟩
abbrev main_v83 : Ref sig .tc := ⟨.hbm, 143, rfl⟩
abbrev main_cst_29 : Ref sig .tc := ⟨.hbm, 144, rfl⟩
abbrev main_v84 : Ref sig .tc := ⟨.hbm, 145, rfl⟩
abbrev main_cst_30 : Ref sig .tc := ⟨.hbm, 146, rfl⟩
abbrev main_v85 : Ref sig .tc := ⟨.hbm, 147, rfl⟩
abbrev main_v86 : Ref sig .tc := ⟨.hbm, 148, rfl⟩
abbrev main_call2_cst : Ref sig .tc := ⟨.hbm, 149, rfl⟩
abbrev main_call2_v0 : Ref sig .tc := ⟨.hbm, 150, rfl⟩
abbrev main_v87 : Ref sig .tc := ⟨.hbm, 151, rfl⟩
abbrev main_cst_31 : Ref sig .tc := ⟨.hbm, 152, rfl⟩
abbrev main_v88 : Ref sig .tc := ⟨.hbm, 153, rfl⟩
abbrev main_cst_32 : Ref sig .tc := ⟨.hbm, 154, rfl⟩
abbrev main_v89 : Ref sig .tc := ⟨.hbm, 155, rfl⟩
abbrev main_cst_33 : Ref sig .tc := ⟨.hbm, 156, rfl⟩
abbrev main_v90 : Ref sig .tc := ⟨.hbm, 157, rfl⟩
abbrev main_cst_34 : Ref sig .tc := ⟨.hbm, 158, rfl⟩
abbrev main_v91 : Ref sig .tc := ⟨.hbm, 159, rfl⟩
abbrev main_v92 : Ref sig .tc := ⟨.hbm, 160, rfl⟩
abbrev main_call3_cst : Ref sig .tc := ⟨.hbm, 161, rfl⟩
abbrev main_call3_v0 : Ref sig .tc := ⟨.hbm, 162, rfl⟩
abbrev main_v93 : Ref sig .tc := ⟨.hbm, 163, rfl⟩
abbrev main_cst_35 : Ref sig .tc := ⟨.hbm, 164, rfl⟩
abbrev main_v94 : Ref sig .tc := ⟨.hbm, 165, rfl⟩
abbrev main_cst_36 : Ref sig .tc := ⟨.hbm, 166, rfl⟩
abbrev main_v95 : Ref sig .tc := ⟨.hbm, 167, rfl⟩
abbrev main_v96 : Ref sig .tc := ⟨.hbm, 168, rfl⟩
abbrev main_cst_37 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_cst_38 : Ref sig .tc := ⟨.hbm, 175, rfl⟩
abbrev main_v102 : Ref sig .tc := ⟨.hbm, 176, rfl⟩
abbrev main_cst_39 : Ref sig .tc := ⟨.hbm, 177, rfl⟩
abbrev main_v103 : Ref sig .tc := ⟨.hbm, 178, rfl⟩
abbrev main_cst_40 : Ref sig .tc := ⟨.hbm, 179, rfl⟩
abbrev main_v104 : Ref sig .tc := ⟨.hbm, 180, rfl⟩
abbrev main_cst_41 : Ref sig .tc := ⟨.hbm, 181, rfl⟩
abbrev main_v105 : Ref sig .tc := ⟨.hbm, 182, rfl⟩
abbrev main_v106 : Ref sig .tc := ⟨.hbm, 183, rfl⟩
abbrev main_cst_42 : Ref sig .tc := ⟨.hbm, 184, rfl⟩
abbrev main_v107 : Ref sig .tc := ⟨.hbm, 185, rfl⟩
abbrev main_v108 : Ref sig .tc := ⟨.hbm, 186, rfl⟩
abbrev main_cst_43 : Ref sig .tc := ⟨.hbm, 187, rfl⟩
abbrev main_v109 : Ref sig .tc := ⟨.hbm, 188, rfl⟩
abbrev main_v110 : Ref sig .tc := ⟨.hbm, 189, rfl⟩

abbrev nD : Nat := 1
abbrev τ : Topo := Topo.v7x

variable {F : FTy → Type} [FloatOps F]

class Facts₀ : Prop where
  slices_S4096x2048_S4096x1_0_2047 : S4096x2048.Slices ![0, 2047] S4096x1
  shapeCasts_S4096x1_S4096 : S4096x1.ShapeCasts S4096
  bcast_S_S4096 : S_.BroadcastsInDim S4096 (![] : Fin 0 → Fin S4096.rank)
  bcast_S_S1 : S_.BroadcastsInDim S1 (![] : Fin 0 → Fin S1.rank)
  bcast_S_S4096x1 : S_.BroadcastsInDim S4096x1 (![] : Fin 0 → Fin S4096x1.rank)
  slices_S4096x2048_S4096x2047_0_0 : S4096x2048.Slices ![0, 0] S4096x2047
  concatenates_S4096x1_S4096x2047_S4096x2048_d1 : Shape.Concatenates [S4096x1, S4096x2047] S4096x2048 1
  bcast_S_S4096x2048 : S_.BroadcastsInDim S4096x2048 (![] : Fin 0 → Fin S4096x2048.rank)
  reducesTo_S4096x2048_S4096_d1 : S4096x2048.ReducesTo [1] S4096
  h_S_ : 0 < S_.numel
  bcast_S4096_S4096x1_0 : S4096.BroadcastsInDim S4096x1 (![0] : Fin 1 → Fin S4096x1.rank)
  reducesTo_S4096_S_d0 : S4096.ReducesTo [0] S_
  scatter_S4096x2048_S1_S4096_0_1_1_0_wf : ScatterDims.WF S4096x2048 S1 S4096 [0] [1] [1] 0
  gather_S4_S4096x1_S4096_n_0_n_n_0_1_1_wf : GatherDims.WF S4 S4096x1 S4096 [] [0] [] [0] [] 1 ![1]
  gather_S5_S4096x1_S4096_n_0_n_n_0_1_1_wf : GatherDims.WF S5 S4096x1 S4096 [] [0] [] [0] [] 1 ![1]

variable [Facts₀]

def scatter_S4096x2048_S1_S4096_0_1_1_0 : ScatterDims S4096x2048 S1 S4096 where
  updateWindowDims := [0]
  insertedWindowDims := [1]
  scatterDimsToOperandDims := [1]
  indexVectorDim := 0
  wf := scatter_S4096x2048_S1_S4096_0_1_1_0_wf
def gather_S4_S4096x1_S4096_n_0_n_n_0_1_1 : GatherDims S4 S4096x1 S4096 where
  offsetDims := []
  collapsedSliceDims := [0]
  operandBatchingDims := []
  startIndicesBatchingDims := []
  startIndexMap := [0]
  indexVectorDim := 1
  sliceSizes := ![1]
  wf := gather_S4_S4096x1_S4096_n_0_n_n_0_1_1_wf
def gather_S5_S4096x1_S4096_n_0_n_n_0_1_1 : GatherDims S5 S4096x1 S4096 where
  offsetDims := []
  collapsedSliceDims := [0]
  operandBatchingDims := []
  startIndicesBatchingDims := []
  startIndexMap := [0]
  indexVectorDim := 1
  sliceSizes := ![1]
  wf := gather_S5_S4096x1_S4096_n_0_n_n_0_1_1_wf

class Facts : Prop extends Facts₀ where

variable [Facts]
-- ==== Proof.KFrame.lean ====
/-
  The frame of the program around its one pipelined region: sixteen grid points, each staging a block of 256 rows of the
  three packet arrays and of the per-row auxiliary array and writing back a block of 256 rows of four per-row terms.
  The host lines before the region (constants, the per-profile gathers, the six columns joined into the auxiliary
  array) allocate nothing and write no argument; the body loads its four input blocks, computes, and stores the whole
  output block once, so what each grid point leaves in the output's staging buffer is one function of the four input
  blocks; the host lines after the region (the column means and their weighted sum) write no array of the region and
  no argument. Hence every weakly fair execution terminates without a fault, the arguments end unchanged, and the
  output array ends holding, block by block, that function of the argument blocks.
-/
import proofs.«144307_j48833778156001_2_alg».proof.Proof.Gen.Kernel.Launch
import proofs.«144307_j48833778156001_2_alg».proof.Proof.Gen.Kernel.Skeleton
import proofs.«144307_j48833778156001_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents when the region is entered: the launch memory after the host lines before the region. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the region's post to the frame: the three packet arrays are staged inputs of the region, the four
    per-row arguments bypass it, and no host line writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The body's accesses and what it stores -/

abbrev rW : Rect S256x2048 := Rect.unit (s := S256x2048) ![0, 0] S256x2048.size inb_S256x2048_S256x2048_0_0
abbrev rc0 : Rect S256x6 := Rect.unit (s := S256x6) ![0, 0] S256x1.size inb_S256x6_S256x1_0_0
abbrev rc1 : Rect S256x6 := Rect.unit (s := S256x6) ![0, 1] S256x1.size inb_S256x6_S256x1_0_1
abbrev rc2 : Rect S256x6 := Rect.unit (s := S256x6) ![0, 2] S256x1.size inb_S256x6_S256x1_0_2
abbrev rc3 : Rect S256x6 := Rect.unit (s := S256x6) ![0, 3] S256x1.size inb_S256x6_S256x1_0_3
abbrev rc4 : Rect S256x6 := Rect.unit (s := S256x6) ![0, 4] S256x1.size inb_S256x6_S256x1_0_4
abbrev rc5 : Rect S256x6 := Rect.unit (s := S256x6) ![0, 5] S256x1.size inb_S256x6_S256x1_0_5
abbrev rO : Rect S256x4 := Rect.unit (s := S256x4) ![0, 0] S256x4.size inb_S256x4_S256x4_0_0

/-- The value the body stores, from the four input blocks: the sizes, delays and directions blocks whole, and the six
    columns of the auxiliary block. -/
def stored (x0 : Vec F S256x2048 .i32) (x1 : Vec F S256x2048 .f32) (x2 : Vec F S256x2048 .i32) (x3 : Vec F S256x6 .f32) : FVec F S256x4 .f32 :=
  k0_pay1 (k0_pay2 (View.ld x3 rc0)) (k0_pay3 (View.ld x3 rc1)) (k0_pay6 (View.ld x3 rc4)) (k0_pay7 (View.ld x3 rc5))
    (k0_pay12 (View.ld x2 rW) (k0_pay4 (View.ld x3 rc2)) (iota .tc S256x2048 32 [1] iota_S256x2048_d1_w32) (k0_pay9 (View.ld x0 rW) (View.ld x3 rc0)) (k0_pay10 (View.ld x1 rW) (View.ld x3 rc1)) (k0_pay11 (View.ld x0 rW) (View.ld x3 rc0)) 1#32)
    (k0_pay13 (View.ld x2 rW) (k0_pay4 (View.ld x3 rc2)) (iota .tc S256x2048 32 [1] iota_S256x2048_d1_w32) (k0_pay9 (View.ld x0 rW) (View.ld x3 rc0)) (k0_pay10 (View.ld x1 rW) (View.ld x3 rc1)) (k0_pay11 (View.ld x0 rW) (View.ld x3 rc0)) 1#32)
    (k0_pay14 (k0_pay3 (View.ld x3 rc1)) (k0_pay5 (View.ld x3 rc3)))

/-- The output's staging buffer after the body: its one store, of the whole block. -/
def out0_4 (x0 : Vec F S256x2048 .i32) (x1 : Vec F S256x2048 .f32) (x2 : Vec F S256x2048 .i32) (x3 : Vec F S256x6 .f32) : Vec F S256x4 .f32 :=
  View.canon [⟨rO, stored x0 x1 x2 x3⟩]

/-- The one store covers the buffer. -/
theorem cover0_4 (p0 : Vec F S256x4 .f32) (y : S256x4.Idx) :
    ∃ pc ∈ ([⟨rO, p0⟩] : List (View.Piece (Elt F) S256x4 .f32)), y ∈ pc.1.set :=
  View.cover_of_tiled [⟨rO, p0⟩] S256x4.size (by rfl) y

/-! ## The body's triple -/

set_option maxHeartbeats 4000000 in
/-- The body on whole staging buffers, the inputs' at contents `xW` and the output's at anything, runs to the
    continuation with the inputs' as they were and the output's at `out0_4` of the inputs'. -/
theorem sound_kernel (c : Dev nD) (E : Set ℕ) (i : grid0.Coords) (arg1 : Memref sig .tc .vmem S256x2048 .i32) (harg1 : arg1.IsWhole) (arg2 : Memref sig .tc .vmem S256x2048 .f32) (harg2 : arg2.IsWhole) (arg3 : Memref sig .tc .vmem S256x2048 .i32) (harg3 : arg3.IsWhole) (arg4 : Memref sig .tc .vmem S256x6 .f32) (harg4 : arg4.IsWhole) (arg5 : Memref sig .tc .vmem S256x4 .f32) (harg5 : arg5.IsWhole)
    (x0 : Vec F S256x2048 .i32) (x1 : Vec F S256x2048 .f32) (x2 : Vec F S256x2048 .i32) (x3 : Vec F S256x6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__dpi_kernel i arg1 harg1 arg2 harg2 arg3 harg3 arg4 harg4 arg5 harg5) K := by
  simp only [cc0__dpi_kernel_eq_skeleton]; unfold cc0__dpi_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The region's proof data -/

/-- The arrays as the region finds them; after the body at a point each input's buffer at its block and the output's
    at `out0_4` of the input blocks; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, every array of the region ends at what its blocks wrote back, and every
    other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Frm

end
-- ==== Proof.KIFrame.lean ====
/-
  The frame of the program around its one pipelined region: sixteen grid points, each staging a block of 256 rows of the
  three packet arrays and of the per-row auxiliary array and writing back a block of 256 rows of four per-row terms.
  The host lines before the region (constants, the per-profile gathers, the six columns joined into the auxiliary
  array) allocate nothing and write no argument; the body loads its four input blocks, computes, and stores the whole
  output block once, so what each grid point leaves in the output's staging buffer is one function of the four input
  blocks; the host lines after the region (the column means and their weighted sum) write no array of the region and
  no argument. Hence every weakly fair execution terminates without a fault, the arguments end unchanged, and the
  output array ends holding, block by block, that function of the argument blocks.
-/
import proofs.«144307_j48833778156001_2_alg».proof.Proof.Gen.KernelIdeal.Launch
import proofs.«144307_j48833778156001_2_alg».proof.Proof.Gen.KernelIdeal.Skeleton
import proofs.«144307_j48833778156001_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffer contents when the region is entered: the launch memory after the host lines before the region. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the region's post to the frame: the three packet arrays are staged inputs of the region, the four
    per-row arguments bypass it, and no host line writes any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The body's accesses and what it stores -/

abbrev rW : Rect S256x2048 := Rect.unit (s := S256x2048) ![0, 0] S256x2048.size inb_S256x2048_S256x2048_0_0
abbrev rc0 : Rect S256x6 := Rect.unit (s := S256x6) ![0, 0] S256x1.size inb_S256x6_S256x1_0_0
abbrev rc1 : Rect S256x6 := Rect.unit (s := S256x6) ![0, 1] S256x1.size inb_S256x6_S256x1_0_1
abbrev rc2 : Rect S256x6 := Rect.unit (s := S256x6) ![0, 2] S256x1.size inb_S256x6_S256x1_0_2
abbrev rc3 : Rect S256x6 := Rect.unit (s := S256x6) ![0, 3] S256x1.size inb_S256x6_S256x1_0_3
abbrev rc4 : Rect S256x6 := Rect.unit (s := S256x6) ![0, 4] S256x1.size inb_S256x6_S256x1_0_4
abbrev rc5 : Rect S256x6 := Rect.unit (s := S256x6) ![0, 5] S256x1.size inb_S256x6_S256x1_0_5
abbrev rO : Rect S256x4 := Rect.unit (s := S256x4) ![0, 0] S256x4.size inb_S256x4_S256x4_0_0

/-- The value the body stores, from the four input blocks: the sizes, delays and directions blocks whole, and the six
    columns of the auxiliary block. -/
def stored (x0 : Vec F S256x2048 .i32) (x1 : Vec F S256x2048 .f32) (x2 : Vec F S256x2048 .i32) (x3 : Vec F S256x6 .f32) : FVec F S256x4 .f32 :=
  k0_pay1 (k0_pay2 (View.ld x3 rc0)) (k0_pay3 (View.ld x3 rc1)) (k0_pay6 (View.ld x3 rc4)) (k0_pay7 (View.ld x3 rc5))
    (k0_pay12 (View.ld x2 rW) (k0_pay4 (View.ld x3 rc2)) (iota .tc S256x2048 32 [1] iota_S256x2048_d1_w32) (k0_pay9 (View.ld x0 rW) (View.ld x3 rc0)) (k0_pay10 (View.ld x1 rW) (View.ld x3 rc1)) (k0_pay11 (View.ld x0 rW) (View.ld x3 rc0)) 1#32)
    (k0_pay13 (View.ld x2 rW) (k0_pay4 (View.ld x3 rc2)) (iota .tc S256x2048 32 [1] iota_S256x2048_d1_w32) (k0_pay9 (View.ld x0 rW) (View.ld x3 rc0)) (k0_pay10 (View.ld x1 rW) (View.ld x3 rc1)) (k0_pay11 (View.ld x0 rW) (View.ld x3 rc0)) 1#32)
    (k0_pay14 (k0_pay3 (View.ld x3 rc1)) (k0_pay5 (View.ld x3 rc3)))

/-- The output's staging buffer after the body: its one store, of the whole block. -/
def out0_4 (x0 : Vec F S256x2048 .i32) (x1 : Vec F S256x2048 .f32) (x2 : Vec F S256x2048 .i32) (x3 : Vec F S256x6 .f32) : Vec F S256x4 .f32 :=
  View.canon [⟨rO, stored x0 x1 x2 x3⟩]

/-- The one store covers the buffer. -/
theorem cover0_4 (p0 : Vec F S256x4 .f32) (y : S256x4.Idx) :
    ∃ pc ∈ ([⟨rO, p0⟩] : List (View.Piece (Elt F) S256x4 .f32)), y ∈ pc.1.set :=
  View.cover_of_tiled [⟨rO, p0⟩] S256x4.size (by rfl) y

/-! ## The body's triple -/

set_option maxHeartbeats 4000000 in
/-- The body on whole staging buffers, the inputs' at contents `xW` and the output's at anything, runs to the
    continuation with the inputs' as they were and the output's at `out0_4` of the inputs'. -/
theorem sound_kernel (c : Dev nD) (E : Set ℕ) (i : grid0.Coords) (arg1 : Memref sig .tc .vmem S256x2048 .i32) (harg1 : arg1.IsWhole) (arg2 : Memref sig .tc .vmem S256x2048 .f32) (harg2 : arg2.IsWhole) (arg3 : Memref sig .tc .vmem S256x2048 .i32) (harg3 : arg3.IsWhole) (arg4 : Memref sig .tc .vmem S256x6 .f32) (harg4 : arg4.IsWhole) (arg5 : Memref sig .tc .vmem S256x4 .f32) (harg5 : arg5.IsWhole)
    (x0 : Vec F S256x2048 .i32) (x1 : Vec F S256x2048 .f32) (x2 : Vec F S256x2048 .i32) (x3 : Vec F S256x6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__dpi_kernel i arg1 harg1 arg2 harg2 arg3 harg3 arg4 harg4 arg5 harg5) K := by
  simp only [cc0__dpi_kernel_eq_skeleton]; unfold cc0__dpi_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The region's proof data -/

/-- The arrays as the region finds them; after the body at a point each input's buffer at its block and the output's
    at `out0_4` of the input blocks; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, every array of the region ends at what its blocks wrote back, and every
    other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Frm

end
-- ==== Proof.KVal1.lean ====
/-
  From the sixteen written-back blocks to the whole output array. Grid point t stages rows 256 t … 256 t + 255 of every
  windowed array (block index (t, 0) for all five windows) and writes back the same rows of the [4096, 4] output. So the
  output array ends holding, at row r, what point r / 256 stored at row r mod 256 of its block; and an input block at
  point t, read at row q, is the array read at row 256 t + q.
-/
import proofs.«144307_j48833778156001_2_alg».proof.Proof.KIFrame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KernelIdeal.Frm

variable {F : FTy → Type} [FloatOps F]
variable (m : (ℓ : Loc nD τ sig) → Buf (Elt F) ℓ) (ρ : Dev nD → PrngReg)

/-- Every window's block index at grid point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What grid point t leaves in the output's staging buffer. -/
def blockOut (c : Dev nD) (t : Fin cfg0.N) : S256x4.Idx → Elt F .f32 :=
  out0_4 (iblk m c 0 t) (iblk m c 1 t) (iblk m c 2 t) (iblk m c 3 t)

/-- The grid point whose block holds row (i 0) of the output array. -/
def pt (i : S4096x4.Idx) : Fin cfg0.N :=
  ⟨(i 0).val / 256, by have h : (i 0).val < 4096 := (i 0).isLt; rw [show cfg0.N = 16 from N_0]; omega⟩

/-- The place of an index of the output array inside its block. -/
def inBlock (i : S4096x4.Idx) : S256x4.Idx :=
  ix2 (⟨(i 0).val % 256, Nat.mod_lt _ (by decide)⟩ : Fin 256) (⟨(i 1).val, (i 1).isLt⟩ : Fin 4)

/-- The whole output array: at each index, what its row's grid point stored there. -/
def outArr (c : Dev nD) : S4096x4.Idx → Elt F .f32 := fun i => blockOut m c (pt i) (inBlock i)

/-- What point t writes back is block t of `outArr`. -/
theorem flushed_eq (c : Dev nD) (t : Fin cfg0.N) :
    (dats m 0 c).flushed 4 t = ((cfg0.win 4).blk t).view.read (Elt F) (outArr m c) := by
  show (cfg0.win 4).cut (grid0.coords t) ((dats m 0 c).after 4 t) = _
  rw [after0_4]
  obtain ⟨-, -, -, -, -, -, -, -, e0, e1⟩ := idx_facts t
  funext j
  show blockOut m c t j = outArr m c (((cfg0.win 4).blk t).view.emb j)
  have hj0 : (j 0).val < 256 := (j 0).isLt
  have hj1 : (j 1).val < 4 := (j 1).isLt
  have h0 : ((((cfg0.win 4).blk t).view.emb j) 0).val = t.val * 256 + (j 0).val := by
    show win0_4.index t (0 : Fin 2) * 256 + 1 * (j 0).val = _
    rw [e0]; omega
  have h1 : ((((cfg0.win 4).blk t).view.emb j) 1).val = (j 1).val := by
    show win0_4.index t (1 : Fin 2) * 4 + 1 * (j 1).val = _
    rw [e1]; omega
  have hp : pt (((cfg0.win 4).blk t).view.emb j) = t := Fin.ext (by
    show ((((cfg0.win 4).blk t).view.emb j) 0).val / 256 = t.val
    rw [h0]; omega)
  have hl : inBlock (((cfg0.win 4).blk t).view.emb j) = j := by
    funext a
    apply Fin.ext
    match a with
    | ⟨0, _⟩ => show ((((cfg0.win 4).blk t).view.emb j) 0).val % 256 = (j 0).val; rw [h0]; omega
    | ⟨1, _⟩ => show ((((cfg0.win 4).blk t).view.emb j) 1).val = (j 1).val; exact h1
  unfold outArr
  rw [hp, hl]

/-- An index is in point t's block iff each coordinate is in the block's range. -/
theorem mem_blk4 (t : Fin cfg0.N) (i : S4096x4.Idx) :
    i ∈ ((cfg0.win 4).blk t).view.set ↔ ∀ a : Fin 2, win0_4.index t a * S256x4.size a ≤ (i a).val ∧ (i a).val < win0_4.index t a * S256x4.size a + S256x4.size a := by
  show i ∈ ((View.whole main_v29).slice (win0_4.rect t)).set ↔ _
  rw [View.set_slice_whole, Rect.mem_set_unit]
  exact Iff.rfl

/-- The sixteen blocks cover the output array: row r lies in the block of point r / 256. -/
theorem cover4 (i : S4096x4.Idx) : ∃ t : Fin cfg0.N, (cfg0.win 4).flush t = true ∧ i ∈ ((cfg0.win 4).blk t).view.set := by
  refine ⟨pt i, flush0_4 (pt i), ?_⟩
  rw [mem_blk4]
  obtain ⟨-, -, -, -, -, -, -, -, e0, e1⟩ := idx_facts (pt i)
  have hi0 : (i 0).val < 4096 := (i 0).isLt
  have hi1 : (i 1).val < 4 := (i 1).isLt
  have hp : (pt i).val = (i 0).val / 256 := rfl
  intro a
  match a with
  | ⟨0, _⟩ => show win0_4.index (pt i) (0 : Fin 2) * 256 ≤ (i 0).val ∧ (i 0).val < win0_4.index (pt i) (0 : Fin 2) * 256 + 256; rw [e0, hp]; omega
  | ⟨1, _⟩ => show win0_4.index (pt i) (1 : Fin 2) * 4 ≤ (i 1).val ∧ (i 1).val < win0_4.index (pt i) (1 : Fin 2) * 4 + 4; rw [e1]; omega

/-- The output array after the run. -/
theorem final4 (c : Dev nD) : (dats m 0 c).arrAt 4 cfg0.N = outArr m c :=
  (dats m 0 c).arrAt_eq_of_cover 4 (outArr m c) (fun t _ => flushed_eq m c t) cover4

/-- An input window's block at point t, read at (q, k), is its array as the region finds it read at (256 t + q, k). -/
theorem iblk0_apply (c : Dev nD) (t : Fin cfg0.N) (x : S256x2048.Idx) (k : S4096x2048.Idx)
    (hk0 : (k 0).val = 256 * t.val + (x 0).val) (hk1 : (k 1).val = (x 1).val) :
    (iblk m c 0 t : Vec F S256x2048 .i32) x = (V m c main_arg0 : S4096x2048.Idx → Elt F .i32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 2048 + 1 * (x 1).val = (k 1).val; rw [e1, hk1]; omega

theorem iblk1_apply (c : Dev nD) (t : Fin cfg0.N) (x : S256x2048.Idx) (k : S4096x2048.Idx)
    (hk0 : (k 0).val = 256 * t.val + (x 0).val) (hk1 : (k 1).val = (x 1).val) :
    (iblk m c 1 t : Vec F S256x2048 .f32) x = (V m c main_arg1 : S4096x2048.Idx → Elt F .f32) k := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 256 + 1 * (x 0).val = (k 0).val; rw [e0, hk0]; omega
  | ⟨1, _⟩ => show win0_1.index t (1 : Fin 2) * 2048 + 1 * (x 1).val = (k 1).val; rw [e1, hk1]; omega

theorem iblk2_apply (c : Dev nD) (t : Fin cfg0.N) (x : S256x2048.Idx) (k : S4096x2048.Idx)
    (hk0 : (k 0).val = 256 * t.val + (x 0).val) (hk1 : (k 1).val = (x 1).val) :
    (iblk m c 2 t : Vec F S256x2048 .i32) x = (V m c main_arg2 : S4096x2048.Idx → Elt F .i32) k := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 256 + 1 * (x 0).val = (k 0).val; rw [e0, hk0]; omega
  | ⟨1, _⟩ => show win0_2.index t (1 : Fin 2) * 2048 + 1 * (x 1).val = (k 1).val; rw [e1, hk1]; omega

theorem iblk3_apply (c : Dev nD) (t : Fin cfg0.N) (x : S256x6.Idx) (k : S4096x6.Idx)
    (hk0 : (k 0).val = 256 * t.val + (x 0).val) (hk1 : (k 1).val = (x 1).val) :
    (iblk m c 3 t : Vec F S256x6 .f32) x = (V m c main_v28 : S4096x6.Idx → Elt F .f32) k := by
  obtain ⟨-, -, -, -, -, -, e0, e1, -⟩ := idx_facts t
  unfold iblk
  rw [View.read_apply]
  show V m c main_v28 _ = V m c main_v28 _
  congr 1
  funext a
  apply Fin.ext
  match a with
  | ⟨0, _⟩ => show win0_3.index t (0 : Fin 2) * 256 + 1 * (x 0).val = (k 0).val; rw [e0, hk0]; omega
  | ⟨1, _⟩ => show win0_3.index t (1 : Fin 2) * 6 + 1 * (x 1).val = (k 1).val; rw [e1, hk1]; omega

end Cert.KernelIdeal.KVal

end
-- ==== Proof.KVal2.lean ====
/-
  The per-row auxiliary array as the region finds it. The host lines before the region end with six [4096] vectors
  each viewed as a [4096, 1] column and the six columns joined side by side: padding, applied delay, the sensitivity
  multiplier, the profile's delay target, the profile's padding target, confidence. Three of the six are arguments;
  the other three are gathered from small constant tables by the profile id (the multiplier by the profile id modulo
  4, taken with the sign of the divisor). So the array at (r, j) is the j-th of those six per-row values at row r.
-/
import proofs.«144307_j48833778156001_2_alg».proof.Proof.KIFrame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.KVal

open Cert.KernelIdeal Cert.KernelIdeal.Gen Cert.KernelIdeal.Frm

variable {F : FTy → Type} [FloatOps F]

/-- Running two lists of host lines one after the other. -/
theorem after_append (A B : List (HloOp τ sig (Elt F))) (M : Valuation τ sig (Elt F)) :
    StableHlo.after (A ++ B) M = StableHlo.after B (StableHlo.after A M) := by
  induction A generalizing M with
  | nil => rfl
  | cons a A ih => simp only [List.cons_append, StableHlo.after_cons, ih]

/-! ## The three gathered per-row values, as functions of the profile ids -/

/-- The divisor 4, replaced by 1 if it were 0. -/
def divisor : IVec S_ 32 :=
  select (cmpi .eq (constantI S_ 32 4#32) (constantI S_ 32 0#32)) (constantI S_ 32 1#32) (constantI S_ 32 4#32)
/-- The truncated remainder of the profile id by the divisor. -/
def truncRem (a6 : IVec S4096 32) : IVec S4096 32 :=
  Host.remsi a6 (broadcastInDim S4096 ![] bcast_S_S4096 divisor)
/-- The remainder with the divisor's sign: the truncated one, plus the divisor where it is nonzero and of the other sign. -/
def floorRem (a6 : IVec S4096 32) : IVec S4096 32 :=
  select (andi (cmpi .ne (cmpi .slt (truncRem a6) (broadcastInDim S4096 ![] bcast_S_S4096 (constantI S_ 32 0#32))) (broadcastInDim S4096 ![] bcast_S_S4096 (cmpi .slt divisor (constantI S_ 32 0#32)))) (cmpi .ne (truncRem a6) (broadcastInDim S4096 ![] bcast_S_S4096 (constantI S_ 32 0#32)))) (addi (truncRem a6) (broadcastInDim S4096 ![] bcast_S_S4096 divisor)) (truncRem a6)
/-- The index into the table of four multipliers: a negative one counted from the end. -/
def multIdx (a6 : IVec S4096 32) : IVec S4096 32 :=
  select (cmpi .slt (floorRem a6) (broadcastInDim S4096 ![] bcast_S_S4096 (constantI S_ 32 0#32))) (addi (floorRem a6) (broadcastInDim S4096 ![] bcast_S_S4096 (constantI S_ 32 4#32))) (floorRem a6)
/-- The sensitivity multiplier of each row. -/
def mlK (a6 : IVec S4096 32) : FVec F S4096 .f32 :=
  Host.gather gather_S4_S4096x1_S4096_n_0_n_n_0_1_1 (fun i => FloatOps.ofBits .f32 (lit2 (S4.rowMajor i))) (broadcastInDim S4096x1 ![0] bcast_S4096_S4096x1_0 (multIdx a6))
/-- The index into a table of five per-profile targets: a negative one counted from the end. -/
def profIdx (a6 : IVec S4096 32) : IVec S4096 32 :=
  select (cmpi .slt a6 (broadcastInDim S4096 ![] bcast_S_S4096 (constantI S_ 32 0#32))) (addi a6 (broadcastInDim S4096 ![] bcast_S_S4096 (constantI S_ 32 5#32))) a6
/-- The profile's delay target of each row. -/
def tdK (a6 : IVec S4096 32) : FVec F S4096 .f32 :=
  Host.gather gather_S5_S4096x1_S4096_n_0_n_n_0_1_1 (fun i => FloatOps.ofBits .f32 (lit0 (S5.rowMajor i))) (broadcastInDim S4096x1 ![0] bcast_S4096_S4096x1_0 (profIdx a6))
/-- The profile's padding target of each row. -/
def tpK (a6 : IVec S4096 32) : FVec F S4096 .f32 :=
  Host.gather gather_S5_S4096x1_S4096_n_0_n_n_0_1_1 (fun i => FloatOps.ofBits .f32 (lit1 (S5.rowMajor i))) (broadcastInDim S4096x1 ![0] bcast_S4096_S4096x1_0 (profIdx a6))

/-! ## The host lines before the region, in three stretches -/

/-- Everything before the six column views. -/
abbrev opsP : List (HloOp τ sig (Elt F)) := hostOps0 ++ hostOps0_1 ++ hostOps0_2.take 9
/-- The six column views. -/
abbrev opsQ : List (HloOp τ sig (Elt F)) := (hostOps0_2.drop 9).take 6
/-- The joining of the six columns. -/
abbrev opN : HloOp τ sig (Elt F) :=
  StableHlo.nary ![main_v22, main_v23, main_v24, main_v25, main_v26, main_v27] main_v28 (fun u => concatenate S4096x6 1 [⟨S4096x1, u 0⟩, ⟨S4096x1, u 1⟩, ⟨S4096x1, u 2⟩, ⟨S4096x1, u 3⟩, ⟨S4096x1, u 4⟩, ⟨S4096x1, u 5⟩] concatenates_S4096x1_S4096x1_S4096x1_S4096x1_S4096x1_S4096x1_S4096x6_d1)

theorem flatten_eq : List.flatten [hostOps0, hostOps0_1, hostOps0_2 (F := F)] = opsP ++ opsQ ++ [opN] := rfl

/-- The six column views read the arguments and the three gathered vectors as the earlier lines left them. -/
theorem opsQ_results (W : Valuation τ sig (Elt F)) :
    StableHlo.after opsQ W (Proc.devRef .tc main_v22) = broadcastInDim S4096x1 ![0] bcast_S4096_S4096x1_0 (W (Proc.devRef .tc main_arg4))
    ∧ StableHlo.after opsQ W (Proc.devRef .tc main_v23) = broadcastInDim S4096x1 ![0] bcast_S4096_S4096x1_0 (W (Proc.devRef .tc main_arg3))
    ∧ StableHlo.after opsQ W (Proc.devRef .tc main_v24) = broadcastInDim S4096x1 ![0] bcast_S4096_S4096x1_0 (W (Proc.devRef .tc main_v21))
    ∧ StableHlo.after opsQ W (Proc.devRef .tc main_v25) = broadcastInDim S4096x1 ![0] bcast_S4096_S4096x1_0 (W (Proc.devRef .tc main_v6))
    ∧ StableHlo.after opsQ W (Proc.devRef .tc main_v26) = broadcastInDim S4096x1 ![0] bcast_S4096_S4096x1_0 (W (Proc.devRef .tc main_v13))
    ∧ StableHlo.after opsQ W (Proc.devRef .tc main_v27) = broadcastInDim S4096x1 ![0] bcast_S4096_S4096x1_0 (W (Proc.devRef .tc main_arg5)) := by
  simp only [opsQ, hostOps0_2, List.drop_succ_cons, List.drop_zero, List.take_succ_cons, List.take_zero]
  refine ⟨?_, ?_, ?_, ?_, ?_, ?_⟩ <;> after_results

/-- The auxiliary array when the region is entered: the six columns side by side. -/
theorem after_aux (M : Valuation τ sig (Elt F)) :
    (StableHlo.after (List.flatten [hostOps0, hostOps0_1, hostOps0_2 (F := F)]) M (Proc.devRef .tc main_v28) : S4096x6.Idx → Elt F .f32)
      = concatenate S4096x6 1
          [⟨S4096x1, broadcastInDim S4096x1 ![0] bcast_S4096_S4096x1_0 (StableHlo.after opsP M (Proc.devRef .tc main_arg4))⟩,
           ⟨S4096x1, broadcastInDim S4096x1 ![0] bcast_S4096_S4096x1_0 (StableHlo.after opsP M (Proc.devRef .tc main_arg3))⟩,
           ⟨S4096x1, broadcastInDim S4096x1 ![0] bcast_S4096_S4096x1_0 (StableHlo.after opsP M (Proc.devRef .tc main_v21))⟩,
           ⟨S4096x1, broadcastInDim S4096x1 ![0] bcast_S4096_S4096x1_0 (StableHlo.after opsP M (Proc.devRef .tc main_v6))⟩,
           ⟨S4096x1, broadcastInDim S4096x1 ![0] bcast_S4096_S4096x1_0 (StableHlo.after opsP M (Proc.devRef .tc main_v13))⟩,
           ⟨S4096x1, broadcastInDim S4096x1 ![0] bcast_S4096_S4096x1_0 (StableHlo.after opsP M (Proc.devRef .tc main_arg5))⟩]
          concatenates_S4096x1_S4096x1_S4096x1_S4096x1_S4096x1_S4096x1_S4096x6_d1 := by
  rw [flatten_eq, after_append, after_append]
  generalize StableHlo.after opsP M = W
  obtain ⟨h22, h23, h24, h25, h26, h27⟩ := opsQ_results W
  rw [← h22, ← h23, ← h24, ← h25, ← h26, ← h27]
  generalize StableHlo.after opsQ W = W'
  show (opN (F := F)).result W' (Proc.devRef .tc main_v28) = _
  exact StableHlo.nary_result _ _ _ _ _ W'

end Cert.KernelIdeal.KVal

end
-- ==== Proof.KVal3.lean ====
/-
  What the host lines before the six column views leave: the arguments untouched, and in the three gathered vectors
  the sensitivity multiplier, the delay target and the padding target of each row's profile.
-/
import proofs.«144307_j48833778156001_2_alg».proof.Proof.KVal2

set_option maxRecDepth 16384

noncomputable section

open Idealize.ShloMosaic Idealize.ShloMosaic.TcCoe Idealize.SL.Sem Idealize.ShloMosaic.ValueIdx Idealize.ShloMosaic.StableHlo

namespace Cert.KernelIdeal.KVal

open Cert.KernelIdeal Cert.KernelIdeal.Gen Cert.KernelIdeal.Frm

variable {F : FTy → Type} [FloatOps F]

set_option maxHeartbeats 4000000 in
/-- The earlier host lines write none of the three per-row arguments that become columns. -/
theorem opsP_args (M : Valuation τ sig (Elt F)) :
    StableHlo.after opsP M (Proc.devRef .tc main_arg3) = M (Proc.devRef .tc main_arg3)
    ∧ StableHlo.after opsP M (Proc.devRef .tc main_arg4) = M (Proc.devRef .tc main_arg4)
    ∧ StableHlo.after opsP M (Proc.devRef .tc main_arg5) = M (Proc.devRef .tc main_arg5) := by
  simp only [opsP, hostOps0, hostOps0_1, hostOps0_2, List.take_succ_cons, List.take_zero, List.cons_append, List.nil_append]
  refine ⟨?_, ?_, ?_⟩ <;> after_results

set_option maxHeartbeats 8000000 in
/-- The delay target is gathered from its table at the profile id. -/
theorem opsP_v6 (M : Valuation τ sig (Elt F)) :
    StableHlo.after opsP M (Proc.devRef .tc main_v6) = tdK (F := F) (M (Proc.devRef .tc main_arg6)) := by
  simp only [opsP, hostOps0, hostOps0_1, hostOps0_2, List.take_succ_cons, List.take_zero, List.cons_append, List.nil_append]
  after_results_simp
  rfl

set_option maxHeartbeats 8000000 in
/-- The padding target is gathered from its table at the profile id. -/
theorem opsP_v13 (M : Valuation τ sig (Elt F)) :
    StableHlo.after opsP M (Proc.devRef .tc main_v13) = tpK (F := F) (M (Proc.devRef .tc main_arg6)) := by
  simp only [opsP, hostOps0, hostOps0_1, hostOps0_2, List.take_succ_cons, List.take_zero, List.cons_append, List.nil_append]
  after_results_simp
  rfl

set_option maxHeartbeats 16000000 in
/-- The multiplier is gathered from its table at the profile id modulo 4. -/
theorem opsP_v21 (M : Valuation τ sig (Elt F)) :
    StableHlo.after opsP M (Proc.devRef .tc main_v21) = mlK (F := F) (M (Proc.devRef .tc main_arg6)) := by
  simp only [opsP, hostOps0, hostOps0_1, hostOps0_2, List.take_succ_cons, List.take_zero, List.cons_append, List.nil_append]
  after_results_simp
  rfl

end Cert.KernelIdeal.KVal

end
-- ==== Proof.Spec.lean ====
/-
  The common reading of the two programs, per row.

  Every row of the three [4096, 2048] arrays is a sequence of 2048 packets (size, delay, direction); beside
  it the row carries an applied delay `dm`, a padding fraction `pn`, a sensitivity multiplier `ml`, two
  per-profile targets `td`, `tp` and a confidence `cf`. Both programs compute, per row, a suspicion score
  and from it four loss terms, then average each term over the 4096 rows and combine the four averages with
  fixed weights. Everything here is stated over the extended reals with the exact operations, per row and
  over curried row data, so that it does not depend on how many rows an array or a block holds.

  `lit w` is the extended real that the f32 bit pattern `w` denotes; `b2f b` is the 0/1 value of a bit.
-/
import Idealize.ShloMosaic.PureOps.Ideal
import Idealize.ShloMosaic.Lib.ValueIdx

noncomputable section

open scoped BigOperators

namespace Cert.DpiSpec

open Idealize.ShloMosaic

/-- The extended reals, as the values of f32 data. -/
abbrev E : Type := Ideal .f32

/-- The extended real an f32 bit pattern denotes. -/
def lit (w : BitVec 32) : E := FloatOps.ofBits (F := Ideal) .f32 w

/-- The 0/1 value of a bit: the bit widened to a word and read as a signed integer. -/
def b2f (b : BitVec 1) : E := FloatOps.sitofp (F := Ideal) .f32 (b.setWidth 32)

/-- The packet before packet `k` (for the first packet the value is not used). -/
def pred (k : Fin 2048) : Fin 2048 := ⟨k.val - 1, lt_of_le_of_lt (Nat.sub_le _ _) k.isLt⟩

/-- Packet sizes after the last packet is padded: the last one gains `pn * 1500` bytes, capped at 1500. -/
def msize (sz : Fin 2048 → BitVec 32) (pn : E) (k : Fin 2048) : E :=
  if k.val = 2047 then
    min (FloatOps.sitofp (F := Ideal) .f32 (sz k) + pn * lit 0x44BB8000#32) (lit 0x44BB8000#32)
  else FloatOps.sitofp (F := Ideal) .f32 (sz k)

/-- Packet delays after the applied delay is added to the last packet. -/
def mdelay (dl : Fin 2048 → E) (dm : E) (k : Fin 2048) : E :=
  if k.val = 2047 then dl k + dm else dl k

/-- The size of the previous packet; before the first packet it is `-1`. -/
def prevSize (sz : Fin 2048 → BitVec 32) (pn : E) (k : Fin 2048) : E :=
  if k.val = 0 then lit 0xBF800000#32 else msize sz pn (pred k)

/-- The direction of the previous packet; before the first packet it is the word `-1`. -/
def prevDir (dr : Fin 2048 → BitVec 32) (k : Fin 2048) : BitVec 32 :=
  if k.val = 0 then 0xFFFFFFFF#32 else dr (pred k)

/-- One packet's contribution to the suspicion score:
    `0.6 [size > 1400] + 0.4 [delay < 0.05] + 0.2 [|size - previous size| < 0.5] + 0.1 [direction changed]`,
    added from the left. -/
def inc (sz : Fin 2048 → BitVec 32) (dl : Fin 2048 → E) (dr : Fin 2048 → BitVec 32) (dm pn : E)
    (k : Fin 2048) : E :=
  ((lit 0x3F19999A#32 * b2f (FloatOps.cmpf .ogt (msize sz pn k) (lit 0x44AF0000#32))
      + lit 0x3ECCCCCD#32 * b2f (FloatOps.cmpf .olt (mdelay dl dm k) (lit 0x3D4CCCCD#32)))
      + lit 0x3E4CCCCD#32
        * b2f (FloatOps.cmpf .olt (FloatOps.absf (msize sz pn k - prevSize sz pn k)) (lit 0x3F000000#32)))
    + lit 0x3DCCCCCD#32 * b2f (IntOp.cmpi .ne (dr k) (prevDir dr k))

/-- A row's suspicion score: the mean contribution of its 2048 packets, times 100, times the multiplier. -/
def rowScore (sz : Fin 2048 → BitVec 32) (dl : Fin 2048 → E) (dr : Fin 2048 → BitVec 32) (dm pn ml : E) : E :=
  Ideal.div (∑ k : Fin 2048, inc sz dl dr dm pn k) (lit 0x45000000#32) * lit 0x42C80000#32 * ml

/-- The detection term: the score's excess over 15. -/
def rowT0 (sz : Fin 2048 → BitVec 32) (dl : Fin 2048 → E) (dr : Fin 2048 → BitVec 32) (dm pn ml : E) : E :=
  max (rowScore sz dl dr dm pn ml - lit 0x41700000#32) (lit 0x00000000#32)

/-- The similarity term: the distances of delay and padding from the profile's targets. -/
def rowT1 (dm pn td tp : E) : E :=
  FloatOps.absf (F := Ideal) (φ := .f32) (dm - td) + FloatOps.absf (F := Ideal) (φ := .f32) (pn - tp)

/-- The delay part of the efficiency term: the applied delay's excess over 20. -/
def rowT2a (dm : E) : E := max (dm - lit 0x41A00000#32) (lit 0x00000000#32)

/-- The padding part of the efficiency term: the padding's excess over 0.3. -/
def rowT2b (pn : E) : E := max (pn - lit 0x3E99999A#32) (lit 0x00000000#32)

/-- The efficiency term of one row: the delay part over 20, plus the padding part. -/
def rowT2 (dm pn : E) : E := Ideal.div (rowT2a dm) (lit 0x41A00000#32) + rowT2b pn

/-- The confidence term: the squared distance of the confidence from the bit "score below 30". -/
def rowT3 (sz : Fin 2048 → BitVec 32) (dl : Fin 2048 → E) (dr : Fin 2048 → BitVec 32) (dm pn ml cf : E) : E :=
  (cf - b2f (FloatOps.cmpf .olt (rowScore sz dl dr dm pn ml) (lit 0x41F00000#32)))
    * (cf - b2f (FloatOps.cmpf .olt (rowScore sz dl dr dm pn ml) (lit 0x41F00000#32)))

/-- The mean over the 4096 rows. -/
def mean (f : Fin 4096 → E) : E := Ideal.div (∑ r : Fin 4096, f r) (lit 0x45800000#32)

/-- The total when the efficiency term is averaged as one per-row term:
    `2 (mean T0 / 30) + 0.5 mean T1 + 0.3 mean T2 + 0.2 mean T3`, added from the left. -/
def totalK (T0 T1 T2 T3 : Fin 4096 → E) : E :=
  ((lit 0x40000000#32 * Ideal.div (mean T0) (lit 0x41F00000#32) + lit 0x3F000000#32 * mean T1)
      + lit 0x3E99999A#32 * mean T2)
    + lit 0x3E4CCCCD#32 * mean T3

/-- The total when the two parts of the efficiency term are averaged separately:
    the same with `mean T2a / 20 + mean T2b` in the place of `mean T2`. -/
def totalR (T0 T1 T2a T2b T3 : Fin 4096 → E) : E :=
  ((lit 0x40000000#32 * Ideal.div (mean T0) (lit 0x41F00000#32) + lit 0x3F000000#32 * mean T1)
      + lit 0x3E99999A#32 * (Ideal.div (mean T2a) (lit 0x41A00000#32) + mean T2b))
    + lit 0x3E4CCCCD#32 * mean T3

/-- The zero pattern denotes zero. -/
theorem lit_zero : lit 0x00000000#32 = 0 := by
  simp [lit, Ideal.ofBits, Ideal.ieee]

/-- Adding to the zero pattern's value changes nothing. -/
theorem lit_zero_add (x : E) : lit 0x00000000#32 + x = x := by
  rw [lit_zero]; exact zero_add x

/-- The set bit reads as one, the clear bit as zero. -/
theorem b2f_one : b2f 1#1 = 1 := by
  show (((BitVec.setWidth 32 (1#1)).toInt : ℝ) : EReal) = 1
  norm_num
theorem b2f_zero : b2f 0#1 = 0 := by
  show (((BitVec.setWidth 32 (0#1)).toInt : ℝ) : EReal) = 0
  norm_num

/-- Reading the bit unsigned at its own width gives the same 0/1 value. -/
theorem b2f_eq_uitofp (b : BitVec 1) : b2f b = FloatOps.uitofp (F := Ideal) .f32 b := by
  rcases BitVec.eq_zero_or_eq_one b with rfl | rfl
  · rw [b2f_zero]; show (0 : EReal) = (((0#1 : BitVec 1).toNat : ℝ) : EReal); norm_num
  · rw [b2f_one]; show (1 : EReal) = (((1#1 : BitVec 1).toNat : ℝ) : EReal); norm_num

end Cert.DpiSpec

end
-- ==== Proof.KPay.lean ====
/-
  The kernel body's stored value, read at an index.

  The body loads a [256, 2048] block of packet sizes, delays and directions and six [256, 1] columns of per-row
  data, and stores a [256, 4] block. Here that stored block is a pure function `stored` of what is loaded
  (the generated payloads applied to one another as the body applies them), and its four columns at row `q`
  are the four per-row loss terms of the common reading (Spec.lean) on row `q`'s data: `stored_col0` …
  `stored_col3`.

  The layout operations are read at an index first: a column broadcast along the lanes, the lane index,
  a rotation by one lane (the previous packet), a select on "lane = n", the lane sum, the [256] → [256, 1]
  shape cast and the concatenation of four columns. The arithmetic is pointwise, so each payload at an
  index unfolds to the scalar expression of the common reading by definition.
-/
import proofs.«144307_j48833778156001_2_alg».proof.Proof.Gen.KernelIdeal.Skeleton
import proofs.«144307_j48833778156001_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.KPay

open Idealize.ShloMosaic Idealize.ShloMosaic.ValueIdx
open Cert.KernelIdeal Cert.KernelIdeal.Gen
open Cert.DpiSpec (lit b2f pred msize mdelay prevSize prevDir inc rowScore rowT0 rowT1 rowT2a rowT2b rowT2 rowT3)

variable {α : Type}

/-- A [256,1] column broadcast along the lanes reads the column's entry of the row. -/
theorem bcast_col_apply (x : S256x1.Idx → α) (h : S256x1.Broadcasts S256x2048) (q : Fin 256) (k : Fin 2048) :
    broadcastTo S256x2048 x h (ix2 q k) = x (ix2 q 0) :=
  broadcastTo_apply x h (ix2 q k) (ix2 q 0) (fun a => match a with
    | ⟨0, _⟩ => rfl
    | ⟨1, _⟩ => rfl)

/-- The lane index read at (q, k) is the word k. -/
theorem iota_lane_apply (h : S256x2048.Iotas .tc 32 [1]) (q : Fin 256) (k : Fin 2048) :
    iota .tc S256x2048 32 [1] h (ix2 q k) = BitVec.ofNat 32 k.val :=
  iota_single_apply .tc S256x2048 32 1 h (ix2 q k)

/-- A rotation by one lane reads the previous lane (away from lane 0). -/
theorem rot1_apply (x : S256x2048.Idx → α) (h : S256x2048.Rotates 1 none) (q : Fin 256) (k : Fin 2048) (hk : k.val ≠ 0) :
    dynamicRotate 1 1#32 none x h (ix2 q k) = x (ix2 q (pred k)) := by
  unfold dynamicRotate
  refine congrArg x (funext fun b => ?_)
  match b with
  | ⟨0, _⟩ => rfl
  | ⟨1, _⟩ =>
    refine Fin.ext ?_
    show (k.val + 2048 - (1#32 : BitVec 32).toNat % 2048) % 2048 = k.val - 1
    have := k.isLt
    simp
    omega

/-- A select on "the lane word is the word n", for a lane number n, is the `if` on the lane. -/
theorem select_lane_eq (k : Fin 2048) (n : Nat) (hn : n < 2048) (A B : α) :
    Scalar.select (IntOp.cmpi .eq (BitVec.ofNat 32 k.val) (BitVec.ofNat 32 n)) A B = if k.val = n then A else B := by
  have hk := k.isLt
  by_cases h : k.val = n
  · rw [if_pos h, h]; simp [Scalar.select, IntOp.cmpi]
  · rw [if_neg h]
    have hne : BitVec.ofNat 32 k.val ≠ BitVec.ofNat 32 n := by
      intro e
      have := congrArg BitVec.toNat e
      simp only [BitVec.toNat_ofNat] at this
      omega
    have hb : (BitVec.ofNat 32 k.val == BitVec.ofNat 32 n) = false := beq_eq_false_iff_ne.mpr hne
    show (if BitVec.ofBool (BitVec.ofNat 32 k.val == BitVec.ofNat 32 n) = 1#1 then A else B) = B
    rw [hb]
    exact if_neg (by decide)

/-- The same shape cast is the identity on a [256,1] column. -/
theorem col_cast_self (v : S256x1.Idx → α) (h : S256x1.ShapeCasts S256x1) : shapeCast S256x1 v h = v :=
  shapeCast_self v h

/-- A [256] vector viewed as a [256,1] column reads its entry of the row. -/
theorem col_of_vec_apply (v : S256.Idx → α) (h : S256.ShapeCasts S256x1) (q : Fin 256) :
    shapeCast S256x1 v h (ix2 q 0) = v (ix1 q) :=
  shapeCast_apply v h (ix2 q 0) (ix1 q) (by
    rw [Shape.rowMajor_val_one, Shape.rowMajor_val_two]; simp)
/-- The lane sum of a [256,2048] vector at row q is the sum over the row's 2048 lanes. -/
theorem lane_sum_apply (src : FVec Ideal S256x2048 .f32) (q : Fin 256) :
    multiReduction .add [1] S256 src 0x00000000#32 reduces_S256x2048_S256 (.inl rfl) rfl (ix1 q)
      = ∑ k : Fin 2048, src (ix2 q k) := by
  refine (Ideal.multiReduction_add_single src 0x00000000#32 reduces_S256x2048_S256 (.inl rfl) rfl (ix1 q)).trans ?_
  show ∑ k : Fin 2048, src (reduces_S256x2048_S256.lift (ix1 q) k) = ∑ k : Fin 2048, src (ix2 q k)
  refine Finset.sum_congr rfl fun k _ => congrArg src (funext fun b => ?_)
  match b with
  | ⟨0, _⟩ => exact Fin.ext rfl
  | ⟨1, _⟩ => exact Fin.ext rfl

theorem pay2_eq (v4 : Vec Ideal S256x1 .f32) : k0_pay2 v4 = v4 := col_cast_self v4 _
theorem pay3_eq (v : Vec Ideal S256x1 .f32) : k0_pay3 v = v := col_cast_self v _
theorem pay4_eq (v : Vec Ideal S256x1 .f32) : k0_pay4 v = v := col_cast_self v _
theorem pay5_eq (v : Vec Ideal S256x1 .f32) : k0_pay5 v = v := col_cast_self v _
theorem pay6_eq (v : Vec Ideal S256x1 .f32) : k0_pay6 v = v := col_cast_self v _
theorem pay7_eq (v : Vec Ideal S256x1 .f32) : k0_pay7 v = v := col_cast_self v _

theorem pay9_apply (v0 : Vec Ideal S256x2048 .i32) (v4 : Vec Ideal S256x1 .f32) (q : Fin 256) (k : Fin 2048) :
    k0_pay9 v0 v4 (ix2 q k) = msize (fun k => v0 (ix2 q k)) (v4 (ix2 q 0)) k := by
  show Scalar.select (IntOp.cmpi .eq (iota .tc S256x2048 32 [1] iota_S256x2048_d1_w32 (ix2 q k)) 2047#32)
      (min (FloatOps.sitofp (F := Ideal) .f32 (v0 (ix2 q k)) + broadcastTo S256x2048 (mulf (k0_pay2 v4) (broadcast S256x1 (lit 0x44BB8000#32))) broadcasts_S256x1_S256x2048 (ix2 q k)) (lit 0x44BB8000#32))
      (FloatOps.sitofp (F := Ideal) .f32 (v0 (ix2 q k))) = _
  rw [iota_lane_apply, bcast_col_apply, pay2_eq, select_lane_eq k 2047 (by omega)]
  rfl

theorem pay10_apply (v2 : Vec Ideal S256x2048 .f32) (v6 : Vec Ideal S256x1 .f32) (q : Fin 256) (k : Fin 2048) :
    k0_pay10 v2 v6 (ix2 q k) = mdelay (fun k => v2 (ix2 q k)) (v6 (ix2 q 0)) k := by
  show Scalar.select (IntOp.cmpi .eq (iota .tc S256x2048 32 [1] iota_S256x2048_d1_w32 (ix2 q k)) 2047#32)
      (v2 (ix2 q k) + broadcastTo S256x2048 (k0_pay3 v6) broadcasts_S256x1_S256x2048 (ix2 q k))
      (v2 (ix2 q k)) = _
  rw [iota_lane_apply, bcast_col_apply, pay3_eq, select_lane_eq k 2047 (by omega)]
  rfl

theorem pay11_apply (v0 : Vec Ideal S256x2048 .i32) (v4 : Vec Ideal S256x1 .f32) (q : Fin 256) (k : Fin 2048) :
    k0_pay11 v0 v4 (ix2 q k) = prevSize (fun k => v0 (ix2 q k)) (v4 (ix2 q 0)) k := by
  show Scalar.select (IntOp.cmpi .eq (iota .tc S256x2048 32 [1] iota_S256x2048_d1_w32 (ix2 q k)) 0#32)
      (lit 0xBF800000#32) (dynamicRotate 1 1#32 none (k0_pay9 v0 v4) rotates_S256x2048_d1 (ix2 q k)) = _
  rw [iota_lane_apply, select_lane_eq k 0 (by omega)]
  unfold prevSize
  by_cases h : k.val = 0
  · rw [if_pos h, if_pos h]
  · rw [if_neg h, if_neg h, rot1_apply _ _ q k h, pay9_apply]

/-- Four [256,1] columns side by side read, at column c of row q, the c-th column's entry of the row. -/
theorem concat4_apply (x0 x1 x2 x3 : S256x1.Idx → α)
    (h : Shape.Concatenates [S256x1, S256x1, S256x1, S256x1] S256x4 1) (q : Fin 256) :
    concatenate S256x4 1 [⟨S256x1, x0⟩, ⟨S256x1, x1⟩, ⟨S256x1, x2⟩, ⟨S256x1, x3⟩] h (ix2 q 0) = x0 (ix2 q 0)
    ∧ concatenate S256x4 1 [⟨S256x1, x0⟩, ⟨S256x1, x1⟩, ⟨S256x1, x2⟩, ⟨S256x1, x3⟩] h (ix2 q 1) = x1 (ix2 q 0)
    ∧ concatenate S256x4 1 [⟨S256x1, x0⟩, ⟨S256x1, x1⟩, ⟨S256x1, x2⟩, ⟨S256x1, x3⟩] h (ix2 q 2) = x2 (ix2 q 0)
    ∧ concatenate S256x4 1 [⟨S256x1, x0⟩, ⟨S256x1, x1⟩, ⟨S256x1, x2⟩, ⟨S256x1, x3⟩] h (ix2 q 3) = x3 (ix2 q 0) := by
  have hi : ∀ (c : Fin 4) (b : Fin S256x1.rank), b.cast (rfl : S256x1.rank = S256x4.rank) ≠ (1 : Fin S256x4.rank) →
      ((ix2 q (0 : Fin 1) : S256x1.Idx) b).val = ((ix2 q c : S256x4.Idx) (b.cast rfl)).val := fun c b hb =>
    match b, hb with
    | ⟨0, _⟩, _ => rfl
    | ⟨1, _⟩, hb => absurd rfl hb
  refine ⟨?_, ?_, ?_, ?_⟩
  · exact concatenate_apply_piece (t := S256x4) 1 [⟨S256x1, x0⟩, ⟨S256x1, x1⟩, ⟨S256x1, x2⟩, ⟨S256x1, x3⟩] h (ix2 q 0) 0 (by show 0 < 4; omega) S256x1 x0 rfl rfl 0 rfl (ix2 q 0) (hi 0) rfl
  · exact concatenate_apply_piece (t := S256x4) 1 [⟨S256x1, x0⟩, ⟨S256x1, x1⟩, ⟨S256x1, x2⟩, ⟨S256x1, x3⟩] h (ix2 q 1) 1 (by show 1 < 4; omega) S256x1 x1 rfl rfl 1 rfl (ix2 q 0) (hi 1) rfl
  · exact concatenate_apply_piece (t := S256x4) 1 [⟨S256x1, x0⟩, ⟨S256x1, x1⟩, ⟨S256x1, x2⟩, ⟨S256x1, x3⟩] h (ix2 q 2) 2 (by show 2 < 4; omega) S256x1 x2 rfl rfl 2 rfl (ix2 q 0) (hi 2) rfl
  · exact concatenate_apply_piece (t := S256x4) 1 [⟨S256x1, x0⟩, ⟨S256x1, x1⟩, ⟨S256x1, x2⟩, ⟨S256x1, x3⟩] h (ix2 q 3) 3 (by show 3 < 4; omega) S256x1 x3 rfl rfl 3 rfl (ix2 q 0) (hi 3) rfl

/-- The per-packet contributions of a block, as the kernel body spells them over its intermediate vectors:
    the direction vector, the lane index, the padded sizes, the adjusted delays and the previous sizes. -/
def incVec (v3 : Vec Ideal S256x2048 .i32) (v16 : IVec S256x2048 32) (v25 v28 v33 : FVec Ideal S256x2048 .f32)
    (c : BitVec 32) : FVec Ideal S256x2048 .f32 :=
  addf (addf (addf
      (mulf (broadcast S256x2048 (lit 0x3F19999A#32))
        (sitofp .f32 (extui 32 (cmpf .ogt v25 (broadcast S256x2048 (lit 0x44AF0000#32))) natLt_1_32)))
      (mulf (broadcast S256x2048 (lit 0x3ECCCCCD#32))
        (sitofp .f32 (extui 32 (cmpf .olt v28 (broadcast S256x2048 (lit 0x3D4CCCCD#32))) natLt_1_32))))
      (mulf (broadcast S256x2048 (lit 0x3E4CCCCD#32))
        (sitofp .f32 (extui 32 (cmpf .olt (absf (subf v25 v33)) (broadcast S256x2048 (lit 0x3F000000#32))) natLt_1_32))))
    (mulf (broadcast S256x2048 (lit 0x3DCCCCCD#32))
      (sitofp .f32 (extui 32
        (cmpi .ne v3 (select (cmpi .eq v16 (broadcast S256x2048 0#32)) (broadcast S256x2048 4294967295#32)
          (dynamicRotate 1 c none v3 rotates_S256x2048_d1))) natLt_1_32)))

/-- The score payload is the lane sum of the contributions, over 2048, times 100, times the multiplier column. -/
theorem pay12_eq (v3 : Vec Ideal S256x2048 .i32) (v9 : FVec Ideal S256x1 .f32) (v16 : IVec S256x2048 32)
    (v25 v28 v33 : FVec Ideal S256x2048 .f32) (c : BitVec 32) :
    k0_pay12 v3 v9 v16 v25 v28 v33 c
      = mulf (mulf (divf (shapeCast S256x1
            (multiReduction .add [1] S256 (incVec v3 v16 v25 v28 v33 c) 0x00000000#32 reduces_S256x2048_S256 (.inl rfl) rfl)
            shapeCasts_S256_S256x1) (broadcast S256x1 (lit 0x45000000#32))) (broadcast S256x1 (lit 0x42C80000#32))) v9 :=
  rfl

theorem incVec_apply (v0 : Vec Ideal S256x2048 .i32) (v2 : Vec Ideal S256x2048 .f32) (v3 : Vec Ideal S256x2048 .i32)
    (v4 v6 : Vec Ideal S256x1 .f32) (q : Fin 256) (k : Fin 2048) :
    incVec v3 (iota .tc S256x2048 32 [1] iota_S256x2048_d1_w32) (k0_pay9 v0 v4) (k0_pay10 v2 v6) (k0_pay11 v0 v4) 1#32 (ix2 q k)
      = inc (fun k => v0 (ix2 q k)) (fun k => v2 (ix2 q k)) (fun k => v3 (ix2 q k)) (v6 (ix2 q 0)) (v4 (ix2 q 0)) k := by
  show ((lit 0x3F19999A#32 * b2f (FloatOps.cmpf .ogt (k0_pay9 v0 v4 (ix2 q k)) (lit 0x44AF0000#32))
      + lit 0x3ECCCCCD#32 * b2f (FloatOps.cmpf .olt (k0_pay10 v2 v6 (ix2 q k)) (lit 0x3D4CCCCD#32)))
      + lit 0x3E4CCCCD#32
        * b2f (FloatOps.cmpf .olt (FloatOps.absf (k0_pay9 v0 v4 (ix2 q k) - k0_pay11 v0 v4 (ix2 q k))) (lit 0x3F000000#32)))
    + lit 0x3DCCCCCD#32 * b2f (IntOp.cmpi .ne (v3 (ix2 q k))
        (Scalar.select (IntOp.cmpi .eq (iota .tc S256x2048 32 [1] iota_S256x2048_d1_w32 (ix2 q k)) 0#32) 4294967295#32
          (dynamicRotate 1 1#32 none v3 rotates_S256x2048_d1 (ix2 q k)))) = _
  rw [pay9_apply, pay10_apply, pay11_apply, iota_lane_apply, select_lane_eq k 0 (by omega)]
  unfold inc prevDir
  by_cases h : k.val = 0
  · rw [if_pos h, if_pos h]
  · rw [if_neg h, if_neg h, rot1_apply _ _ q k h]

/-- The block's stored value: the body's payloads over what it loads. -/
def stored (v0 : Vec Ideal S256x2048 .i32) (v2 : FVec Ideal S256x2048 .f32) (v3 : Vec Ideal S256x2048 .i32)
    (v4 v6 v8 v10 v12 v14 : Vec Ideal S256x1 .f32) : FVec Ideal S256x4 .f32 :=
  k0_pay1 (k0_pay2 v4) (k0_pay3 v6) (k0_pay6 v12) (k0_pay7 v14)
    (k0_pay12 v3 (k0_pay4 v8) (iota .tc S256x2048 32 [1] iota_S256x2048_d1_w32) (k0_pay9 v0 v4) (k0_pay10 v2 v6) (k0_pay11 v0 v4) 1#32)
    (k0_pay13 v3 (k0_pay4 v8) (iota .tc S256x2048 32 [1] iota_S256x2048_d1_w32) (k0_pay9 v0 v4) (k0_pay10 v2 v6) (k0_pay11 v0 v4) 1#32)
    (k0_pay14 (k0_pay3 v6) (k0_pay5 v10))

/-- The score payload at row q is the row's score. -/
theorem score_apply (v0 : Vec Ideal S256x2048 .i32) (v2 : FVec Ideal S256x2048 .f32) (v3 : Vec Ideal S256x2048 .i32)
    (v4 v6 v8 : Vec Ideal S256x1 .f32) (q : Fin 256) :
    k0_pay12 v3 (k0_pay4 v8) (iota .tc S256x2048 32 [1] iota_S256x2048_d1_w32) (k0_pay9 v0 v4) (k0_pay10 v2 v6) (k0_pay11 v0 v4) 1#32 (ix2 q 0)
      = rowScore (fun k => v0 (ix2 q k)) (fun k => v2 (ix2 q k)) (fun k => v3 (ix2 q k)) (v6 (ix2 q 0)) (v4 (ix2 q 0)) (v8 (ix2 q 0)) := by
  rw [pay12_eq, pay4_eq]
  show Ideal.div (shapeCast S256x1 (multiReduction (F := Ideal) .add [1] S256
        (incVec v3 (iota .tc S256x2048 32 [1] iota_S256x2048_d1_w32) (k0_pay9 v0 v4) (k0_pay10 v2 v6) (k0_pay11 v0 v4) 1#32)
        0x00000000#32 reduces_S256x2048_S256 (.inl rfl) rfl)
      shapeCasts_S256_S256x1 (ix2 q 0)) (lit 0x45000000#32) * lit 0x42C80000#32 * v8 (ix2 q 0) = _
  rw [col_of_vec_apply, lane_sum_apply]
  unfold rowScore
  refine congrArg (fun s => Ideal.div s (lit 0x45000000#32) * lit 0x42C80000#32 * v8 (ix2 q 0)) ?_
  exact Finset.sum_congr rfl fun k _ => incVec_apply v0 v2 v3 v4 v6 q k

/-- The stored value unfolded to the four columns it concatenates. -/
theorem stored_eq (v0 : Vec Ideal S256x2048 .i32) (v2 : FVec Ideal S256x2048 .f32) (v3 : Vec Ideal S256x2048 .i32)
    (v4 v6 v8 v10 v12 v14 : Vec Ideal S256x1 .f32) :
    stored v0 v2 v3 v4 v6 v8 v10 v12 v14
      = concatenate S256x4 1
          [⟨S256x1, k0_pay13 v3 (k0_pay4 v8) (iota .tc S256x2048 32 [1] iota_S256x2048_d1_w32) (k0_pay9 v0 v4) (k0_pay10 v2 v6) (k0_pay11 v0 v4) 1#32⟩,
           ⟨S256x1, addf (k0_pay14 (k0_pay3 v6) (k0_pay5 v10)) (absf (subf (k0_pay2 v4) (k0_pay6 v12)))⟩,
           ⟨S256x1, addf (divf (maximumf (subf (k0_pay3 v6) (broadcast S256x1 (lit 0x41A00000#32))) (broadcast S256x1 (lit 0x00000000#32)))
                (broadcast S256x1 (lit 0x41A00000#32)))
              (maximumf (subf (k0_pay2 v4) (broadcast S256x1 (lit 0x3E99999A#32))) (broadcast S256x1 (lit 0x00000000#32)))⟩,
           ⟨S256x1, mulf
              (subf (k0_pay7 v14) (sitofp .f32 (extui 32 (cmpf .olt
                (k0_pay12 v3 (k0_pay4 v8) (iota .tc S256x2048 32 [1] iota_S256x2048_d1_w32) (k0_pay9 v0 v4) (k0_pay10 v2 v6) (k0_pay11 v0 v4) 1#32)
                (broadcast S256x1 (lit 0x41F00000#32))) natLt_1_32)))
              (subf (k0_pay7 v14) (sitofp .f32 (extui 32 (cmpf .olt
                (k0_pay12 v3 (k0_pay4 v8) (iota .tc S256x2048 32 [1] iota_S256x2048_d1_w32) (k0_pay9 v0 v4) (k0_pay10 v2 v6) (k0_pay11 v0 v4) 1#32)
                (broadcast S256x1 (lit 0x41F00000#32))) natLt_1_32)))⟩]
          concatenates_S256x1_S256x1_S256x1_S256x1_S256x4_d1 :=
  rfl

/-- Column 0 of the stored block is the detection term of the row. -/
theorem stored_col0 (v0 : Vec Ideal S256x2048 .i32) (v2 : FVec Ideal S256x2048 .f32) (v3 : Vec Ideal S256x2048 .i32)
    (v4 v6 v8 v10 v12 v14 : Vec Ideal S256x1 .f32) (q : Fin 256) :
    stored v0 v2 v3 v4 v6 v8 v10 v12 v14 (ix2 q 0)
      = rowT0 (fun k => v0 (ix2 q k)) (fun k => v2 (ix2 q k)) (fun k => v3 (ix2 q k)) (v6 (ix2 q 0)) (v4 (ix2 q 0)) (v8 (ix2 q 0)) := by
  rw [stored_eq]
  refine (concat4_apply _ _ _ _ _ q).1.trans ?_
  show max (k0_pay12 v3 (k0_pay4 v8) (iota .tc S256x2048 32 [1] iota_S256x2048_d1_w32) (k0_pay9 v0 v4) (k0_pay10 v2 v6) (k0_pay11 v0 v4) 1#32 (ix2 q 0)
      - lit 0x41700000#32) (lit 0x00000000#32) = _
  rw [score_apply]
  rfl

/-- Column 1 is the similarity term. -/
theorem stored_col1 (v0 : Vec Ideal S256x2048 .i32) (v2 : FVec Ideal S256x2048 .f32) (v3 : Vec Ideal S256x2048 .i32)
    (v4 v6 v8 v10 v12 v14 : Vec Ideal S256x1 .f32) (q : Fin 256) :
    stored v0 v2 v3 v4 v6 v8 v10 v12 v14 (ix2 q 1)
      = rowT1 (v6 (ix2 q 0)) (v4 (ix2 q 0)) (v10 (ix2 q 0)) (v12 (ix2 q 0)) := by
  rw [stored_eq]
  refine (concat4_apply _ _ _ _ _ q).2.1.trans ?_
  rw [pay2_eq, pay3_eq, pay5_eq, pay6_eq]
  rfl

/-- Column 2 is the efficiency term. -/
theorem stored_col2 (v0 : Vec Ideal S256x2048 .i32) (v2 : FVec Ideal S256x2048 .f32) (v3 : Vec Ideal S256x2048 .i32)
    (v4 v6 v8 v10 v12 v14 : Vec Ideal S256x1 .f32) (q : Fin 256) :
    stored v0 v2 v3 v4 v6 v8 v10 v12 v14 (ix2 q 2)
      = rowT2 (v6 (ix2 q 0)) (v4 (ix2 q 0)) := by
  rw [stored_eq]
  refine (concat4_apply _ _ _ _ _ q).2.2.1.trans ?_
  rw [pay2_eq, pay3_eq]
  rfl

/-- Column 3 is the confidence term. -/
theorem stored_col3 (v0 : Vec Ideal S256x2048 .i32) (v2 : FVec Ideal S256x2048 .f32) (v3 : Vec Ideal S256x2048 .i32)
    (v4 v6 v8 v10 v12 v14 : Vec Ideal S256x1 .f32) (q : Fin 256) :
    stored v0 v2 v3 v4 v6 v8 v10 v12 v14 (ix2 q 3)
      = rowT3 (fun k => v0 (ix2 q k)) (fun k => v2 (ix2 q k)) (fun k => v3 (ix2 q k)) (v6 (ix2 q 0)) (v4 (ix2 q 0)) (v8 (ix2 q 0))
          (v14 (ix2 q 0)) := by
  rw [stored_eq]
  refine (concat4_apply _ _ _ _ _ q).2.2.2.trans ?_
  show (k0_pay7 v14 (ix2 q 0) - b2f (FloatOps.cmpf .olt
        (k0_pay12 v3 (k0_pay4 v8) (iota .tc S256x2048 32 [1] iota_S256x2048_d1_w32) (k0_pay9 v0 v4) (k0_pay10 v2 v6) (k0_pay11 v0 v4) 1#32 (ix2 q 0))
        (lit 0x41F00000#32)))
      * (k0_pay7 v14 (ix2 q 0) - b2f (FloatOps.cmpf .olt
        (k0_pay12 v3 (k0_pay4 v8) (iota .tc S256x2048 32 [1] iota_S256x2048_d1_w32) (k0_pay9 v0 v4) (k0_pay10 v2 v6) (k0_pay11 v0 v4) 1#32 (ix2 q 0))
        (lit 0x41F00000#32))) = _
  rw [score_apply, pay7_eq]
  rfl

end Cert.KernelIdeal.KPay

end
-- ==== Proof.KAux.lean ====
/-
  Six [4096] vectors, each viewed as a [4096, 1] column and joined side by side into a [4096, 6] array:
  the array read at (r, j) is the j-th vector at r.
-/
import proofs.«144307_j48833778156001_2_alg».proof.Proof.Gen.KernelIdeal
import Idealize.ShloMosaic.Lib.ValueIdx
import Idealize.ShloMosaic.Lib.Pipeline.Value

noncomputable section

namespace Cert.KernelIdeal.KAux

open Idealize.ShloMosaic Idealize.ShloMosaic.ValueIdx
open Cert.KernelIdeal

variable {α : Type}

/-- A [4096] vector viewed as a [4096, 1] column reads, at row r, the vector's entry r. -/
theorem col_apply (x : S4096.Idx → α) (hb : S4096.BroadcastsInDim S4096x1 (![0] : Fin 1 → Fin S4096x1.rank))
    (r : Fin 4096) : broadcastInDim S4096x1 ![0] hb x (ix2 r 0) = x (ix1 r) :=
  broadcastInDim_apply (![0] : Fin 1 → Fin S4096x1.rank) hb x (ix2 r 0) (ix1 r) (fun a => match a with
    | ⟨0, _⟩ => rfl)

/-- Six such columns side by side read, at (r, j), the j-th vector at r. -/
theorem concat6_cols_apply (x0 x1 x2 x3 x4 x5 : S4096.Idx → α)
    (hb : S4096.BroadcastsInDim S4096x1 (![0] : Fin 1 → Fin S4096x1.rank))
    (h : Shape.Concatenates [S4096x1, S4096x1, S4096x1, S4096x1, S4096x1, S4096x1] S4096x6 1) (r : Fin 4096) :
    concatenate S4096x6 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 0) = x0 (ix1 r)
    ∧ concatenate S4096x6 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 1) = x1 (ix1 r)
    ∧ concatenate S4096x6 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 2) = x2 (ix1 r)
    ∧ concatenate S4096x6 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 3) = x3 (ix1 r)
    ∧ concatenate S4096x6 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 4) = x4 (ix1 r)
    ∧ concatenate S4096x6 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 5) = x5 (ix1 r) := by
  have hi : ∀ (c : Fin 6) (b : Fin S4096x1.rank), b.cast (rfl : S4096x1.rank = S4096x6.rank) ≠ (1 : Fin S4096x6.rank) →
      ((ix2 r (0 : Fin 1) : S4096x1.Idx) b).val = ((ix2 r c : S4096x6.Idx) (b.cast rfl)).val := fun c b hb =>
    match b, hb with
    | ⟨0, _⟩, _ => rfl
    | ⟨1, _⟩, hb => absurd rfl hb
  refine ⟨?_, ?_, ?_, ?_, ?_, ?_⟩
  · exact (concatenate_apply_piece (t := S4096x6) 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 0) 0 (by show 0 < 6; omega) S4096x1
      (broadcastInDim S4096x1 ![0] hb x0) rfl rfl 0 rfl (ix2 r 0) (hi 0) rfl).trans (col_apply x0 hb r)
  · exact (concatenate_apply_piece (t := S4096x6) 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 1) 1 (by show 1 < 6; omega) S4096x1
      (broadcastInDim S4096x1 ![0] hb x1) rfl rfl 1 rfl (ix2 r 0) (hi 1) rfl).trans (col_apply x1 hb r)
  · exact (concatenate_apply_piece (t := S4096x6) 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 2) 2 (by show 2 < 6; omega) S4096x1
      (broadcastInDim S4096x1 ![0] hb x2) rfl rfl 2 rfl (ix2 r 0) (hi 2) rfl).trans (col_apply x2 hb r)
  · exact (concatenate_apply_piece (t := S4096x6) 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 3) 3 (by show 3 < 6; omega) S4096x1
      (broadcastInDim S4096x1 ![0] hb x3) rfl rfl 3 rfl (ix2 r 0) (hi 3) rfl).trans (col_apply x3 hb r)
  · exact (concatenate_apply_piece (t := S4096x6) 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 4) 4 (by show 4 < 6; omega) S4096x1
      (broadcastInDim S4096x1 ![0] hb x4) rfl rfl 4 rfl (ix2 r 0) (hi 4) rfl).trans (col_apply x4 hb r)
  · exact (concatenate_apply_piece (t := S4096x6) 1 [⟨S4096x1, broadcastInDim S4096x1 ![0] hb x0⟩, ⟨S4096x1, broadcastInDim S4096x1 ![0] hb x1⟩, ⟨S4096x1, broadcastInDim S4096x1 ![0] hb x2⟩, ⟨S4096x1, broadcastInDim S4096x1 ![0] hb x3⟩, ⟨S4096x1, broadcastInDim S4096x1 ![0] hb x4⟩, ⟨S4096x1, broadcastInDim S4096x1 ![0] hb x5⟩] h (ix2 r 5) 5 (by show 5 < 6; omega) S4096x1
      (broadcastInDim S4096x1 ![0] hb x5) rfl rfl 5 rfl (ix2 r 0) (hi 5) rfl).trans (col_apply x5 hb r)

end Cert.KernelIdeal.KAux

end
-- ==== Proof.KTail.lean ====
/-
  The host line after the region, read down to the total of the common reading.

  After the region has written the [4096, 4] array of per-row terms, the host sums each column from the zero
  pattern, divides by 4096, cuts the four means out one by one and combines them with the fixed weights.
  Here that line's result is the total `totalK` of Spec.lean on the four columns, for any contents of the
  device's buffers before the line.
-/
import proofs.«144307_j48833778156001_2_alg».proof.Proof.Gen.KernelIdeal.Launch
import proofs.«144307_j48833778156001_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.KernelIdeal.KTail

open Idealize.ShloMosaic Idealize.ShloMosaic.ValueIdx Idealize.ShloMosaic.StableHlo
open Cert.KernelIdeal Cert.KernelIdeal.Gen
open Cert.DpiSpec (lit mean totalK)

variable {α : Type}

/-- Summing a [4096, 4] array over its rows is a reduction to its four columns. -/
theorem reduces_rows : S4096x4.Reduces [0] S4 := by decide

/-- The row sum of a [4096, 4] array from the zero pattern, at column j, is the sum of column j. -/
theorem col_sum_apply (X : FVec Ideal S4096x4 .f32) (j : Fin 4) :
    Host.reduceAdd X (constant S_ .f32 0x00000000#32) reducesTo_S4096x4_S4_d0 h_S_ (ix1 j)
      = ∑ r : Fin 4096, X (ix2 r j) := by
  show Ideal.hostReduceAdd reducesTo_S4096x4_S4_d0 X (lit 0x00000000#32) (ix1 j) = _
  refine (Ideal.hostReduceAdd_single reducesTo_S4096x4_S4_d0 reduces_rows X _ (ix1 j)).trans ?_
  rw [Cert.DpiSpec.lit_zero_add]
  show ∑ r : Fin 4096, X (reduces_rows.lift (ix1 j) r) = ∑ r : Fin 4096, X (ix2 r j)
  refine Finset.sum_congr rfl fun r _ => congrArg X (funext fun b => ?_)
  match b with
  | ⟨0, _⟩ => exact Fin.ext rfl
  | ⟨1, _⟩ => exact Fin.ext rfl

/-- The column sums over 4096, at column j, are the mean of column j. -/
theorem col_mean_apply (X : FVec Ideal S4096x4 .f32) (j : Fin 4) :
    Host.divf (Host.reduceAdd X (constant S_ .f32 0x00000000#32) reducesTo_S4096x4_S4_d0 h_S_)
        (broadcastInDim S4 ![] bcast_S_S4 (constant S_ .f32 0x45800000#32)) (ix1 j)
      = mean (fun r => X (ix2 r j)) := by
  show Ideal.div (Host.reduceAdd X (constant S_ .f32 0x00000000#32) reducesTo_S4096x4_S4_d0 h_S_ (ix1 j))
      (lit 0x45800000#32) = _
  rw [col_sum_apply]
  rfl

/-- Entry c of a [4] vector, cut out as a [1] slice and viewed as a scalar. -/
theorem slice_scalar_apply (v : S4.Idx → α) (off : Fin S4.rank → Nat) (c : Fin 4) (hoff : off 0 = c.val)
    (hs : S4.Slices off S1) (hc : S1.ShapeCasts S_) (i : S_.Idx) :
    shapeCast S_ (extractStridedSlice S1 off v hs) hc i = v (ix1 c) := by
  refine (shapeCast_apply _ hc i (ix1 0) ?_).trans ?_
  · rw [Shape.rowMajor_val_one]
    have h1 := (S_.rowMajor i).isLt
    have h2 : S_.numel = 1 := by decide
    show 0 = (S_.rowMajor i).val
    omega
  · exact extractStridedSlice_apply off v hs (ix1 0) (ix1 c) (fun a => match a with
      | ⟨0, _⟩ => by show c.val = off 0 + 0; omega)

/-- The four column means of a [4096, 4] array, as the host line computes them: the row sum from the zero
    pattern, over the 4096 pattern. -/
def colMeans (X : FVec Ideal S4096x4 .f32) : FVec Ideal S4 .f32 :=
  Host.divf (Host.reduceAdd X (constant S_ .f32 0x00000000#32) reducesTo_S4096x4_S4_d0 h_S_)
    (broadcastInDim S4 ![] bcast_S_S4 (constant S_ .f32 0x45800000#32))

theorem colMeans_apply (X : FVec Ideal S4096x4 .f32) (j : Fin 4) :
    colMeans X (ix1 j) = mean (fun r => X (ix2 r j)) := col_mean_apply X j

/-- The host line after the region, as a function of the [4096, 4] array it reads: the weighted combination
    of the four column means. -/
theorem tail_inner (X : FVec Ideal S4096x4 .f32) :
    addf (addf (addf
        (mulf (constant S_ .f32 0x40000000#32)
          (Host.divf (fun i => shapeCast S_ (extractStridedSlice S1 ![0] (colMeans X) slices_S4_S1_0) shapeCasts_S1_S_ i)
            (constant S_ .f32 0x41F00000#32)))
        (mulf (constant S_ .f32 0x3F000000#32)
          (fun i => shapeCast S_ (extractStridedSlice S1 ![1] (colMeans X) slices_S4_S1_1) shapeCasts_S1_S_ i)))
        (mulf (constant S_ .f32 0x3E99999A#32)
          (fun i => shapeCast S_ (extractStridedSlice S1 ![2] (colMeans X) slices_S4_S1_2) shapeCasts_S1_S_ i)))
      (mulf (constant S_ .f32 0x3E4CCCCD#32)
        (fun i => shapeCast S_ (extractStridedSlice S1 ![3] (colMeans X) slices_S4_S1_3) shapeCasts_S1_S_ i))
      = fun _ => totalK (fun r => X (ix2 r 0)) (fun r => X (ix2 r 1)) (fun r => X (ix2 r 2)) (fun r => X (ix2 r 3)) := by
  funext i
  show ((lit 0x40000000#32
          * Ideal.div (shapeCast S_ (extractStridedSlice S1 ![0] (colMeans X) slices_S4_S1_0) shapeCasts_S1_S_ i) (lit 0x41F00000#32)
        + lit 0x3F000000#32 * shapeCast S_ (extractStridedSlice S1 ![1] (colMeans X) slices_S4_S1_1) shapeCasts_S1_S_ i)
        + lit 0x3E99999A#32 * shapeCast S_ (extractStridedSlice S1 ![2] (colMeans X) slices_S4_S1_2) shapeCasts_S1_S_ i)
      + lit 0x3E4CCCCD#32 * shapeCast S_ (extractStridedSlice S1 ![3] (colMeans X) slices_S4_S1_3) shapeCasts_S1_S_ i = _
  rw [slice_scalar_apply _ ![0] 0 rfl, slice_scalar_apply _ ![1] 1 rfl, slice_scalar_apply _ ![2] 2 rfl,
    slice_scalar_apply _ ![3] 3 rfl, colMeans_apply, colMeans_apply, colMeans_apply, colMeans_apply]
  rfl

set_option maxHeartbeats 1000000 in
/-- What the result buffer holds after the host line that follows the region: the total of the common reading,
    on the four columns of the [4096, 4] array the region wrote. -/
theorem tail_eq (W : Valuation τ sig (Elt Ideal)) :
    StableHlo.after (hostOps1 (F := Ideal)) W (Proc.devRef .tc main_v48)
      = fun _ => totalK (fun r => (W (Proc.devRef .tc main_v29) : S4096x4.Idx → EReal) (ix2 r 0))
          (fun r => (W (Proc.devRef .tc main_v29) : S4096x4.Idx → EReal) (ix2 r 1))
          (fun r => (W (Proc.devRef .tc main_v29) : S4096x4.Idx → EReal) (ix2 r 2))
          (fun r => (W (Proc.devRef .tc main_v29) : S4096x4.Idx → EReal) (ix2 r 3)) := by
  after_results
  exact tail_inner (W (Proc.devRef .tc main_v29))

end Cert.KernelIdeal.KTail

end
-- ==== Proof.KVal4.lean ====
/-
  The kernel program's result as one function of the arguments. Row r of the output array is written by grid point
  r / 256 at row r mod 256 of its block, from row r of the three packet arrays and row r of the auxiliary array; the
  four entries of the row are the detection, similarity, efficiency and confidence terms of the row. The host lines
  after the region average each column over the 4096 rows and combine the four averages with the fixed weights.
-/
import proofs.«144307_j48833778156001_2_alg».proof.Proof.KVal1
import proofs.«144307_j48833778156001_2_alg».proof.Proof.KVal3
import proofs.«144307_j48833778156001_2_alg».proof.Proof.KPay
import proofs.«144307_j48833778156001_2_alg».proof.Proof.KAux
import proofs.«144307_j48833778156001_2_alg».proof.Proof.KTail

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KVal

open Cert.KernelIdeal Cert.KernelIdeal.Gen Cert.KernelIdeal.Frm

variable (m : (ℓ : Loc nD τ sig) → Buf (Elt Ideal) ℓ) (ρ : Dev nD → PrngReg)

theorem hz : (![0, 0] : Fin 2 → Nat) = fun _ => 0 := funext fun a => by fin_cases a <;> rfl

/-- The grid point that writes row r, and the row's place in that point's block. -/
def tOf (r : Fin 4096) : Fin cfg0.N := ⟨r.val / 256, by rw [show cfg0.N = 16 from N_0]; have := r.isLt; omega⟩
def qOf (r : Fin 4096) : Fin 256 := ⟨r.val % 256, Nat.mod_lt _ (by decide)⟩

/-- A column of the auxiliary block, read at row q, is the block at (q, that column). -/
theorem ld_col (x3 : Vec Ideal S256x6 .f32) (q : Fin 256) :
    View.ld x3 rc0 (ix2 q 0) = x3 (ix2 q 0) ∧ View.ld x3 rc1 (ix2 q 0) = x3 (ix2 q 1) ∧ View.ld x3 rc2 (ix2 q 0) = x3 (ix2 q 2)
    ∧ View.ld x3 rc3 (ix2 q 0) = x3 (ix2 q 3) ∧ View.ld x3 rc4 (ix2 q 0) = x3 (ix2 q 4) ∧ View.ld x3 rc5 (ix2 q 0) = x3 (ix2 q 5) := by
  refine ⟨?_, ?_, ?_, ?_, ?_, ?_⟩ <;>
  · refine congrArg x3 (funext fun a => Fin.ext ?_)
    match a with
    | ⟨0, _⟩ => simp only [LoadRect.idx_apply, Rect.emb_apply, Rect.off_unit, Rect.stride_unit, Nat.one_mul]; show (0 : Nat) + q.val = q.val; omega
    | ⟨1, _⟩ => simp only [LoadRect.idx_apply, Rect.emb_apply, Rect.off_unit, Rect.stride_unit, Nat.one_mul]; rfl

/-- What a grid point leaves in the output's staging buffer is the body's stored value of its loaded blocks and columns. -/
theorem blockOut_eq (c : Dev nD) (t : Fin cfg0.N) :
    blockOut m c t = Cert.KernelIdeal.KPay.stored (iblk m c 0 t : Vec Ideal S256x2048 .i32) (iblk m c 1 t : Vec Ideal S256x2048 .f32) (iblk m c 2 t : Vec Ideal S256x2048 .i32)
      (View.ld (iblk m c 3 t : Vec Ideal S256x6 .f32) rc0) (View.ld (iblk m c 3 t : Vec Ideal S256x6 .f32) rc1) (View.ld (iblk m c 3 t : Vec Ideal S256x6 .f32) rc2)
      (View.ld (iblk m c 3 t : Vec Ideal S256x6 .f32) rc3) (View.ld (iblk m c 3 t : Vec Ideal S256x6 .f32) rc4) (View.ld (iblk m c 3 t : Vec Ideal S256x6 .f32) rc5) := by
  unfold blockOut out0_4
  rw [View.canon_unit_zero hz]
  unfold Cert.KernelIdeal.Frm.stored Cert.KernelIdeal.KPay.stored
  simp only [View.ld_unit_zero (S := S256x2048) hz]
  rfl

/-- The auxiliary array when the region is entered, row by row: padding, applied delay, multiplier, delay target,
    padding target, confidence. -/
theorem aux_row (c : Dev nD) (r : Fin 4096) :
    (V m c main_v28 : S4096x6.Idx → EReal) (ix2 r 0) = (((m ((c : Thread nD τ).loc main_arg4)) : S4096.Idx → EReal) (ix1 r))
    ∧ (V m c main_v28 : S4096x6.Idx → EReal) (ix2 r 1) = (((m ((c : Thread nD τ).loc main_arg3)) : S4096.Idx → EReal) (ix1 r))
    ∧ (V m c main_v28 : S4096x6.Idx → EReal) (ix2 r 2) = (mlK (F := Ideal) (m ((c : Thread nD τ).loc main_arg6)) (ix1 r))
    ∧ (V m c main_v28 : S4096x6.Idx → EReal) (ix2 r 3) = (tdK (F := Ideal) (m ((c : Thread nD τ).loc main_arg6)) (ix1 r))
    ∧ (V m c main_v28 : S4096x6.Idx → EReal) (ix2 r 4) = (tpK (F := Ideal) (m ((c : Thread nD τ).loc main_arg6)) (ix1 r))
    ∧ (V m c main_v28 : S4096x6.Idx → EReal) (ix2 r 5) = (((m ((c : Thread nD τ).loc main_arg5)) : S4096.Idx → EReal) (ix1 r)) := by
  have hV : (V m c main_v28 : S4096x6.Idx → EReal) = _ := after_aux (F := Ideal) (fun b => m (c, b))
  obtain ⟨h3, h4, h5⟩ := opsP_args (F := Ideal) (fun b => m (c, b))
  rw [hV, h3, h4, h5, opsP_v6, opsP_v13, opsP_v21]
  exact Cert.KernelIdeal.KAux.concat6_cols_apply _ _ _ _ _ _ _ _ r

/-- A row of the output array, read down to the row's data. -/
theorem outArr_row (c : Dev nD) (r : Fin 4096) :
    outArr m c (ix2 r 0) = DpiSpec.rowT0 (fun k => ((m ((c : Thread nD τ).loc main_arg0)) : S4096x2048.Idx → BitVec 32) (ix2 r k)) (fun k => ((m ((c : Thread nD τ).loc main_arg1)) : S4096x2048.Idx → EReal) (ix2 r k)) (fun k => ((m ((c : Thread nD τ).loc main_arg2)) : S4096x2048.Idx → BitVec 32) (ix2 r k)) (((m ((c : Thread nD τ).loc main_arg3)) : S4096.Idx → EReal) (ix1 r)) (((m ((c : Thread nD τ).loc main_arg4)) : S4096.Idx → EReal) (ix1 r)) (mlK (F := Ideal) (m ((c : Thread nD τ).loc main_arg6)) (ix1 r))
    ∧ outArr m c (ix2 r 1) = DpiSpec.rowT1 (((m ((c : Thread nD τ).loc main_arg3)) : S4096.Idx → EReal) (ix1 r)) (((m ((c : Thread nD τ).loc main_arg4)) : S4096.Idx → EReal) (ix1 r)) (tdK (F := Ideal) (m ((c : Thread nD τ).loc main_arg6)) (ix1 r)) (tpK (F := Ideal) (m ((c : Thread nD τ).loc main_arg6)) (ix1 r))
    ∧ outArr m c (ix2 r 2) = DpiSpec.rowT2 (((m ((c : Thread nD τ).loc main_arg3)) : S4096.Idx → EReal) (ix1 r)) (((m ((c : Thread nD τ).loc main_arg4)) : S4096.Idx → EReal) (ix1 r))
    ∧ outArr m c (ix2 r 3) = DpiSpec.rowT3 (fun k => ((m ((c : Thread nD τ).loc main_arg0)) : S4096x2048.Idx → BitVec 32) (ix2 r k)) (fun k => ((m ((c : Thread nD τ).loc main_arg1)) : S4096x2048.Idx → EReal) (ix2 r k)) (fun k => ((m ((c : Thread nD τ).loc main_arg2)) : S4096x2048.Idx → BitVec 32) (ix2 r k)) (((m ((c : Thread nD τ).loc main_arg3)) : S4096.Idx → EReal) (ix1 r)) (((m ((c : Thread nD τ).loc main_arg4)) : S4096.Idx → EReal) (ix1 r)) (mlK (F := Ideal) (m ((c : Thread nD τ).loc main_arg6)) (ix1 r)) (((m ((c : Thread nD τ).loc main_arg5)) : S4096.Idx → EReal) (ix1 r)) := by
  have hr : r.val = 256 * (tOf r).val + (qOf r).val := by show r.val = 256 * (r.val / 256) + r.val % 256; omega
  have e0 : ∀ k : Fin 2048, (iblk m c 0 (tOf r) : Vec Ideal S256x2048 .i32) (ix2 (qOf r) k) = ((m ((c : Thread nD τ).loc main_arg0)) : S4096x2048.Idx → BitVec 32) (ix2 r k) := fun k =>
    (iblk0_apply m c (tOf r) (ix2 (qOf r) k) (ix2 r k) hr rfl).trans (congrFun (V_main_arg0 m c) _)
  have e1 : ∀ k : Fin 2048, (iblk m c 1 (tOf r) : Vec Ideal S256x2048 .f32) (ix2 (qOf r) k) = ((m ((c : Thread nD τ).loc main_arg1)) : S4096x2048.Idx → EReal) (ix2 r k) := fun k =>
    (iblk1_apply m c (tOf r) (ix2 (qOf r) k) (ix2 r k) hr rfl).trans (congrFun (V_main_arg1 m c) _)
  have e2 : ∀ k : Fin 2048, (iblk m c 2 (tOf r) : Vec Ideal S256x2048 .i32) (ix2 (qOf r) k) = ((m ((c : Thread nD τ).loc main_arg2)) : S4096x2048.Idx → BitVec 32) (ix2 r k) := fun k =>
    (iblk2_apply m c (tOf r) (ix2 (qOf r) k) (ix2 r k) hr rfl).trans (congrFun (V_main_arg2 m c) _)
  have e3 : ∀ j : Fin 6, (iblk m c 3 (tOf r) : Vec Ideal S256x6 .f32) (ix2 (qOf r) j) = (V m c main_v28 : S4096x6.Idx → EReal) (ix2 r j) := fun j =>
    iblk3_apply m c (tOf r) (ix2 (qOf r) j) (ix2 r j) hr rfl
  obtain ⟨a0, a1, a2, a3, a4, a5⟩ := aux_row m c r
  obtain ⟨l0, l1, l2, l3, l4, l5⟩ := ld_col (iblk m c 3 (tOf r) : Vec Ideal S256x6 .f32) (qOf r)
  have hout : ∀ j : Fin 4, outArr m c (ix2 r j) = blockOut m c (tOf r) (ix2 (qOf r) j) := fun j => rfl
  refine ⟨?_, ?_, ?_, ?_⟩
  · rw [hout, blockOut_eq, Cert.KernelIdeal.KPay.stored_col0, l0, l1, l2, e3, e3, e3, a0, a1, a2]
    simp only [e0, e1, e2]
  · rw [hout, blockOut_eq, Cert.KernelIdeal.KPay.stored_col1, l0, l1, l3, l4, e3, e3, e3, e3, a0, a1, a3, a4]
  · rw [hout, blockOut_eq, Cert.KernelIdeal.KPay.stored_col2, l0, l1, e3, e3, a0, a1]
  · rw [hout, blockOut_eq, Cert.KernelIdeal.KPay.stored_col3, l0, l1, l2, l5, e3, e3, e3, e3, a0, a1, a2, a5]
    simp only [e0, e1, e2]

/-- The program's result, as the region's post names it, is the weighted combination of the four column means. -/
theorem result_eq (c : Dev nD) :
    Pipeline.afterTail₀ cfgs (dats m) 0 (V0 m) [hostOps1] c main_v48
      = fun _ => DpiSpec.totalK (fun r => DpiSpec.rowT0 (fun k => ((m ((c : Thread nD τ).loc main_arg0)) : S4096x2048.Idx → BitVec 32) (ix2 r k)) (fun k => ((m ((c : Thread nD τ).loc main_arg1)) : S4096x2048.Idx → EReal) (ix2 r k)) (fun k => ((m ((c : Thread nD τ).loc main_arg2)) : S4096x2048.Idx → BitVec 32) (ix2 r k)) (((m ((c : Thread nD τ).loc main_arg3)) : S4096.Idx → EReal) (ix1 r)) (((m ((c : Thread nD τ).loc main_arg4)) : S4096.Idx → EReal) (ix1 r)) (mlK (F := Ideal) (m ((c : Thread nD τ).loc main_arg6)) (ix1 r))) (fun r => DpiSpec.rowT1 (((m ((c : Thread nD τ).loc main_arg3)) : S4096.Idx → EReal) (ix1 r)) (((m ((c : Thread nD τ).loc main_arg4)) : S4096.Idx → EReal) (ix1 r)) (tdK (F := Ideal) (m ((c : Thread nD τ).loc main_arg6)) (ix1 r)) (tpK (F := Ideal) (m ((c : Thread nD τ).loc main_arg6)) (ix1 r))) (fun r => DpiSpec.rowT2 (((m ((c : Thread nD τ).loc main_arg3)) : S4096.Idx → EReal) (ix1 r)) (((m ((c : Thread nD τ).loc main_arg4)) : S4096.Idx → EReal) (ix1 r))) (fun r => DpiSpec.rowT3 (fun k => ((m ((c : Thread nD τ).loc main_arg0)) : S4096x2048.Idx → BitVec 32) (ix2 r k)) (fun k => ((m ((c : Thread nD τ).loc main_arg1)) : S4096x2048.Idx → EReal) (ix2 r k)) (fun k => ((m ((c : Thread nD τ).loc main_arg2)) : S4096x2048.Idx → BitVec 32) (ix2 r k)) (((m ((c : Thread nD τ).loc main_arg3)) : S4096.Idx → EReal) (ix1 r)) (((m ((c : Thread nD τ).loc main_arg4)) : S4096.Idx → EReal) (ix1 r)) (mlK (F := Ideal) (m ((c : Thread nD τ).loc main_arg6)) (ix1 r)) (((m ((c : Thread nD τ).loc main_arg5)) : S4096.Idx → EReal) (ix1 r))) := by
  unfold Pipeline.afterTail₀
  generalize hW : Pipeline.withArrays _ c (V0 m c) _ = W
  show StableHlo.after (hostOps1 (F := Ideal)) W (Proc.devRef .tc main_v48) = _
  rw [Cert.KernelIdeal.KTail.tail_eq W]
  have hX : (W (Proc.devRef .tc main_v29) : S4096x4.Idx → EReal) = outArr m c := by
    subst hW
    exact (Pipeline.withArrays_arr spec0 launch0.win.arr_inj c _ _ 4).trans (final4 m c)
  rw [hX]
  funext _
  congr 1 <;> funext r
  · exact (outArr_row m c r).1
  · exact (outArr_row m c r).2.1
  · exact (outArr_row m c r).2.2.1
  · exact (outArr_row m c r).2.2.2

/-- The run, read: the result at that combination, the seven arguments unchanged. -/
theorem run : θ_run defs (onTc (τ := τ) (main (F := Ideal))) ⟨m, fun _ => 0, ρ⟩ (fun r => ∀ c : Dev nD,
      r.2.mem ((c.tc : Thread nD τ).loc main_v48) = (fun _ => DpiSpec.totalK (fun r => DpiSpec.rowT0 (fun k => ((m ((c : Thread nD τ).loc main_arg0)) : S4096x2048.Idx → BitVec 32) (ix2 r k)) (fun k => ((m ((c : Thread nD τ).loc main_arg1)) : S4096x2048.Idx → EReal) (ix2 r k)) (fun k => ((m ((c : Thread nD τ).loc main_arg2)) : S4096x2048.Idx → BitVec 32) (ix2 r k)) (((m ((c : Thread nD τ).loc main_arg3)) : S4096.Idx → EReal) (ix1 r)) (((m ((c : Thread nD τ).loc main_arg4)) : S4096.Idx → EReal) (ix1 r)) (mlK (F := Ideal) (m ((c : Thread nD τ).loc main_arg6)) (ix1 r))) (fun r => DpiSpec.rowT1 (((m ((c : Thread nD τ).loc main_arg3)) : S4096.Idx → EReal) (ix1 r)) (((m ((c : Thread nD τ).loc main_arg4)) : S4096.Idx → EReal) (ix1 r)) (tdK (F := Ideal) (m ((c : Thread nD τ).loc main_arg6)) (ix1 r)) (tpK (F := Ideal) (m ((c : Thread nD τ).loc main_arg6)) (ix1 r))) (fun r => DpiSpec.rowT2 (((m ((c : Thread nD τ).loc main_arg3)) : S4096.Idx → EReal) (ix1 r)) (((m ((c : Thread nD τ).loc main_arg4)) : S4096.Idx → EReal) (ix1 r))) (fun r => DpiSpec.rowT3 (fun k => ((m ((c : Thread nD τ).loc main_arg0)) : S4096x2048.Idx → BitVec 32) (ix2 r k)) (fun k => ((m ((c : Thread nD τ).loc main_arg1)) : S4096x2048.Idx → EReal) (ix2 r k)) (fun k => ((m ((c : Thread nD τ).loc main_arg2)) : S4096x2048.Idx → BitVec 32) (ix2 r k)) (((m ((c : Thread nD τ).loc main_arg3)) : S4096.Idx → EReal) (ix1 r)) (((m ((c : Thread nD τ).loc main_arg4)) : S4096.Idx → EReal) (ix1 r)) (mlK (F := Ideal) (m ((c : Thread nD τ).loc main_arg6)) (ix1 r)) (((m ((c : Thread nD τ).loc main_arg5)) : S4096.Idx → EReal) (ix1 r))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v48 (Pipeline.mem_restRefs_of main_v48 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KVal

end
-- ==== Proof.RefTerms.lean ====
/- The reference program's values as functions of its seven argument arrays: one definition per value that
   is read more than once or that a later module reads at an index, each the composition of the program's own
   host operations over the definitions before it. Generic in the float values. -/
import proofs.«144307_j48833778156001_2_alg».proof.Proof.Gen.ReferenceIdeal

noncomputable section

namespace Cert.ReferenceIdeal.RefRun

open Cert.ReferenceIdeal Cert.ReferenceIdeal.Gen Idealize.ShloMosaic

variable {F : FTy → Type} [FloatOps F]

/-- A one-column array put before a 2047-column array along the columns: the program's two concatenations, as one
    function of the two pieces. -/
def catCol (a : FVec F S4096x1 .f32) (b : FVec F S4096x2047 .f32) : FVec F S4096x2048 .f32 :=
  concatenate S4096x2048 1 [⟨S4096x1, a⟩, ⟨S4096x2047, b⟩] concatenates_S4096x1_S4096x2047_S4096x2048_d1

/-- The directions as floats. -/
def res_v1 (a2 : IVec S4096x2048 32) : FVec F S4096x2048 .f32 :=
  sitofp .f32 a2

/-- The sizes as floats, column 2047 replaced by `min (size + padding * 1500) 1500` (a scatter that sets). -/
def res_v10 (a0 : IVec S4096x2048 32) (a4 : FVec F S4096 .f32) : FVec F S4096x2048 .f32 :=
  Host.scatter scatter_S4096x2048_S1_S4096_0_1_1_0 (fun _ b => b) (sitofp .f32 a0) (broadcastInDim S1 ![] bcast_S_S1 (constantI S_ 32 2047#32)) (minimumf (addf (shapeCast S4096 (extractStridedSlice S4096x1 ![0, 2047] (sitofp .f32 a0) slices_S4096x2048_S4096x1_0_2047) shapeCasts_S4096x1_S4096) (mulf a4 (broadcastInDim S4096 ![] bcast_S_S4096 (constant S_ .f32 0x44BB8000#32)))) (broadcastInDim S4096 ![] bcast_S_S4096 (constant S_ .f32 0x44BB8000#32)))

/-- The delays, the applied delay added into column 2047 (a scatter that adds). -/
def res_v12 (a1 : FVec F S4096x2048 .f32) (a3 : FVec F S4096 .f32) : FVec F S4096x2048 .f32 :=
  Host.scatter scatter_S4096x2048_S1_S4096_0_1_1_0 FloatOps.addf a1 (broadcastInDim S1 ![] bcast_S_S1 (constantI S_ 32 2047#32)) a3

/-- The previous packet's size: a column of `-1` before the first 2047 columns of the sizes. -/
def res_v15 (a0 : IVec S4096x2048 32) (a4 : FVec F S4096 .f32) : FVec F S4096x2048 .f32 :=
  catCol (broadcastInDim S4096x1 ![] bcast_S_S4096x1 (constant S_ .f32 0xBF800000#32)) (extractStridedSlice S4096x2047 ![0, 0] (res_v10 (F := F) a0 a4) slices_S4096x2048_S4096x2047_0_0)

/-- The previous packet's direction: a column of `-1` before the first 2047 columns of the directions. -/
def res_v18 (a2 : IVec S4096x2048 32) : FVec F S4096x2048 .f32 :=
  catCol (broadcastInDim S4096x1 ![] bcast_S_S4096x1 (constant S_ .f32 0xBF800000#32)) (extractStridedSlice S4096x2047 ![0, 0] (res_v1 (F := F) a2) slices_S4096x2048_S4096x2047_0_0)

/-- Each packet's contribution to the score: the four weighted indicators, added from the left. -/
def res_v43 (a0 : IVec S4096x2048 32) (a1 : FVec F S4096x2048 .f32) (a2 : IVec S4096x2048 32) (a3 : FVec F S4096 .f32) (a4 : FVec F S4096 .f32) : FVec F S4096x2048 .f32 :=
  addf (addf (addf (mulf (broadcastInDim S4096x2048 ![] bcast_S_S4096x2048 (constant S_ .f32 0x3F19999A#32)) (uitofp .f32 (cmpf .ogt (res_v10 (F := F) a0 a4) (broadcastInDim S4096x2048 ![] bcast_S_S4096x2048 (constant S_ .f32 0x44AF0000#32))))) (mulf (broadcastInDim S4096x2048 ![] bcast_S_S4096x2048 (constant S_ .f32 0x3ECCCCCD#32)) (uitofp .f32 (cmpf .olt (res_v12 (F := F) a1 a3) (broadcastInDim S4096x2048 ![] bcast_S_S4096x2048 (constant S_ .f32 0x3D4CCCCD#32)))))) (mulf (broadcastInDim S4096x2048 ![] bcast_S_S4096x2048 (constant S_ .f32 0x3E4CCCCD#32)) (uitofp .f32 (cmpf .olt (Host.absf (subf (res_v10 (F := F) a0 a4) (res_v15 (F := F) a0 a4))) (broadcastInDim S4096x2048 ![] bcast_S_S4096x2048 (constant S_ .f32 0x3F000000#32)))))) (mulf (broadcastInDim S4096x2048 ![] bcast_S_S4096x2048 (constant S_ .f32 0x3DCCCCCD#32)) (uitofp .f32 (cmpf .une (res_v1 (F := F) a2) (res_v18 (F := F) a2))))

/-- Each row's sum of contributions. -/
def res_v44 (a0 : IVec S4096x2048 32) (a1 : FVec F S4096x2048 .f32) (a2 : IVec S4096x2048 32) (a3 : FVec F S4096 .f32) (a4 : FVec F S4096 .f32) : FVec F S4096 .f32 :=
  Host.reduceAdd (res_v43 (F := F) a0 a1 a2 a3 a4) (constant S_ .f32 0x00000000#32) reducesTo_S4096x2048_S4096_d1 h_S_

/-- Each row's mean contribution, times 100. -/
def res_v48 (a0 : IVec S4096x2048 32) (a1 : FVec F S4096x2048 .f32) (a2 : IVec S4096x2048 32) (a3 : FVec F S4096 .f32) (a4 : FVec F S4096 .f32) : FVec F S4096 .f32 :=
  mulf (Host.divf (res_v44 (F := F) a0 a1 a2 a3 a4) (broadcastInDim S4096 ![] bcast_S_S4096 (constant S_ .f32 0x45000000#32))) (broadcastInDim S4096 ![] bcast_S_S4096 (constant S_ .f32 0x42C80000#32))

/-- The divisor the remainder function uses: 4, or 1 if it were 0. -/
def res_c0v2 : IVec S_ 32 :=
  select (cmpi .eq (constantI S_ 32 4#32) (constantI S_ 32 0#32)) (constantI S_ 32 1#32) (constantI S_ 32 4#32)

/-- The profile identifiers' truncated remainders by that divisor. -/
def res_c0v4 (a6 : IVec S4096 32) : IVec S4096 32 :=
  Host.remsi a6 (broadcastInDim S4096 ![] bcast_S_S4096 res_c0v2)

/-- The remainders with the divisor's sign (the remainder function's result). -/
def res_v49 (a6 : IVec S4096 32) : IVec S4096 32 :=
  select (andi (cmpi .ne (cmpi .slt (res_c0v4 a6) (broadcastInDim S4096 ![] bcast_S_S4096 (constantI S_ 32 0#32))) (broadcastInDim S4096 ![] bcast_S_S4096 (cmpi .slt res_c0v2 (constantI S_ 32 0#32)))) (cmpi .ne (res_c0v4 a6) (broadcastInDim S4096 ![] bcast_S_S4096 (constantI S_ 32 0#32)))) (addi (res_c0v4 a6) (broadcastInDim S4096 ![] bcast_S_S4096 res_c0v2)) (res_c0v4 a6)

/-- The same made nonnegative by adding 4: the index into the table of multipliers. -/
def res_v54 (a6 : IVec S4096 32) : IVec S4096 32 :=
  select (cmpi .slt (res_v49 a6) (broadcastInDim S4096 ![] bcast_S_S4096 (constantI S_ 32 0#32))) (addi (res_v49 a6) (broadcastInDim S4096 ![] bcast_S_S4096 (constantI S_ 32 4#32))) (res_v49 a6)

/-- Each row's sensitivity multiplier: the four-entry table gathered at that index. -/
def mlR (a6 : IVec S4096 32) : FVec F S4096 .f32 :=
  Host.gather gather_S4_S4096x1_S4096_n_0_n_n_0_1_1 (fun i => FloatOps.ofBits .f32 (lit0 (S4.rowMajor i))) (broadcastInDim S4096x1 ![0] bcast_S4096_S4096x1_0 (res_v54 a6))

/-- Each row's score. -/
def res_v57 (a0 : IVec S4096x2048 32) (a1 : FVec F S4096x2048 .f32) (a2 : IVec S4096x2048 32) (a3 : FVec F S4096 .f32) (a4 : FVec F S4096 .f32) (a6 : IVec S4096 32) : FVec F S4096 .f32 :=
  mulf (res_v48 (F := F) a0 a1 a2 a3 a4) (mlR (F := F) a6)

/-- Each row's detection term: the score's excess over 15. -/
def res_v60 (a0 : IVec S4096x2048 32) (a1 : FVec F S4096x2048 .f32) (a2 : IVec S4096x2048 32) (a3 : FVec F S4096 .f32) (a4 : FVec F S4096 .f32) (a6 : IVec S4096 32) : FVec F S4096 .f32 :=
  maximumf (subf (res_v57 (F := F) a0 a1 a2 a3 a4 a6) (broadcastInDim S4096 ![] bcast_S_S4096 (constant S_ .f32 0x41700000#32))) (broadcastInDim S4096 ![] bcast_S_S4096 (constant S_ .f32 0x00000000#32))

/-- The mean detection term, over 30. -/
def res_v63 (a0 : IVec S4096x2048 32) (a1 : FVec F S4096x2048 .f32) (a2 : IVec S4096x2048 32) (a3 : FVec F S4096 .f32) (a4 : FVec F S4096 .f32) (a6 : IVec S4096 32) : FVec F S_ .f32 :=
  Host.divf (Host.divf (Host.reduceAdd (res_v60 (F := F) a0 a1 a2 a3 a4 a6) (constant S_ .f32 0x00000000#32) reducesTo_S4096_S_d0 h_S_) (constant S_ .f32 0x45800000#32)) (constant S_ .f32 0x41F00000#32)

/-- Each row's target delay: the five-entry table gathered at the profile identifier (negative ones wrapped by 5). -/
def tdR (a6 : IVec S4096 32) : FVec F S4096 .f32 :=
  Host.gather gather_S5_S4096x1_S4096_n_0_n_n_0_1_1 (fun i => FloatOps.ofBits .f32 (lit1 (S5.rowMajor i))) (broadcastInDim S4096x1 ![0] bcast_S4096_S4096x1_0 (select (cmpi .slt a6 (broadcastInDim S4096 ![] bcast_S_S4096 (constantI S_ 32 0#32))) (addi a6 (broadcastInDim S4096 ![] bcast_S_S4096 (constantI S_ 32 5#32))) a6))

/-- Each row's target padding, likewise. -/
def tpR (a6 : IVec S4096 32) : FVec F S4096 .f32 :=
  Host.gather gather_S5_S4096x1_S4096_n_0_n_n_0_1_1 (fun i => FloatOps.ofBits .f32 (lit2 (S5.rowMajor i))) (broadcastInDim S4096x1 ![0] bcast_S4096_S4096x1_0 (select (cmpi .slt a6 (broadcastInDim S4096 ![] bcast_S_S4096 (constantI S_ 32 0#32))) (addi a6 (broadcastInDim S4096 ![] bcast_S_S4096 (constantI S_ 32 5#32))) a6))

/-- Each row's similarity term. -/
def res_v82 (a3 : FVec F S4096 .f32) (a4 : FVec F S4096 .f32) (a6 : IVec S4096 32) : FVec F S4096 .f32 :=
  addf (Host.absf (subf a3 (tdR (F := F) a6))) (Host.absf (subf a4 (tpR (F := F) a6)))

/-- The mean similarity term. -/
def res_v84 (a3 : FVec F S4096 .f32) (a4 : FVec F S4096 .f32) (a6 : IVec S4096 32) : FVec F S_ .f32 :=
  Host.divf (Host.reduceAdd (res_v82 (F := F) a3 a4 a6) (constant S_ .f32 0x00000000#32) reducesTo_S4096_S_d0 h_S_) (constant S_ .f32 0x45800000#32)

/-- The applied delay less 20. -/
def res_v86 (a3 : FVec F S4096 .f32) : FVec F S4096 .f32 :=
  subf a3 (broadcastInDim S4096 ![] bcast_S_S4096 (constant S_ .f32 0x41A00000#32))

/-- Its positive part. -/
def res_v87 (a3 : FVec F S4096 .f32) : FVec F S4096 .f32 :=
  maximumf (res_v86 (F := F) a3) (broadcastInDim S4096 ![] bcast_S_S4096 (constant S_ .f32 0x00000000#32))

/-- The mean of those, over 20. -/
def res_v90 (a3 : FVec F S4096 .f32) : FVec F S_ .f32 :=
  Host.divf (Host.divf (Host.reduceAdd (res_v87 (F := F) a3) (constant S_ .f32 0x00000000#32) reducesTo_S4096_S_d0 h_S_) (constant S_ .f32 0x45800000#32)) (constant S_ .f32 0x41A00000#32)

/-- The padding's excess over 0.3. -/
def res_v93 (a4 : FVec F S4096 .f32) : FVec F S4096 .f32 :=
  maximumf (subf a4 (broadcastInDim S4096 ![] bcast_S_S4096 (constant S_ .f32 0x3E99999A#32))) (broadcastInDim S4096 ![] bcast_S_S4096 (constant S_ .f32 0x00000000#32))

/-- The mean of those. -/
def res_v95 (a4 : FVec F S4096 .f32) : FVec F S_ .f32 :=
  Host.divf (Host.reduceAdd (res_v93 (F := F) a4) (constant S_ .f32 0x00000000#32) reducesTo_S4096_S_d0 h_S_) (constant S_ .f32 0x45800000#32)

/-- The efficiency term: the two means added. -/
def res_v96 (a3 : FVec F S4096 .f32) (a4 : FVec F S4096 .f32) : FVec F S_ .f32 :=
  addf (res_v90 (F := F) a3) (res_v95 (F := F) a4)

/-- The bit "score below 30" as a float. -/
def res_v99 (a0 : IVec S4096x2048 32) (a1 : FVec F S4096x2048 .f32) (a2 : IVec S4096x2048 32) (a3 : FVec F S4096 .f32) (a4 : FVec F S4096 .f32) (a6 : IVec S4096 32) : FVec F S4096 .f32 :=
  uitofp .f32 (cmpf .olt (res_v57 (F := F) a0 a1 a2 a3 a4 a6) (broadcastInDim S4096 ![] bcast_S_S4096 (constant S_ .f32 0x41F00000#32)))

/-- Each row's confidence term: the squared distance of the confidence from that bit. -/
def res_v101 (a0 : IVec S4096x2048 32) (a1 : FVec F S4096x2048 .f32) (a2 : IVec S4096x2048 32) (a3 : FVec F S4096 .f32) (a4 : FVec F S4096 .f32) (a5 : FVec F S4096 .f32) (a6 : IVec S4096 32) : FVec F S4096 .f32 :=
  mulf (subf a5 (res_v99 (F := F) a0 a1 a2 a3 a4 a6)) (subf a5 (res_v99 (F := F) a0 a1 a2 a3 a4 a6))

/-- The mean confidence term. -/
def res_v103 (a0 : IVec S4096x2048 32) (a1 : FVec F S4096x2048 .f32) (a2 : IVec S4096x2048 32) (a3 : FVec F S4096 .f32) (a4 : FVec F S4096 .f32) (a5 : FVec F S4096 .f32) (a6 : IVec S4096 32) : FVec F S_ .f32 :=
  Host.divf (Host.reduceAdd (res_v101 (F := F) a0 a1 a2 a3 a4 a5 a6) (constant S_ .f32 0x00000000#32) reducesTo_S4096_S_d0 h_S_) (constant S_ .f32 0x45800000#32)

/-- The program's result: the four means combined with the weights 2, 0.5, 0.3, 0.2, added from the left. -/
def result (a0 : IVec S4096x2048 32) (a1 : FVec F S4096x2048 .f32) (a2 : IVec S4096x2048 32) (a3 : FVec F S4096 .f32) (a4 : FVec F S4096 .f32) (a5 : FVec F S4096 .f32) (a6 : IVec S4096 32) : FVec F S_ .f32 :=
  addf (addf (addf (mulf (constant S_ .f32 0x40000000#32) (res_v63 (F := F) a0 a1 a2 a3 a4 a6)) (mulf (constant S_ .f32 0x3F000000#32) (res_v84 (F := F) a3 a4 a6))) (mulf (constant S_ .f32 0x3E99999A#32) (res_v96 (F := F) a3 a4))) (mulf (constant S_ .f32 0x3E4CCCCD#32) (res_v103 (F := F) a0 a1 a2 a3 a4 a5 a6))

end Cert.ReferenceIdeal.RefRun

end
-- ==== Proof.RefOps.lean ====
/- The reference program's @main as three lists of host operations (one per printed window, the
   module-local functions' bodies written out at their call sites over the calls' buffer records), the
   equation of @main with the straight line of their concatenation, and the run of that line: every
   buffer ends at the fold of the operations' results over the launch contents. -/
import proofs.«144307_j48833778156001_2_alg».proof.Proof.Gen.ReferenceIdeal
import proofs.«144307_j48833778156001_2_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 (its first window). -/
abbrev ops0 : List (HloOp τ sig (Elt F)) :=
  [ nullary main_cst (fun i => FloatOps.ofBits .f32 (lit0 (S4.rowMajor i))),
    nullary main_cst_0 (fun i => FloatOps.ofBits .f32 (lit1 (S5.rowMajor i))),
    nullary main_cst_1 (fun i => FloatOps.ofBits .f32 (lit2 (S5.rowMajor i))),
    unary main_arg0 main_v0 (sitofp .f32 : (⟨S4096x2048, .i32⟩ : BufTy).Contents (Elt F) → (⟨S4096x2048, .f32⟩ : BufTy).Contents (Elt F)),
    unary main_arg2 main_v1 (sitofp .f32 : (⟨S4096x2048, .i32⟩ : BufTy).Contents (Elt F) → (⟨S4096x2048, .f32⟩ : BufTy).Contents (Elt F)),
    unary main_v0 main_v2 ((extractStridedSlice S4096x1 ![0, 2047] · slices_S4096x2048_S4096x1_0_2047) : (⟨S4096x2048, .f32⟩ : BufTy).Contents (Elt F) → (⟨S4096x1, .f32⟩ : BufTy).Contents (Elt F)),
    reshape main_v2 main_v3 rfl shapeCasts_S4096x1_S4096,
    nullary main_cst_2 (constant S_ .f32 0x44BB8000#32),
    unary main_cst_2 main_v4 (broadcastInDim S4096 ![] bcast_S_S4096 : (⟨S_, .f32⟩ : BufTy).Contents (Elt F) → (⟨S4096, .f32⟩ : BufTy).Contents (Elt F)),
    binary main_arg4 main_v4 main_v5 (mulf : (⟨S4096, .f32⟩ : BufTy).Contents (Elt F) → (⟨S4096, .f32⟩ : BufTy).Contents (Elt F) → (⟨S4096, .f32⟩ : BufTy).Contents (Elt F)),
    binary main_v3 main_v5 main_v6 (addf : (⟨S4096, .f32⟩ : BufTy).Contents (Elt F) → (⟨S4096, .f32⟩ : BufTy).Contents (Elt F) → (⟨S4096, .f32⟩ : BufTy).Contents (Elt F)),
    nullary main_cst_3 (constant S_ .f32 0x44BB8000#32),
    unary main_cst_3 main_v7 (broadcastInDim S4096 ![] bcast_S_S4096 : (⟨S_, .f32⟩ : BufTy).Contents (Elt F) → (⟨S4096, .f32⟩ : BufTy).Contents (Elt F)),
    binary main_v6 main_v7 main_v8 (minimumf : (⟨S4096, .f32⟩ : BufTy).Contents (Elt F) → (⟨S4096, .f32⟩ : BufTy).Contents (Elt F) → (⟨S4096, .f32⟩ : BufTy).Contents (Elt F)),
    nullary main_c (constantI S_ 32 2047#32),
    unary main_c main_v9 (broadcastInDim S1 ![] bcast_S_S1 : (⟨S_, .i32⟩ : BufTy).Contents (Elt F) → (⟨S1, .i32⟩ : BufTy).Contents (Elt F)),
    ternary main_v0 main_v9 main_v8 main_v10 ((fun x i u => Host.scatter scatter_S4096x2048_S1_S4096_0_1_1_0 (fun _ b => b) x i u) : (⟨S4096x2048, .f32⟩ : BufTy).Contents (Elt F) → (⟨S1, .i32⟩ : BufTy).Contents (Elt F) → (⟨S4096, .f32⟩ : BufTy).Contents (Elt F) → (⟨S4096x2048, .f32⟩ : BufTy).Contents (Elt F)),
    nullary main_c_4 (constantI S_ 32 2047#32),
    unary main_c_4 main_v11 (broadcastInDim S1 ![] bcast_S_S1 : (⟨S_, .i32⟩ : BufTy).Contents (Elt F) → (⟨S1, .i32⟩ : BufTy).Contents (Elt F)),
    ternary main_arg1 main_v11 main_arg3 main_v12 ((fun x i u => Host.scatter scatter_S4096x2048_S1_S4096_0_1_1_0 FloatOps.addf x i u) : (⟨S4096x2048, .f32⟩ : BufTy).Contents (Elt F) → (⟨S1, .i32⟩ : BufTy).Contents (Elt F) → (⟨S4096, .f32⟩ : BufTy).Contents (Elt F) → (⟨S4096x2048, .f32⟩ : BufTy).Contents (Elt F)),
    nullary main_cst_5 (constant S_ .f32 0xBF800000#32),
    unary main_cst_5 main_v13 (broadcastInDim S4096x1 ![] bcast_S_S4096x1 : (⟨S_, .f32⟩ : BufTy).Contents (Elt F) → (⟨S4096x1, .f32⟩ : BufTy).Contents (Elt F)),
    unary main_v10 main_v14 ((extractStridedSlice S4096x2047 ![0, 0] · slices_S4096x2048_S4096x2047_0_0) : (⟨S4096x2048, .f32⟩ : BufTy).Contents (Elt F) → (⟨S4096x2047, .f32⟩ : BufTy).Contents (Elt F)),
    binary main_v13 main_v14 main_v15 (catCol : (⟨S4096x1, .f32⟩ : BufTy).Contents (Elt F) → (⟨S4096x2047, .f32⟩ : BufTy).Contents (Elt F) → (⟨S4096x2048, .f32⟩ : BufTy).Contents (Elt F)),
    nullary main_cst_6 (constant S_ .f32 0xBF800000#32),
    unary main_cst_6 main_v16 (broadcastInDim S4096x1 ![] bcast_S_S4096x1 : (⟨S_, .f32⟩ : BufTy).Contents (Elt F) → (⟨S4096x1, .f32⟩ : BufTy).Contents (Elt F)),
    unary main_v1 main_v17 ((extractStridedSlice S4096x2047 ![0, 0] · slices_S4096x2048_S4096x2047_0_0) : (⟨S4096x2048, .f32⟩ : BufTy).Contents (Elt F) → (⟨S4096x2047, .f32⟩ : BufTy).Contents (Elt F)),
    binary main_v16 main_v17 main_v18 (catCol : (⟨S4096x1, .f32⟩ : BufTy).Contents (Elt F) → (⟨S4096x2047, .f32⟩ : BufTy).Contents (Elt F) → (⟨S4096x2048, .f32⟩ : BufTy).Contents (Elt F)),
    nullary main_cst_7 (constant S_ .f32 0x44AF0000#32),
    unary main_cst_7 main_v19 (broadcastInDim S4096x2048 ![] bcast_S_S4096x2048 : (⟨S_, .f32⟩ : BufTy).Contents (Elt F) → (⟨S4096x2048, .f32⟩ : BufTy).Contents (Elt F)),
    binary main_v10 main_v19 main_v20 (cmpf .ogt : (⟨S4096x2048, .f32⟩ : BufTy).Contents (Elt F) → (⟨S4096x2048, .f32⟩ : BufTy).Contents (Elt F) → (⟨S4096x2048, .i1⟩ : BufTy).Contents (Elt F)),
    unary main_v20 main_v21 (uitofp .f32 : (⟨S4096x2048, .i1⟩ : BufTy).Contents (Elt F) → (⟨S4096x2048, .f32⟩ : BufTy).Contents (Elt F)),
    nullary main_cst_8 (constant S_ .f32 0x3F19999A#32),
    unary main_cst_8 main_v22 (broadcastInDim S4096x2048 ![] bcast_S_S4096x2048 : (⟨S_, .f32⟩ : BufTy).Contents (Elt F) → (⟨S4096x2048, .f32⟩ : BufTy).Contents (Elt F)),
    binary main_v22 main_v21 main_v23 (mulf : (⟨S4096x2048, .f32⟩ : BufTy).Contents (Elt F) → (⟨S4096x2048, .f32⟩ : BufTy).Contents (Elt F) → (⟨S4096x2048, .f32⟩ : BufTy).Contents (Elt F)),
    nullary main_cst_9 (constant S_ .f32 0x3D4CCCCD#32),
    unary main_cst_9 main_v24 (broadcastInDim S4096x2048 ![] bcast_S_S4096x2048 : (⟨S_, .f32⟩ : BufTy).Contents (Elt F) → (⟨S4096x2048, .f32⟩ : BufTy).Contents (Elt F)),
    binary main_v12 main_v24 main_v25 (cmpf .olt : (⟨S4096x2048, .f32⟩ : BufTy).Contents (Elt F) → (⟨S4096x2048, .f32⟩ : BufTy).Contents (Elt F) → (⟨S4096x2048, .i1⟩ : BufTy).Contents (Elt F)),
    unary main_v25 main_v26 (uitofp .f32 : (⟨S4096x2048, .i1⟩ : BufTy).Contents (Elt F) → (⟨S4096x2048, .f32⟩ : BufTy).Contents (Elt F)),
    nullary main_cst_10 (constant S_ .f32 0x3ECCCCCD#32),
    unary main_cst_10 main_v27 (broadcastInDim S4096x2048 ![] bcast_S_S4096x2048 : (⟨S_, .f32⟩ : BufTy).Contents (Elt F) → (⟨S4096x2048, .f32⟩ : BufTy).Contents (Elt F)),
    binary main_v27 main_v26 main_v28 (mulf : (⟨S4096x2048, .f32⟩ : BufTy).Contents (Elt F) → (⟨S4096x2048, .f32⟩ : BufTy).Contents (Elt F) → (⟨S4096x2048, .f32⟩ : BufTy).Contents (Elt F)),
    binary main_v23 main_v28 main_v29 (addf : (⟨S4096x2048, .f32⟩ : BufTy).Contents (Elt F) → (⟨S4096x2048, .f32⟩ : BufTy).Contents (Elt F) → (⟨S4096x2048, .f32⟩ : BufTy).Contents (Elt F)),
    binary main_v10 main_v15 main_v30 (subf : (⟨S4096x2048, .f32⟩ : BufTy).Contents (Elt F) → (⟨S4096x2048, .f32⟩ : BufTy).Contents (Elt F) → (⟨S4096x2048, .f32⟩ : BufTy).Contents (Elt F)),
    unary main_v30 main_v31 (Host.absf : (⟨S4096x2048, .f32⟩ : BufTy).Contents (Elt F) → (⟨S4096x2048, .f32⟩ : BufTy).Contents (Elt F)),
    nullary main_cst_11 (constant S_ .f32 0x3F000000#32),
    unary main_cst_11 main_v32 (broadcastInDim S4096x2048 ![] bcast_S_S4096x2048 : (⟨S_, .f32⟩ : BufTy).Contents (Elt F) → (⟨S4096x2048, .f32⟩ : BufTy).Contents (Elt F)),
    binary main_v31 main_v32 main_v33 (cmpf .olt : (⟨S4096x2048, .f32⟩ : BufTy).Contents (Elt F) → (⟨S4096x2048, .f32⟩ : BufTy).Contents (Elt F) → (⟨S4096x2048, .i1⟩ : BufTy).Contents (Elt F)),
    unary main_v33 main_v34 (uitofp .f32 : (⟨S4096x2048, .i1⟩ : BufTy).Contents (Elt F) → (⟨S4096x2048, .f32⟩ : BufTy).Contents (Elt F)),
    nullary main_cst_12 (constant S_ .f32 0x3E4CCCCD#32),
    unary main_cst_12 main_v35 (broadcastInDim S4096x2048 ![] bcast_S_S4096x2048 : (⟨S_, .f32⟩ : BufTy).Contents (Elt F) → (⟨S4096x2048, .f32⟩ : BufTy).Contents (Elt F)),
    binary main_v35 main_v34 main_v36 (mulf : (⟨S4096x2048, .f32⟩ : BufTy).Contents (Elt F) → (⟨S4096x2048, .f32⟩ : BufTy).Contents (Elt F) → (⟨S4096x2048, .f32⟩ : BufTy).Contents (Elt F)),
    binary main_v29 main_v36 main_v37 (addf : (⟨S4096x2048, .f32⟩ : BufTy).Contents (Elt F) → (⟨S4096x2048, .f32⟩ : BufTy).Contents (Elt F) → (⟨S4096x2048, .f32⟩ : BufTy).Contents (Elt F)),
    binary main_v1 main_v18 main_v38 (cmpf .une : (⟨S4096x2048, .f32⟩ : BufTy).Contents (Elt F) → (⟨S4096x2048, .f32⟩ : BufTy).Contents (Elt F) → (⟨S4096x2048, .i1⟩ : BufTy).Contents (Elt F)),
    unary main_v38 main_v39 (uitofp .f32 : (⟨S4096x2048, .i1⟩ : BufTy).Contents (Elt F) → (⟨S4096x2048, .f32⟩ : BufTy).Contents (Elt F)),
    nullary main_cst_13 (constant S_ .f32 0x3DCCCCCD#32),
    unary main_cst_13 main_v40 (broadcastInDim S4096x2048 ![] bcast_S_S4096x2048 : (⟨S_, .f32⟩ : BufTy).Contents (Elt F) → (⟨S4096x2048, .f32⟩ : BufTy).Contents (Elt F)),
    binary main_v40 main_v39 main_v41 (mulf : (⟨S4096x2048, .f32⟩ : BufTy).Contents (Elt F) → (⟨S4096x2048, .f32⟩ : BufTy).Contents (Elt F) → (⟨S4096x2048, .f32⟩ : BufTy).Contents (Elt F)),
    binary main_v37 main_v41 main_v42 (addf : (⟨S4096x2048, .f32⟩ : BufTy).Contents (Elt F) → (⟨S4096x2048, .f32⟩ : BufTy).Contents (Elt F) → (⟨S4096x2048, .f32⟩ : BufTy).Contents (Elt F)),
    unary main_v42 main_v43 (id : (⟨S4096x2048, .f32⟩ : BufTy).Contents (Elt F) → (⟨S4096x2048, .f32⟩ : BufTy).Contents (Elt F)) ]

/-- The buffers the operations of `ops0` write, in order. -/
abbrev ops0_W : List (Ref sig .tc) := [main_cst, main_cst_0, main_cst_1, main_v0, main_v1, main_v2, main_v3, main_cst_2, main_v4, main_v5, main_v6, main_cst_3, main_v7, main_v8, main_c, main_v9, main_v10, main_c_4, main_v11, main_v12, main_cst_5, main_v13, main_v14, main_v15, main_cst_6, main_v16, main_v17, main_v18, main_cst_7, main_v19, main_v20, main_v21, main_cst_8, main_v22, main_v23, main_cst_9, main_v24, main_v25, main_v26, main_cst_10, main_v27, main_v28, main_v29, main_v30, main_v31, main_cst_11, main_v32, main_v33, main_v34, main_cst_12, main_v35, main_v36, main_v37, main_v38, main_v39, main_cst_13, main_v40, main_v41, main_v42, main_v43]

/-- @main's operations 61 … 142 (its second window; the remainder function's twenty-one operations, the select of the function it calls among them, and one relu's three are written out in place). -/
abbrev ops1 : List (HloOp τ sig (Elt F)) :=
  [ nullary main_cst_14 (constant S_ .f32 0x00000000#32),
    binary main_v43 main_cst_14 main_v44 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    nullary main_cst_15 (constant S_ .f32 0x45000000#32),
    unary main_cst_15 main_v45 (broadcastInDim S4096 ![] bcast_S_S4096 : (⟨S_, .f32⟩ : BufTy).Contents (Elt F) → (⟨S4096, .f32⟩ : BufTy).Contents (Elt F)),
    binary main_v44 main_v45 main_v46 (Host.divf : (⟨S4096, .f32⟩ : BufTy).Contents (Elt F) → (⟨S4096, .f32⟩ : BufTy).Contents (Elt F) → (⟨S4096, .f32⟩ : BufTy).Contents (Elt F)),
    nullary main_cst_16 (constant S_ .f32 0x42C80000#32),
    unary main_cst_16 main_v47 (broadcastInDim S4096 ![] bcast_S_S4096 : (⟨S_, .f32⟩ : BufTy).Contents (Elt F) → (⟨S4096, .f32⟩ : BufTy).Contents (Elt F)),
    binary main_v46 main_v47 main_v48 (mulf : (⟨S4096, .f32⟩ : BufTy).Contents (Elt F) → (⟨S4096, .f32⟩ : BufTy).Contents (Elt F) → (⟨S4096, .f32⟩ : BufTy).Contents (Elt F)),
    nullary main_c_17 (constantI S_ 32 4#32),
    TRef.unary (.of main_c_17) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096 ![] bcast_S_S4096),
    TRef.binary (.of main_arg6) main_call0.v3 main_call0.v4 Host.remsi,
    TRef.nullary main_call0.c_1 (constantI S_ 32 0#32),
    TRef.unary main_call0.c_1 main_call0.v5 (broadcastInDim S4096 ![] bcast_S_S4096),
    TRef.binary main_call0.v4 main_call0.v5 main_call0.v6 (cmpi .ne),
    TRef.nullary main_call0.c_2 (constantI S_ 32 0#32),
    TRef.unary main_call0.c_2 main_call0.v7 (broadcastInDim S4096 ![] bcast_S_S4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096 ![] bcast_S_S4096),
    TRef.binary main_call0.v8 main_call0.v10 main_call0.v11 (cmpi .ne),
    TRef.binary main_call0.v11 main_call0.v6 main_call0.v12 andi,
    TRef.unary main_call0.call0.v0 main_call0.v13 (broadcastInDim S4096 ![] bcast_S_S4096),
    TRef.binary main_call0.v4 main_call0.v13 main_call0.v14 addi,
    TRef.ternary main_call0.v12 main_call0.v14 main_call0.v4 main_call0.v15 select,
    nullary main_c_18 (constantI S_ 32 0#32),
    unary main_c_18 main_v50 (broadcastInDim S4096 ![] bcast_S_S4096 : (⟨S_, .i32⟩ : BufTy).Contents (Elt F) → (⟨S4096, .i32⟩ : BufTy).Contents (Elt F)),
    binary main_v49 main_v50 main_v51 (cmpi .slt : (⟨S4096, .i32⟩ : BufTy).Contents (Elt F) → (⟨S4096, .i32⟩ : BufTy).Contents (Elt F) → (⟨S4096, .i1⟩ : BufTy).Contents (Elt F)),
    nullary main_c_19 (constantI S_ 32 4#32),
    unary main_c_19 main_v52 (broadcastInDim S4096 ![] bcast_S_S4096 : (⟨S_, .i32⟩ : BufTy).Contents (Elt F) → (⟨S4096, .i32⟩ : BufTy).Contents (Elt F)),
    binary main_v49 main_v52 main_v53 (addi : (⟨S4096, .i32⟩ : BufTy).Contents (Elt F) → (⟨S4096, .i32⟩ : BufTy).Contents (Elt F) → (⟨S4096, .i32⟩ : BufTy).Contents (Elt F)),
    ternary main_v51 main_v53 main_v49 main_v54 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v54 main_v55 (broadcastInDim S4096x1 ![0] bcast_S4096_S4096x1_0 : (⟨S4096, .i32⟩ : BufTy).Contents (Elt F) → (⟨S4096x1, .i32⟩ : BufTy).Contents (Elt F)),
    binary main_cst main_v55 main_v56 ((fun x i => Host.gather gather_S4_S4096x1_S4096_n_0_n_n_0_1_1 x i) : (⟨S4, .f32⟩ : BufTy).Contents (Elt F) → (⟨S4096x1, .i32⟩ : BufTy).Contents (Elt F) → (⟨S4096, .f32⟩ : BufTy).Contents (Elt F)),
    binary main_v48 main_v56 main_v57 (mulf : (⟨S4096, .f32⟩ : BufTy).Contents (Elt F) → (⟨S4096, .f32⟩ : BufTy).Contents (Elt F) → (⟨S4096, .f32⟩ : BufTy).Contents (Elt F)),
    nullary main_cst_20 (constant S_ .f32 0x41700000#32),
    unary main_cst_20 main_v58 (broadcastInDim S4096 ![] bcast_S_S4096 : (⟨S_, .f32⟩ : BufTy).Contents (Elt F) → (⟨S4096, .f32⟩ : BufTy).Contents (Elt F)),
    binary main_v57 main_v58 main_v59 (subf : (⟨S4096, .f32⟩ : BufTy).Contents (Elt F) → (⟨S4096, .f32⟩ : BufTy).Contents (Elt F) → (⟨S4096, .f32⟩ : BufTy).Contents (Elt F)),
    TRef.nullary main_call1.cst (constant S_ .f32 0x00000000#32),
    TRef.unary main_call1.cst main_call1.v0 (broadcastInDim S4096 ![] bcast_S_S4096),
    TRef.binary (.of main_v59) main_call1.v0 main_call1.v1 maximumf,
    nullary main_cst_21 (constant S_ .f32 0x00000000#32),
    binary main_v60 main_cst_21 main_v61 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_22 (constant S_ .f32 0x45800000#32),
    binary main_v61 main_cst_22 main_v62 (Host.divf : (⟨S_, .f32⟩ : BufTy).Contents (Elt F) → (⟨S_, .f32⟩ : BufTy).Contents (Elt F) → (⟨S_, .f32⟩ : BufTy).Contents (Elt F)),
    nullary main_cst_23 (constant S_ .f32 0x41F00000#32),
    binary main_v62 main_cst_23 main_v63 (Host.divf : (⟨S_, .f32⟩ : BufTy).Contents (Elt F) → (⟨S_, .f32⟩ : BufTy).Contents (Elt F) → (⟨S_, .f32⟩ : BufTy).Contents (Elt F)),
    nullary main_c_24 (constantI S_ 32 0#32),
    unary main_c_24 main_v64 (broadcastInDim S4096 ![] bcast_S_S4096 : (⟨S_, .i32⟩ : BufTy).Contents (Elt F) → (⟨S4096, .i32⟩ : BufTy).Contents (Elt F)),
    binary main_arg6 main_v64 main_v65 (cmpi .slt : (⟨S4096, .i32⟩ : BufTy).Contents (Elt F) → (⟨S4096, .i32⟩ : BufTy).Contents (Elt F) → (⟨S4096, .i1⟩ : BufTy).Contents (Elt F)),
    nullary main_c_25 (constantI S_ 32 5#32),
    unary main_c_25 main_v66 (broadcastInDim S4096 ![] bcast_S_S4096 : (⟨S_, .i32⟩ : BufTy).Contents (Elt F) → (⟨S4096, .i32⟩ : BufTy).Contents (Elt F)),
    binary main_arg6 main_v66 main_v67 (addi : (⟨S4096, .i32⟩ : BufTy).Contents (Elt F) → (⟨S4096, .i32⟩ : BufTy).Contents (Elt F) → (⟨S4096, .i32⟩ : BufTy).Contents (Elt F)),
    ternary main_v65 main_v67 main_arg6 main_v68 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v68 main_v69 (broadcastInDim S4096x1 ![0] bcast_S4096_S4096x1_0 : (⟨S4096, .i32⟩ : BufTy).Contents (Elt F) → (⟨S4096x1, .i32⟩ : BufTy).Contents (Elt F)),
    binary main_cst_0 main_v69 main_v70 ((fun x i => Host.gather gather_S5_S4096x1_S4096_n_0_n_n_0_1_1 x i) : (⟨S5, .f32⟩ : BufTy).Contents (Elt F) → (⟨S4096x1, .i32⟩ : BufTy).Contents (Elt F) → (⟨S4096, .f32⟩ : BufTy).Contents (Elt F)),
    binary main_arg3 main_v70 main_v71 (subf : (⟨S4096, .f32⟩ : BufTy).Contents (Elt F) → (⟨S4096, .f32⟩ : BufTy).Contents (Elt F) → (⟨S4096, .f32⟩ : BufTy).Contents (Elt F)),
    unary main_v71 main_v72 (Host.absf : (⟨S4096, .f32⟩ : BufTy).Contents (Elt F) → (⟨S4096, .f32⟩ : BufTy).Contents (Elt F)),
    nullary main_c_26 (constantI S_ 32 0#32),
    unary main_c_26 main_v73 (broadcastInDim S4096 ![] bcast_S_S4096 : (⟨S_, .i32⟩ : BufTy).Contents (Elt F) → (⟨S4096, .i32⟩ : BufTy).Contents (Elt F)),
    binary main_arg6 main_v73 main_v74 (cmpi .slt : (⟨S4096, .i32⟩ : BufTy).Contents (Elt F) → (⟨S4096, .i32⟩ : BufTy).Contents (Elt F) → (⟨S4096, .i1⟩ : BufTy).Contents (Elt F)),
    nullary main_c_27 (constantI S_ 32 5#32),
    unary main_c_27 main_v75 (broadcastInDim S4096 ![] bcast_S_S4096 : (⟨S_, .i32⟩ : BufTy).Contents (Elt F) → (⟨S4096, .i32⟩ : BufTy).Contents (Elt F)),
    binary main_arg6 main_v75 main_v76 (addi : (⟨S4096, .i32⟩ : BufTy).Contents (Elt F) → (⟨S4096, .i32⟩ : BufTy).Contents (Elt F) → (⟨S4096, .i32⟩ : BufTy).Contents (Elt F)),
    ternary main_v74 main_v76 main_arg6 main_v77 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v77 main_v78 (broadcastInDim S4096x1 ![0] bcast_S4096_S4096x1_0 : (⟨S4096, .i32⟩ : BufTy).Contents (Elt F) → (⟨S4096x1, .i32⟩ : BufTy).Contents (Elt F)),
    binary main_cst_1 main_v78 main_v79 ((fun x i => Host.gather gather_S5_S4096x1_S4096_n_0_n_n_0_1_1 x i) : (⟨S5, .f32⟩ : BufTy).Contents (Elt F) → (⟨S4096x1, .i32⟩ : BufTy).Contents (Elt F) → (⟨S4096, .f32⟩ : BufTy).Contents (Elt F)),
    binary main_arg4 main_v79 main_v80 (subf : (⟨S4096, .f32⟩ : BufTy).Contents (Elt F) → (⟨S4096, .f32⟩ : BufTy).Contents (Elt F) → (⟨S4096, .f32⟩ : BufTy).Contents (Elt F)),
    unary main_v80 main_v81 (Host.absf : (⟨S4096, .f32⟩ : BufTy).Contents (Elt F) → (⟨S4096, .f32⟩ : BufTy).Contents (Elt F)),
    binary main_v72 main_v81 main_v82 (addf : (⟨S4096, .f32⟩ : BufTy).Contents (Elt F) → (⟨S4096, .f32⟩ : BufTy).Contents (Elt F) → (⟨S4096, .f32⟩ : BufTy).Contents (Elt F)),
    nullary main_cst_28 (constant S_ .f32 0x00000000#32),
    binary main_v82 main_cst_28 main_v83 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_29 (constant S_ .f32 0x45800000#32),
    binary main_v83 main_cst_29 main_v84 (Host.divf : (⟨S_, .f32⟩ : BufTy).Contents (Elt F) → (⟨S_, .f32⟩ : BufTy).Contents (Elt F) → (⟨S_, .f32⟩ : BufTy).Contents (Elt F)),
    nullary main_cst_30 (constant S_ .f32 0x41A00000#32),
    unary main_cst_30 main_v85 (broadcastInDim S4096 ![] bcast_S_S4096 : (⟨S_, .f32⟩ : BufTy).Contents (Elt F) → (⟨S4096, .f32⟩ : BufTy).Contents (Elt F)),
    binary main_arg3 main_v85 main_v86 (subf : (⟨S4096, .f32⟩ : BufTy).Contents (Elt F) → (⟨S4096, .f32⟩ : BufTy).Contents (Elt F) → (⟨S4096, .f32⟩ : BufTy).Contents (Elt F)) ]

/-- The buffers the operations of `ops1` write, in order. -/
abbrev ops1_W : List (Ref sig .tc) := [main_cst_14, main_v44, main_cst_15, main_v45, main_v46, main_cst_16, main_v47, main_v48, main_c_17, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v49, main_c_18, main_v50, main_v51, main_c_19, main_v52, main_v53, main_v54, main_v55, main_v56, main_v57, main_cst_20, main_v58, main_v59, main_call1_cst, main_call1_v0, main_v60, main_cst_21, main_v61, main_cst_22, main_v62, main_cst_23, main_v63, main_c_24, main_v64, main_v65, main_c_25, main_v66, main_v67, main_v68, main_v69, main_v70, main_v71, main_v72, main_c_26, main_v73, main_v74, main_c_27, main_v75, main_v76, main_v77, main_v78, main_v79, main_v80, main_v81, main_v82, main_cst_28, main_v83, main_cst_29, main_v84, main_cst_30, main_v85, main_v86]

/-- @main's operations 143 … 183 (its third window; two relu bodies written out in place). -/
abbrev ops2 : List (HloOp τ sig (Elt F)) :=
  [ TRef.nullary main_call2.cst (constant S_ .f32 0x00000000#32),
    TRef.unary main_call2.cst main_call2.v0 (broadcastInDim S4096 ![] bcast_S_S4096),
    TRef.binary (.of main_v86) main_call2.v0 main_call2.v1 maximumf,
    nullary main_cst_31 (constant S_ .f32 0x00000000#32),
    binary main_v87 main_cst_31 main_v88 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_32 (constant S_ .f32 0x45800000#32),
    binary main_v88 main_cst_32 main_v89 (Host.divf : (⟨S_, .f32⟩ : BufTy).Contents (Elt F) → (⟨S_, .f32⟩ : BufTy).Contents (Elt F) → (⟨S_, .f32⟩ : BufTy).Contents (Elt F)),
    nullary main_cst_33 (constant S_ .f32 0x41A00000#32),
    binary main_v89 main_cst_33 main_v90 (Host.divf : (⟨S_, .f32⟩ : BufTy).Contents (Elt F) → (⟨S_, .f32⟩ : BufTy).Contents (Elt F) → (⟨S_, .f32⟩ : BufTy).Contents (Elt F)),
    nullary main_cst_34 (constant S_ .f32 0x3E99999A#32),
    unary main_cst_34 main_v91 (broadcastInDim S4096 ![] bcast_S_S4096 : (⟨S_, .f32⟩ : BufTy).Contents (Elt F) → (⟨S4096, .f32⟩ : BufTy).Contents (Elt F)),
    binary main_arg4 main_v91 main_v92 (subf : (⟨S4096, .f32⟩ : BufTy).Contents (Elt F) → (⟨S4096, .f32⟩ : BufTy).Contents (Elt F) → (⟨S4096, .f32⟩ : BufTy).Contents (Elt F)),
    TRef.nullary main_call3.cst (constant S_ .f32 0x00000000#32),
    TRef.unary main_call3.cst main_call3.v0 (broadcastInDim S4096 ![] bcast_S_S4096),
    TRef.binary (.of main_v92) main_call3.v0 main_call3.v1 maximumf,
    nullary main_cst_35 (constant S_ .f32 0x00000000#32),
    binary main_v93 main_cst_35 main_v94 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_36 (constant S_ .f32 0x45800000#32),
    binary main_v94 main_cst_36 main_v95 (Host.divf : (⟨S_, .f32⟩ : BufTy).Contents (Elt F) → (⟨S_, .f32⟩ : BufTy).Contents (Elt F) → (⟨S_, .f32⟩ : BufTy).Contents (Elt F)),
    binary main_v90 main_v95 main_v96 (addf : (⟨S_, .f32⟩ : BufTy).Contents (Elt F) → (⟨S_, .f32⟩ : BufTy).Contents (Elt F) → (⟨S_, .f32⟩ : BufTy).Contents (Elt F)),
    nullary main_cst_37 (constant S_ .f32 0x41F00000#32),
    unary main_cst_37 main_v97 (broadcastInDim S4096 ![] bcast_S_S4096 : (⟨S_, .f32⟩ : BufTy).Contents (Elt F) → (⟨S4096, .f32⟩ : BufTy).Contents (Elt F)),
    binary main_v57 main_v97 main_v98 (cmpf .olt : (⟨S4096, .f32⟩ : BufTy).Contents (Elt F) → (⟨S4096, .f32⟩ : BufTy).Contents (Elt F) → (⟨S4096, .i1⟩ : BufTy).Contents (Elt F)),
    unary main_v98 main_v99 (uitofp .f32 : (⟨S4096, .i1⟩ : BufTy).Contents (Elt F) → (⟨S4096, .f32⟩ : BufTy).Contents (Elt F)),
    binary main_arg5 main_v99 main_v100 (subf : (⟨S4096, .f32⟩ : BufTy).Contents (Elt F) → (⟨S4096, .f32⟩ : BufTy).Contents (Elt F) → (⟨S4096, .f32⟩ : BufTy).Contents (Elt F)),
    binary main_v100 main_v100 main_v101 (mulf : (⟨S4096, .f32⟩ : BufTy).Contents (Elt F) → (⟨S4096, .f32⟩ : BufTy).Contents (Elt F) → (⟨S4096, .f32⟩ : BufTy).Contents (Elt F)),
    nullary main_cst_38 (constant S_ .f32 0x00000000#32),
    binary main_v101 main_cst_38 main_v102 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_39 (constant S_ .f32 0x45800000#32),
    binary main_v102 main_cst_39 main_v103 (Host.divf : (⟨S_, .f32⟩ : BufTy).Contents (Elt F) → (⟨S_, .f32⟩ : BufTy).Contents (Elt F) → (⟨S_, .f32⟩ : BufTy).Contents (Elt F)),
    nullary main_cst_40 (constant S_ .f32 0x40000000#32),
    binary main_cst_40 main_v63 main_v104 (mulf : (⟨S_, .f32⟩ : BufTy).Contents (Elt F) → (⟨S_, .f32⟩ : BufTy).Contents (Elt F) → (⟨S_, .f32⟩ : BufTy).Contents (Elt F)),
    nullary main_cst_41 (constant S_ .f32 0x3F000000#32),
    binary main_cst_41 main_v84 main_v105 (mulf : (⟨S_, .f32⟩ : BufTy).Contents (Elt F) → (⟨S_, .f32⟩ : BufTy).Contents (Elt F) → (⟨S_, .f32⟩ : BufTy).Contents (Elt F)),
    binary main_v104 main_v105 main_v106 (addf : (⟨S_, .f32⟩ : BufTy).Contents (Elt F) → (⟨S_, .f32⟩ : BufTy).Contents (Elt F) → (⟨S_, .f32⟩ : BufTy).Contents (Elt F)),
    nullary main_cst_42 (constant S_ .f32 0x3E99999A#32),
    binary main_cst_42 main_v96 main_v107 (mulf : (⟨S_, .f32⟩ : BufTy).Contents (Elt F) → (⟨S_, .f32⟩ : BufTy).Contents (Elt F) → (⟨S_, .f32⟩ : BufTy).Contents (Elt F)),
    binary main_v106 main_v107 main_v108 (addf : (⟨S_, .f32⟩ : BufTy).Contents (Elt F) → (⟨S_, .f32⟩ : BufTy).Contents (Elt F) → (⟨S_, .f32⟩ : BufTy).Contents (Elt F)),
    nullary main_cst_43 (constant S_ .f32 0x3E4CCCCD#32),
    binary main_cst_43 main_v103 main_v109 (mulf : (⟨S_, .f32⟩ : BufTy).Contents (Elt F) → (⟨S_, .f32⟩ : BufTy).Contents (Elt F) → (⟨S_, .f32⟩ : BufTy).Contents (Elt F)),
    binary main_v108 main_v109 main_v110 (addf : (⟨S_, .f32⟩ : BufTy).Contents (Elt F) → (⟨S_, .f32⟩ : BufTy).Contents (Elt F) → (⟨S_, .f32⟩ : BufTy).Contents (Elt F)) ]

/-- The buffers the operations of `ops2` write, in order. -/
abbrev ops2_W : List (Ref sig .tc) := [main_call2_cst, main_call2_v0, main_v87, main_cst_31, main_v88, main_cst_32, main_v89, main_cst_33, main_v90, main_cst_34, main_v91, main_v92, main_call3_cst, main_call3_v0, main_v93, main_cst_35, main_v94, main_cst_36, main_v95, main_v96, main_cst_37, main_v97, main_v98, main_v99, main_v100, main_v101, main_cst_38, main_v102, main_cst_39, main_v103, main_cst_40, main_v104, main_cst_41, main_v105, main_v106, main_cst_42, main_v107, main_v108, main_cst_43, main_v109, main_v110]

/-- @main's operations, in order. -/
abbrev ops : List (HloOp τ sig (Elt F)) := ops0 ++ ops1 ++ ops2

theorem main_part0_eq (c : Dev nD) : main_part0 (F := F) c = seq ops0 := rfl

set_option maxRecDepth 4096 in
/-- The second window is a straight line once the two function bodies are unfolded at their calls and the
    sequencing reassociated. -/
theorem main_part1_eq (c : Dev nD) : main_part1 (F := F) c = seq ops1 := by
  simp only [main_part1, fn_remainder.body, fn_where.body, fn_relu.body, seq, bind_assoc, pure_bind]
  rfl

set_option maxRecDepth 4096 in
theorem main_part2_eq (c : Dev nD) : main_part2 (F := F) c = seq ops2 := by
  simp only [main_part2, fn_relu.body, seq, bind_assoc, pure_bind]

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., nullary_bufs_sub .., unary_bufs_sub .., unary_bufs_sub .., unary_bufs_sub .., reshape_bufs_sub .., nullary_bufs_sub .., unary_bufs_sub .., binary_bufs_sub .., binary_bufs_sub .., nullary_bufs_sub .., unary_bufs_sub .., binary_bufs_sub .., nullary_bufs_sub .., unary_bufs_sub .., ternary_bufs_sub .., nullary_bufs_sub .., unary_bufs_sub .., ternary_bufs_sub .., nullary_bufs_sub .., unary_bufs_sub .., unary_bufs_sub .., binary_bufs_sub .., nullary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., binary_bufs_sub .., unary_bufs_sub ..⟩
theorem ops1_sub : (ops1 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., binary_bufs_sub .., nullary_bufs_sub .., binary_bufs_sub .., nullary_bufs_sub .., unary_bufs_sub .., binary_bufs_sub ..⟩
theorem ops2_sub : (ops2 : List (HloOp τ sig (Elt F))).Forall fun op => op.bufs ⊆ tcRefs τ sig :=
  ⟨nullary_bufs_sub .., unary_bufs_sub .., binary_bufs_sub .., nullary_bufs_sub .., binary_bufs_sub .., nullary_bufs_sub .., binary_bufs_sub .., nullary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., binary_bufs_sub .., nullary_bufs_sub .., unary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with (h | h) | h
    exacts [List.forall_iff_forall_mem.mp ops0_sub op h, List.forall_iff_forall_mem.mp ops1_sub op h, List.forall_iff_forall_mem.mp ops2_sub op h]

/-! ## The fold, window by window -/

/-- The fold of a concatenation is the fold of the second list over the fold of the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The device's buffer contents after the first window, from contents `V`. -/
def val1 (V : Valuation τ sig (Elt F)) : Valuation τ sig (Elt F) := after ops0 V
/-- The contents after the first two windows. -/
def val2 (V : Valuation τ sig (Elt F)) : Valuation τ sig (Elt F) := after ops1 (val1 V)
/-- The contents after all three windows. -/
def val3 (V : Valuation τ sig (Elt F)) : Valuation τ sig (Elt F) := after ops2 (val2 V)

theorem after_ops (V : Valuation τ sig (Elt F)) : after ops V = val3 V := by
  simp only [ops, after_app]
  rfl

theorem ops0_writes : (ops0 : List (HloOp τ sig (Elt F))).Forall fun op => op.writes ⊆ (ops0_W.map (Proc.devRef (τ := τ) .tc)).toFinset := by
  simp only [List.Forall]
  exact ⟨
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem ops1_writes : (ops1 : List (HloOp τ sig (Elt F))).Forall fun op => op.writes ⊆ (ops1_W.map (Proc.devRef (τ := τ) .tc)).toFinset := by
  simp only [List.Forall]
  exact ⟨
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

theorem ops2_writes : (ops2 : List (HloOp τ sig (Elt F))).Forall fun op => op.writes ⊆ (ops2_W.map (Proc.devRef (τ := τ) .tc)).toFinset := by
  simp only [List.Forall]
  exact ⟨
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer a window does not write keeps its contents through it. -/
theorem val1_keep (V : Valuation τ sig (Elt F)) (r : Ref sig .tc) (h : r ∉ ops0_W) :
    val1 V (Proc.devRef .tc r) = V (Proc.devRef .tc r) := after_of_writes_sub ops0 _ ops0_writes h
theorem val2_keep (V : Valuation τ sig (Elt F)) (r : Ref sig .tc) (h : r ∉ ops1_W) :
    val2 V (Proc.devRef .tc r) = val1 V (Proc.devRef .tc r) := after_of_writes_sub ops1 _ ops1_writes h
theorem val3_keep (V : Valuation τ sig (Elt F)) (r : Ref sig .tc) (h : r ∉ ops2_W) :
    val3 V (Proc.devRef .tc r) = val2 V (Proc.devRef .tc r) := after_of_writes_sub ops2 _ ops2_writes h

/-- An argument buffer (none of the 183 operations writes one) holds at the end what it held at the start. -/
theorem val3_arg (V : Valuation τ sig (Elt F)) (r : Ref sig .tc) (h0 : r ∉ ops0_W) (h1 : r ∉ ops1_W) (h2 : r ∉ ops2_W) :
    val3 V (Proc.devRef .tc r) = V (Proc.devRef .tc r) :=
  ((val3_keep V r h2).trans (val2_keep V r h1)).trans (val1_keep V r h0)

/-- On every device, from any memory with zero counters: every weakly fair execution of @main terminates, and
    every buffer ends at the three windows' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = val3 (launchContents m c) (Proc.devRef .tc b) :=
  (θ_run defs _ _).mono (fun _ h c b => (h c b).trans (congrFun (after_ops _) _))
    (run_seq scopedRefs_eq scopedSems_eq defs main (fun _ => ops) main_eq (fun _ => ops_sub) m ρ)

end Cert.ReferenceIdeal.RefRun

end
-- ==== Proof.RefWin0.lean ====
/- The first window read back: what the buffers the later windows read hold after it, as functions of the argument arrays. -/
import proofs.«144307_j48833778156001_2_alg».proof.Proof.RefOps
import proofs.«144307_j48833778156001_2_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- After the first window the contributions' buffer holds `res_v43` of the arguments. -/
theorem val1_v43 (V : Valuation τ sig (Elt F)) :
    val1 V (no_index (Proc.devRef .tc main_v43)) = res_v43 (F := F) (V (Proc.devRef .tc main_arg0)) (V (Proc.devRef .tc main_arg1)) (V (Proc.devRef .tc main_arg2)) (V (Proc.devRef .tc main_arg3)) (V (Proc.devRef .tc main_arg4)) := by
  unfold val1
  simp only [ops0]
  after_results_simp
  rfl

set_option maxRecDepth 16384 in
set_option maxHeartbeats 8000000 in
theorem val1_cst (V : Valuation τ sig (Elt F)) :
    val1 V (no_index (Proc.devRef .tc main_cst)) = fun i => FloatOps.ofBits .f32 (lit0 (S4.rowMajor i)) := by
  unfold val1
  simp only [ops0]
  after_results_simp
  rfl

set_option maxRecDepth 16384 in
set_option maxHeartbeats 8000000 in
theorem val1_cst_0 (V : Valuation τ sig (Elt F)) :
    val1 V (no_index (Proc.devRef .tc main_cst_0)) = fun i => FloatOps.ofBits .f32 (lit1 (S5.rowMajor i)) := by
  unfold val1
  simp only [ops0]
  after_results_simp
  rfl

set_option maxRecDepth 16384 in
set_option maxHeartbeats 8000000 in
theorem val1_cst_1 (V : Valuation τ sig (Elt F)) :
    val1 V (no_index (Proc.devRef .tc main_cst_1)) = fun i => FloatOps.ofBits .f32 (lit2 (S5.rowMajor i)) := by
  unfold val1
  simp only [ops0]
  after_results_simp
  rfl

theorem val1_arg3 (V : Valuation τ sig (Elt F)) :
    val1 V (no_index (Proc.devRef .tc main_arg3)) = V (Proc.devRef .tc main_arg3) := val1_keep V main_arg3 (by decide)
theorem val1_arg4 (V : Valuation τ sig (Elt F)) :
    val1 V (no_index (Proc.devRef .tc main_arg4)) = V (Proc.devRef .tc main_arg4) := val1_keep V main_arg4 (by decide)
theorem val1_arg5 (V : Valuation τ sig (Elt F)) :
    val1 V (no_index (Proc.devRef .tc main_arg5)) = V (Proc.devRef .tc main_arg5) := val1_keep V main_arg5 (by decide)
theorem val1_arg6 (V : Valuation τ sig (Elt F)) :
    val1 V (no_index (Proc.devRef .tc main_arg6)) = V (Proc.devRef .tc main_arg6) := val1_keep V main_arg6 (by decide)

end Cert.ReferenceIdeal.RefRun

end
-- ==== Proof.RefWin1.lean ====
/- The second window read back over the first: the score, the mean detection and similarity terms and the applied delay less 20, as functions of the argument arrays. -/
import proofs.«144307_j48833778156001_2_alg».proof.Proof.RefWin0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- After the second window the score's buffer holds `res_v57` of the arguments. -/
theorem val2_v57 (V : Valuation τ sig (Elt F)) :
    val2 V (no_index (Proc.devRef .tc main_v57)) = res_v57 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) := by
  unfold val2
  simp only [ops1]
  after_results_simp
  simp only [val1_v43, val1_cst, val1_arg6]
  rfl

set_option maxRecDepth 16384 in
set_option maxHeartbeats 8000000 in
theorem val2_v63 (V : Valuation τ sig (Elt F)) :
    val2 V (no_index (Proc.devRef .tc main_v63)) = res_v63 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) := by
  unfold val2
  simp only [ops1]
  after_results_simp
  simp only [val1_v43, val1_cst, val1_arg6]
  rfl

set_option maxRecDepth 16384 in
set_option maxHeartbeats 8000000 in
theorem val2_v84 (V : Valuation τ sig (Elt F)) :
    val2 V (no_index (Proc.devRef .tc main_v84)) = res_v84 (F := F) (V (Proc.devRef .tc main_arg3)) (V (Proc.devRef .tc main_arg4)) (V (Proc.devRef .tc main_arg6)) := by
  unfold val2
  simp only [ops1]
  after_results_simp
  simp only [val1_cst_0, val1_cst_1, val1_arg3, val1_arg4, val1_arg6]
  rfl

set_option maxRecDepth 16384 in
set_option maxHeartbeats 8000000 in
theorem val2_v86 (V : Valuation τ sig (Elt F)) :
    val2 V (no_index (Proc.devRef .tc main_v86)) = res_v86 (F := F) (V (Proc.devRef .tc main_arg3)) := by
  unfold val2
  simp only [ops1]
  after_results_simp
  simp only [val1_arg3]
  rfl

theorem val2_arg4 (V : Valuation τ sig (Elt F)) :
    val2 V (no_index (Proc.devRef .tc main_arg4)) = V (Proc.devRef .tc main_arg4) :=
  (val2_keep V main_arg4 (by decide)).trans (val1_arg4 V)
theorem val2_arg5 (V : Valuation τ sig (Elt F)) :
    val2 V (no_index (Proc.devRef .tc main_arg5)) = V (Proc.devRef .tc main_arg5) :=
  (val2_keep V main_arg5 (by decide)).trans (val1_arg5 V)

end Cert.ReferenceIdeal.RefRun

end
-- ==== Proof.RefWin2.lean ====
/- The third window read back over the second: the program's result as a function of the argument arrays. -/
import proofs.«144307_j48833778156001_2_alg».proof.Proof.RefWin1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- After the third window the result buffer holds `result` of the arguments. -/
theorem val3_v110 (V : Valuation τ sig (Elt F)) :
    val3 V (no_index (Proc.devRef .tc main_v110)) = result (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  unfold val3
  simp only [ops2]
  after_results_simp
  simp only [val2_v57, val2_v63, val2_v84, val2_v86, val2_arg4, val2_arg5]
  rfl

end Cert.ReferenceIdeal.RefRun

end
-- ==== Proof.RefRun.lean ====
/- The reference program's run, assembled: every weakly fair execution of @main terminates with the result
   buffer at `result` of the arguments' launch contents and the seven argument arrays unchanged. The three
   windows are read back one module each (RefWin0, RefWin1, RefWin2) over the operation lists of RefOps. -/
import proofs.«144307_j48833778156001_2_alg».proof.Proof.RefWin2
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- At the ideal instance, on every device, from any memory with zero counters: every weakly fair execution of
    @main terminates with the result at `result` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v110) = result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v110).trans (val3_v110 (launchContents m c)),
      (h c main_arg0).trans (val3_arg (launchContents m c) main_arg0 (by decide) (by decide) (by decide)),
      (h c main_arg1).trans (val3_arg (launchContents m c) main_arg1 (by decide) (by decide) (by decide)),
      (h c main_arg2).trans (val3_arg (launchContents m c) main_arg2 (by decide) (by decide) (by decide)),
      (h c main_arg3).trans (val3_arg (launchContents m c) main_arg3 (by decide) (by decide) (by decide)),
      (h c main_arg4).trans (val3_arg (launchContents m c) main_arg4 (by decide) (by decide) (by decide)),
      (h c main_arg5).trans (val3_arg (launchContents m c) main_arg5 (by decide) (by decide) (by decide)),
      (h c main_arg6).trans (val3_arg (launchContents m c) main_arg6 (by decide) (by decide) (by decide))⟩)
    (run_after m ρ)

end Cert.ReferenceIdeal.RefRun

end
-- ==== Proof.RefScatter.lean ====
/-
  A scatter read at an index, and the reference's two scatters at column 2047.

  The scatter is a left fold over the update's entries: entry n has a target index in the operand, or none when
  it falls outside, and a step replaces the running array at the target by the body applied to what is there and
  the update's entry. So an operand index that is the target of exactly one update entry ends holding the body
  of the operand's element and that entry, and an index that is no entry's target keeps the operand's element.

  Both scatters of the reference have one scatter index, the word 2047 on the column axis, and a [4096] update
  whose entry r lands at (r, 2047): the replacing one puts the update in column 2047, the adding one adds it there.
-/
import proofs.«144307_j48833778156001_2_alg».proof.Proof.Gen.ReferenceIdeal
import Idealize.ShloMosaic.Lib.ValueIdx
import Idealize.ShloMosaic.PureOps.Ideal

noncomputable section

namespace Cert.ReferenceIdeal.RefScatter

open Idealize.ShloMosaic Idealize.ShloMosaic.ValueIdx
open Cert.ReferenceIdeal Cert.ReferenceIdeal.Gen

section Fold

variable {α ι κ : Type}

/-- Combining along a list. A step `S r n` of element `n`, whose target is `g n`, puts `f (r j) (v n)` at the target `j`
    and leaves every other index of `r` alone (`hsome`), and leaves `r` alone when `n` has no target (`hnone`). Folded
    over a duplicate-free list, the steps leave at `i` the value `f (x i) (v n₀)` when `n₀`, the only element with target
    `i`, occurs in the list, and `x i` when it does not. -/
theorem foldl_combine_key (g : κ → Option ι) (v : κ → α) (f : α → α → α) (S : (ι → α) → κ → (ι → α))
    (hsome : ∀ r n j, g n = some j → S r n j = f (r j) (v n) ∧ ∀ i', i' ≠ j → S r n i' = r i')
    (hnone : ∀ r n, g n = none → S r n = r) (i : ι) (n₀ : κ) (hg : g n₀ = some i) [DecidableEq κ] :
    ∀ (l : List κ) (x : ι → α), l.Nodup → (∀ n ∈ l, g n = some i → n = n₀) →
      l.foldl S x i = if n₀ ∈ l then f (x i) (v n₀) else x i := by
  intro l
  induction l with
  | nil => intro x _ _; simp
  | cons n l ih =>
    intro x hnd hu
    have hnd' := List.nodup_cons.1 hnd
    rw [List.foldl_cons, ih _ hnd'.2 (fun n' hn' => hu n' (List.mem_cons_of_mem _ hn'))]
    by_cases hn : n = n₀
    · subst hn
      rw [if_neg hnd'.1, if_pos List.mem_cons_self]
      exact (hsome x n i hg).1
    · have hxi : S x n i = x i := by
        cases hgn : g n with
        | none => rw [hnone x n hgn]
        | some j =>
          refine (hsome x n j hgn).2 i fun hij => hn (hu n List.mem_cons_self ?_)
          rw [hgn, hij]
      have hmem : n₀ ∈ n :: l ↔ n₀ ∈ l :=
        ⟨fun h => (List.mem_cons.1 h).resolve_left fun h' => hn h'.symm, List.mem_cons_of_mem _⟩
      by_cases hm : n₀ ∈ l
      · rw [if_pos hm, if_pos (hmem.2 hm), hxi]
      · rw [if_neg hm, if_neg (fun h => hm (hmem.1 h)), hxi]

/-- The same steps leave an index that is no element's target as it was. -/
theorem foldl_combine_miss (g : κ → Option ι) (v : κ → α) (f : α → α → α) (S : (ι → α) → κ → (ι → α))
    (hsome : ∀ r n j, g n = some j → S r n j = f (r j) (v n) ∧ ∀ i', i' ≠ j → S r n i' = r i')
    (hnone : ∀ r n, g n = none → S r n = r) (i : ι) :
    ∀ (l : List κ) (x : ι → α), (∀ n ∈ l, g n ≠ some i) → l.foldl S x i = x i := by
  intro l
  induction l with
  | nil => intro x _; rfl
  | cons n l ih =>
    intro x hm
    rw [List.foldl_cons, ih _ (fun n' hn' => hm n' (List.mem_cons_of_mem _ hn'))]
    cases hgn : g n with
    | none => rw [hnone x n hgn]
    | some j =>
      refine (hsome x n j hgn).2 i fun hij => hm n List.mem_cons_self ?_
      rw [hgn, hij]

end Fold

section Scatter

variable {α : Type} {s si u : Shape} {w : Nat}

/-- A scatter with body `f`, at an operand index that is the target of update index `j` and of no other:
    `f` of the operand there and the update at `j`. -/
theorem scatter_hit (d : ScatterDims s si u) (f : α → α → α) (x : s.Idx → α) (idx : IVec si w) (upd : u.Idx → α)
    (i : s.Idx) (j : u.Idx) (hj : d.resultIdx? j idx = some i) (hu : ∀ j', d.resultIdx? j' idx = some i → j' = j) :
    Host.scatter d f x idx upd i = f (x i) (upd j) := by
  have e : upd (u.rowMajor.symm (u.rowMajor j)) = upd j := by rw [Equiv.symm_apply_apply]
  rw [← e]
  unfold Host.scatter
  refine (foldl_combine_key (fun n => d.resultIdx? (u.rowMajor.symm n) idx) (fun n => upd (u.rowMajor.symm n)) f _
    (fun r n j' h => ?_) (fun r n h => ?_) i (u.rowMajor j) (by rw [Equiv.symm_apply_apply]; exact hj)
    (List.finRange u.numel) x (List.nodup_finRange _)
    (fun n _ hn => by rw [← hu _ hn, Equiv.apply_symm_apply])).trans (if_pos (List.mem_finRange _))
  · simp only [h]
    exact ⟨if_pos trivial, fun i' hi' => if_neg hi'⟩
  · simp only [h]

/-- A scatter at an operand index that is no update index's target: the operand there. -/
theorem scatter_miss (d : ScatterDims s si u) (f : α → α → α) (x : s.Idx → α) (idx : IVec si w) (upd : u.Idx → α)
    (i : s.Idx) (hm : ∀ j', d.resultIdx? j' idx ≠ some i) :
    Host.scatter d f x idx upd i = x i := by
  unfold Host.scatter
  refine foldl_combine_miss (fun n => d.resultIdx? (u.rowMajor.symm n) idx) (fun n => upd (u.rowMajor.symm n)) f _
    (fun r n j' h => ?_) (fun r n h => ?_) i (List.finRange u.numel) x (fun n _ => hm _)
  · simp only [h]
    exact ⟨if_pos trivial, fun i' hi' => if_neg hi'⟩
  · simp only [h]

end Scatter

section Column

local notation "IDX" => (broadcastInDim S1 ![] bcast_S_S1 (constantI S_ 32 2047#32) : IVec S1 32)

/-- Every update entry r lands at column 2047 of row r: the start is 2047 on the column axis (read off the
    index operand, every entry of which is 2047) and 0 on the row axis; the window coordinate is r on the row
    axis and 0 on the column axis. -/
theorem resultIdx_col (r : Fin 4096) : scatter_S4096x2048_S1_S4096_0_1_1_0.resultIdx? (ix1 r) IDX = some (ix2 r 2047) := by
  have hs0 : scatter_S4096x2048_S1_S4096_0_1_1_0.start (ix1 r) IDX 0 = 0 := rfl
  have hs1 : scatter_S4096x2048_S1_S4096_0_1_1_0.start (ix1 r) IDX 1 = 2047 := by
    show (2047#32 : BitVec 32).toInt = 2047
    decide
  have hw0 : scatter_S4096x2048_S1_S4096_0_1_1_0.window (ix1 r : S4096.Idx) 0 = r.val := rfl
  have hw1 : scatter_S4096x2048_S1_S4096_0_1_1_0.window (ix1 r : S4096.Idx) 1 = 0 := rfl
  have hr := r.isLt
  have h : ∀ a, 0 ≤ scatter_S4096x2048_S1_S4096_0_1_1_0.start (ix1 r) IDX a + scatter_S4096x2048_S1_S4096_0_1_1_0.window (ix1 r : S4096.Idx) a
      ∧ scatter_S4096x2048_S1_S4096_0_1_1_0.start (ix1 r) IDX a + scatter_S4096x2048_S1_S4096_0_1_1_0.window (ix1 r : S4096.Idx) a < S4096x2048.size a := fun a =>
    match a with
    | ⟨0, _⟩ => by
      show 0 ≤ scatter_S4096x2048_S1_S4096_0_1_1_0.start (ix1 r) IDX 0 + (scatter_S4096x2048_S1_S4096_0_1_1_0.window (ix1 r : S4096.Idx) 0 : ℤ)
        ∧ scatter_S4096x2048_S1_S4096_0_1_1_0.start (ix1 r) IDX 0 + (scatter_S4096x2048_S1_S4096_0_1_1_0.window (ix1 r : S4096.Idx) 0 : ℤ) < (4096 : ℕ)
      rw [hs0, hw0]; omega
    | ⟨1, _⟩ => by
      show 0 ≤ scatter_S4096x2048_S1_S4096_0_1_1_0.start (ix1 r) IDX 1 + (scatter_S4096x2048_S1_S4096_0_1_1_0.window (ix1 r : S4096.Idx) 1 : ℤ)
        ∧ scatter_S4096x2048_S1_S4096_0_1_1_0.start (ix1 r) IDX 1 + (scatter_S4096x2048_S1_S4096_0_1_1_0.window (ix1 r : S4096.Idx) 1 : ℤ) < (2048 : ℕ)
      rw [hs1, hw1]; omega
  unfold ScatterDims.resultIdx?
  rw [dif_pos h]
  refine congrArg some (funext fun a => ?_)
  match a with
  | ⟨0, _⟩ =>
    refine Fin.ext ?_
    show (scatter_S4096x2048_S1_S4096_0_1_1_0.start (ix1 r) IDX 0 + (scatter_S4096x2048_S1_S4096_0_1_1_0.window (ix1 r : S4096.Idx) 0 : ℤ)).toNat = r.val
    rw [hs0, hw0]; omega
  | ⟨1, _⟩ =>
    refine Fin.ext ?_
    show (scatter_S4096x2048_S1_S4096_0_1_1_0.start (ix1 r) IDX 1 + (scatter_S4096x2048_S1_S4096_0_1_1_0.window (ix1 r : S4096.Idx) 1 : ℤ)).toNat = 2047
    rw [hs1, hw1]; omega

/-- Two indices of the [4096, 2048] array with one column are equal exactly when their rows are. -/
theorem ix2_inj_left {r r' : Fin 4096} {k k' : Fin 2048} (h : (ix2 r k : S4096x2048.Idx) = ix2 r' k') :
    r = r' ∧ k = k' :=
  ⟨congrFun h 0, congrFun h 1⟩

/-- The replacing scatter at column 2047, read at (r, k): the update at r in column 2047, the operand elsewhere. -/
theorem scatter_set_col {α : Type} (x : S4096x2048.Idx → α) (u : S4096.Idx → α) (r : Fin 4096) (k : Fin 2048) :
    Host.scatter scatter_S4096x2048_S1_S4096_0_1_1_0 (fun _ b => b) x
        (broadcastInDim S1 ![] bcast_S_S1 (constantI S_ 32 2047#32)) u (ix2 r k)
      = if k.val = 2047 then u (ix1 r) else x (ix2 r k) := by
  by_cases hk : k.val = 2047
  · rw [if_pos hk]
    have hk' : k = 2047 := Fin.ext hk
    subst hk'
    refine scatter_hit scatter_S4096x2048_S1_S4096_0_1_1_0 (fun _ b => b) x IDX u (ix2 r 2047) (ix1 r) (resultIdx_col r) fun j' hj' => ?_
    obtain ⟨r', rfl⟩ : ∃ r' : Fin 4096, j' = ix1 r' := ⟨j' 0, eq_ix1 j'⟩
    rw [resultIdx_col r'] at hj'
    rw [(ix2_inj_left (Option.some.inj hj')).1]
  · rw [if_neg hk]
    refine scatter_miss scatter_S4096x2048_S1_S4096_0_1_1_0 (fun _ b => b) x IDX u (ix2 r k) fun j' hj' => ?_
    obtain ⟨r', rfl⟩ : ∃ r' : Fin 4096, j' = ix1 r' := ⟨j' 0, eq_ix1 j'⟩
    rw [resultIdx_col r'] at hj'
    exact hk (congrArg Fin.val (ix2_inj_left (Option.some.inj hj')).2.symm)

/-- The adding scatter at column 2047, read at (r, k): the operand plus the update at r in column 2047, the operand
    elsewhere. -/
theorem scatter_add_col (x : FVec Ideal S4096x2048 .f32) (u : FVec Ideal S4096 .f32) (r : Fin 4096) (k : Fin 2048) :
    Host.scatter scatter_S4096x2048_S1_S4096_0_1_1_0 FloatOps.addf x
        (broadcastInDim S1 ![] bcast_S_S1 (constantI S_ 32 2047#32)) u (ix2 r k)
      = if k.val = 2047 then x (ix2 r k) + u (ix1 r) else x (ix2 r k) := by
  by_cases hk : k.val = 2047
  · rw [if_pos hk]
    have hk' : k = 2047 := Fin.ext hk
    subst hk'
    refine scatter_hit scatter_S4096x2048_S1_S4096_0_1_1_0 FloatOps.addf x IDX u (ix2 r 2047) (ix1 r) (resultIdx_col r) fun j' hj' => ?_
    obtain ⟨r', rfl⟩ : ∃ r' : Fin 4096, j' = ix1 r' := ⟨j' 0, eq_ix1 j'⟩
    rw [resultIdx_col r'] at hj'
    rw [(ix2_inj_left (Option.some.inj hj')).1]
  · rw [if_neg hk]
    refine scatter_miss scatter_S4096x2048_S1_S4096_0_1_1_0 FloatOps.addf x IDX u (ix2 r k) fun j' hj' => ?_
    obtain ⟨r', rfl⟩ : ∃ r' : Fin 4096, j' = ix1 r' := ⟨j' 0, eq_ix1 j'⟩
    rw [resultIdx_col r'] at hj'
    exact hk (congrArg Fin.val (ix2_inj_left (Option.some.inj hj')).2.symm)

end Column

end Cert.ReferenceIdeal.RefScatter

end
-- ==== Proof.RefScalar.lean ====
/- Scalar facts at the extended reals that the reference program's forms need: a bit converted unsigned is the
   0/1 value of the bit; words converted signed are equal exactly when the words are, so the float comparison
   of two converted words is the integer comparison; the word of all ones converts to the value of the f32
   pattern of -1. -/
import proofs.«144307_j48833778156001_2_alg».proof.Proof.Spec
import Idealize.ShloMosaic.PureOps.Ideal
import Idealize.ShloMosaic.Lib.ValueIdx

noncomputable section

namespace Cert.ReferenceIdeal.RefValue

open Idealize.ShloMosaic Cert.DpiSpec

/-- A bit converted unsigned is the 0/1 value of the bit. -/
theorem uitofp_bit (b : BitVec 1) : FloatOps.uitofp (F := Ideal) .f32 b = b2f b := (b2f_eq_uitofp b).symm

/-- Signed conversion of 32-bit words is injective: the integers are embedded in the reals. -/
theorem sitofp_inj (x y : BitVec 32) :
    FloatOps.sitofp (F := Ideal) .f32 x = FloatOps.sitofp (F := Ideal) .f32 y ↔ x = y := by
  show (((x.toInt : ℝ) : EReal) = ((y.toInt : ℝ) : EReal)) ↔ x = y
  rw [EReal.coe_eq_coe_iff, Int.cast_inj]
  exact BitVec.toInt_inj

/-- The float "not equal" of two converted words is the integer "not equal" of the words. -/
theorem cmpf_une_sitofp (x y : BitVec 32) :
    FloatOps.cmpf (F := Ideal) .une (FloatOps.sitofp (F := Ideal) .f32 x) (FloatOps.sitofp (F := Ideal) .f32 y)
      = IntOp.cmpi .ne x y := by
  show BitVec.ofBool (decide (FloatOps.sitofp (F := Ideal) .f32 x ≠ FloatOps.sitofp (F := Ideal) .f32 y)) = BitVec.ofBool (x != y)
  congr 1
  by_cases h : x = y
  · subst h; simp
  · have h' : FloatOps.sitofp (F := Ideal) .f32 x ≠ FloatOps.sitofp (F := Ideal) .f32 y := fun e => h ((sitofp_inj x y).1 e)
    simp [h, h']

/-- The word of all ones, read signed, is -1: the value of the f32 pattern `0xBF800000`. -/
theorem sitofp_allOnes : FloatOps.sitofp (F := Ideal) .f32 (0xFFFFFFFF#32) = lit 0xBF800000#32 := by
  show (((0xFFFFFFFF#32 : BitVec 32).toInt : ℝ) : EReal) = Ideal.ofBits .f32 0xBF800000#32
  have e : (0xFFFFFFFF#32 : BitVec 32).toInt = -1 := by decide
  rw [e]
  simp [Ideal.ofBits, Ideal.ieee, -EReal.coe_mul, -EReal.coe_neg]
  norm_num

end Cert.ReferenceIdeal.RefValue

end
-- ==== Proof.RefLayout.lean ====
/- The reference program's layout operations at its shapes, read at an index: the last column sliced off and
   flattened, the first 2047 columns sliced off, and a column put before them. -/
import proofs.«144307_j48833778156001_2_alg».proof.Proof.RefTerms
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx

variable {α : Type}

/-- A 4096-by-1 column flattened reads, at `r`, the column at `(r, 0)`: both sit at row-major position `r`. -/
theorem shapeCast_col_apply (x : S4096x1.Idx → α) (h : S4096x1.ShapeCasts S4096) (r : Fin 4096) :
    shapeCast S4096 x h (ix1 r) = x (ix2 r (0 : Fin 1)) :=
  shapeCast_apply x h _ _ (by
    rw [Shape.rowMajor_val_two, Shape.rowMajor_val_one]
    show r.val * 1 + 0 = r.val
    omega)

/-- The slice of the last column reads, at `(r, u)`, the array at `(r, 2047)`. -/
theorem slice_lastcol_apply (x : S4096x2048.Idx → α) (h : S4096x2048.Slices ![0, 2047] S4096x1) (r : Fin 4096) (u : Fin 1) :
    extractStridedSlice S4096x1 ![0, 2047] x h (ix2 r u) = x (ix2 r (⟨2047, by omega⟩ : Fin 2048)) :=
  extractStridedSlice_apply _ x h _ _ fun a => match a with
    | ⟨0, _⟩ => by show r.val = 0 + r.val; omega
    | ⟨1, _⟩ => by show 2047 = 2047 + u.val; omega

/-- The slice of the first 2047 columns reads, at `(r, k)`, the array at `(r, k)`. -/
theorem slice_init_apply (x : S4096x2048.Idx → α) (h : S4096x2048.Slices ![0, 0] S4096x2047) (r : Fin 4096) (k : Fin 2047) :
    extractStridedSlice S4096x2047 ![0, 0] x h (ix2 r k) = x (ix2 r (⟨k.val, by omega⟩ : Fin 2048)) :=
  extractStridedSlice_apply _ x h _ _ fun a => match a with
    | ⟨0, _⟩ => by show r.val = 0 + r.val; omega
    | ⟨1, _⟩ => by show k.val = 0 + k.val; omega

/-- A column put before 2047 columns reads the column at column 0 … -/
theorem catCol_apply_zero {F : FTy → Type} [FloatOps F] (a : FVec F S4096x1 .f32) (b : FVec F S4096x2047 .f32)
    (r : Fin 4096) (k : Fin 2048) (hk : k.val = 0) : catCol a b (ix2 r k) = a (ix2 r (0 : Fin 1)) := by
  unfold catCol
  refine concatenate_pair_apply_left (1 : Fin 2) a b _ (ix2 r k) rfl (ix2 r (0 : Fin 1)) fun c => ?_
  match c with
  | ⟨0, _⟩ => rfl
  | ⟨1, _⟩ => show 0 = k.val; omega

/-- … and the other piece, one column to the left, elsewhere. -/
theorem catCol_apply_succ {F : FTy → Type} [FloatOps F] (a : FVec F S4096x1 .f32) (b : FVec F S4096x2047 .f32)
    (r : Fin 4096) (k : Fin 2048) (hk : k.val ≠ 0) :
    catCol a b (ix2 r k) = b (ix2 r (⟨k.val - 1, by omega⟩ : Fin 2047)) := by
  unfold catCol
  refine concatenate_pair_apply_right (1 : Fin 2) a b _ (ix2 r k) rfl rfl (ix2 r (⟨k.val - 1, by omega⟩ : Fin 2047)) (fun c hc => ?_) ?_
  · match c with
    | ⟨0, _⟩ => rfl
    | ⟨1, _⟩ => exact absurd rfl hc
  · show (k.val - 1) + 1 = k.val
    omega

end Cert.ReferenceIdeal.RefValue

end
-- ==== Proof.RefRow.lean ====
/- The reference program's per-packet and per-row values at the extended reals, read at an index down to the
   common per-row reading: the padded sizes, the delayed delays, the previous packet's size and direction,
   each packet's contribution, and each row's sum of contributions. -/
import proofs.«144307_j48833778156001_2_alg».proof.Proof.RefScatter
import proofs.«144307_j48833778156001_2_alg».proof.Proof.RefScalar
import proofs.«144307_j48833778156001_2_alg».proof.Proof.RefLayout
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.RefRun Cert.ReferenceIdeal.RefScatter
  Idealize.ShloMosaic Idealize.ShloMosaic.ValueIdx Cert.DpiSpec

/-! ## Pointwise forms the library's index lemmas do not cover -/

theorem uitofp_apply {s : Shape} {w : Nat} (x : IVec s w) (i : s.Idx) :
    (uitofp .f32 x : FVec Ideal s .f32) i = FloatOps.uitofp (F := Ideal) .f32 (x i) := rfl

theorem hostAbsf_apply {s : Shape} (x : FVec Ideal s .f32) (i : s.Idx) :
    Host.absf x i = FloatOps.absf (F := Ideal) (φ := .f32) (x i) := rfl

/-- A scalar constant broadcast to any shape reads the value of its pattern. -/
theorem bcast_const_apply {T : Shape} (h : S_.BroadcastsInDim T ![]) (w : BitVec 32) (j : T.Idx) :
    broadcastInDim T ![] h (constant (F := Ideal) S_ .f32 w) j = lit w := rfl

theorem const_apply (w : BitVec 32) (j : S_.Idx) : constant (F := Ideal) S_ .f32 w j = lit w := rfl

/-! ## The packets of a row -/

section Row

variable (a0 : IVec S4096x2048 32) (a1 : FVec Ideal S4096x2048 .f32) (a2 : IVec S4096x2048 32)
  (a3 a4 : FVec Ideal S4096 .f32) (r : Fin 4096) (k : Fin 2048)

/-- The padded sizes at `(r, k)`. -/
theorem res_v10_apply :
    res_v10 (F := Ideal) a0 a4 (ix2 r k) = msize (fun k => a0 (ix2 r k)) (a4 (ix1 r)) k := by
  unfold res_v10 msize
  refine (scatter_set_col _ _ r k).trans ?_
  by_cases h : k.val = 2047
  · rw [if_pos h, if_pos h]
    have hk : k = (⟨2047, by omega⟩ : Fin 2048) := Fin.ext h
    show min (shapeCast S4096 (extractStridedSlice S4096x1 ![0, 2047] (sitofp .f32 a0) _) _ (ix1 r)
        + a4 (ix1 r) * lit 0x44BB8000#32) (lit 0x44BB8000#32) = _
    rw [shapeCast_col_apply, slice_lastcol_apply, hk]
    rfl
  · rw [if_neg h, if_neg h]
    rfl

/-- The delays, the applied delay added to the last, at `(r, k)`. -/
theorem res_v12_apply :
    res_v12 (F := Ideal) a1 a3 (ix2 r k) = mdelay (fun k => a1 (ix2 r k)) (a3 (ix1 r)) k := by
  unfold res_v12 mdelay
  exact scatter_add_col a1 a3 r k

/-- The previous packet's size at `(r, k)`. -/
theorem res_v15_apply :
    res_v15 (F := Ideal) a0 a4 (ix2 r k) = prevSize (fun k => a0 (ix2 r k)) (a4 (ix1 r)) k := by
  unfold res_v15 prevSize
  by_cases h : k.val = 0
  · rw [if_pos h]
    exact catCol_apply_zero _ _ r k h
  · rw [if_neg h]
    refine (catCol_apply_succ _ _ r k h).trans ?_
    refine (slice_init_apply _ _ r _).trans ?_
    exact res_v10_apply a0 a4 r _

theorem res_v1_apply : res_v1 (F := Ideal) a2 (ix2 r k) = FloatOps.sitofp (F := Ideal) .f32 (a2 (ix2 r k)) := rfl

/-- The previous packet's direction, as a float, at `(r, k)`: the conversion of the previous direction word. -/
theorem res_v18_apply :
    res_v18 (F := Ideal) a2 (ix2 r k) = FloatOps.sitofp (F := Ideal) .f32 (prevDir (fun k => a2 (ix2 r k)) k) := by
  unfold res_v18 prevDir
  by_cases h : k.val = 0
  · rw [if_pos h]
    refine (catCol_apply_zero _ _ r k h).trans ?_
    exact sitofp_allOnes.symm
  · rw [if_neg h]
    refine (catCol_apply_succ _ _ r k h).trans ?_
    exact slice_init_apply _ _ r _

/-- A packet's contribution at `(r, k)`. -/
theorem res_v43_apply :
    res_v43 (F := Ideal) a0 a1 a2 a3 a4 (ix2 r k)
      = inc (fun k => a0 (ix2 r k)) (fun k => a1 (ix2 r k)) (fun k => a2 (ix2 r k)) (a3 (ix1 r)) (a4 (ix1 r)) k := by
  simp only [res_v43, inc, addf_apply, mulf_apply, subf_apply, cmpf_apply, uitofp_apply, hostAbsf_apply, bcast_const_apply,
    res_v10_apply, res_v12_apply, res_v15_apply, res_v18_apply, res_v1_apply, uitofp_bit, cmpf_une_sitofp]
  rfl

/-- The index over `r` with `k` put on the column axis is `(r, k)`. -/
theorem lift_row (h : S4096x2048.Reduces [1] S4096) (k : Fin 2048) : h.lift (ix1 r) k = ix2 r k := by
  funext c
  match c with
  | ⟨0, _⟩ => rfl
  | ⟨1, _⟩ => rfl

/-- A row's sum of contributions. -/
theorem res_v44_apply :
    res_v44 (F := Ideal) a0 a1 a2 a3 a4 (ix1 r)
      = ∑ k : Fin 2048, inc (fun k => a0 (ix2 r k)) (fun k => a1 (ix2 r k)) (fun k => a2 (ix2 r k)) (a3 (ix1 r)) (a4 (ix1 r)) k := by
  unfold res_v44
  have h : S4096x2048.Reduces [1] S4096 := by decide
  show Ideal.hostReduceAdd _ _ _ (ix1 r) = _
  refine (Ideal.hostReduceAdd_single reducesTo_S4096x2048_S4096_d1 h _ _ (ix1 r)).trans ?_
  refine (lit_zero_add _).trans ?_
  refine Finset.sum_congr rfl fun k _ => ?_
  rw [lift_row r h k]
  exact res_v43_apply a0 a1 a2 a3 a4 r k

end Row

end Cert.ReferenceIdeal.RefValue

end
-- ==== Proof.RefValue.lean ====
/- The reference program's per-row terms and their means at the extended reals, and the program's result as the
   weighted combination of the means of the common per-row reading. -/
import proofs.«144307_j48833778156001_2_alg».proof.Proof.RefRow

noncomputable section

open scoped BigOperators

namespace Cert.ReferenceIdeal.RefValue

open Cert.ReferenceIdeal Cert.ReferenceIdeal.Gen Cert.ReferenceIdeal.RefRun
  Idealize.ShloMosaic Idealize.ShloMosaic.ValueIdx Cert.DpiSpec

/-- The indices of a length-4096 array are the numbers below 4096. -/
def idx1Equiv : S4096.Idx ≃ Fin 4096 where
  toFun j := j 0
  invFun r := ix1 r
  left_inv j := (eq_ix1 j).symm
  right_inv _ := rfl

/-- The program's mean of a length-4096 array — its sum from the zero pattern, over the pattern of 4096 — is the mean
    of the array's 4096 elements. -/
theorem mean_apply (x : FVec Ideal S4096 .f32) (j : S_.Idx) :
    Host.divf (Host.reduceAdd x (constant S_ .f32 0x00000000#32) reducesTo_S4096_S_d0 h_S_) (constant S_ .f32 0x45800000#32) j
      = mean (fun r => x (ix1 r)) := by
  show Ideal.div (Ideal.hostReduceAdd reducesTo_S4096_S_d0 x (lit 0x00000000#32) j) (lit 0x45800000#32) = _
  rw [Ideal.hostReduceAdd_total reducesTo_S4096_S_d0 (fun b => b.elim0), lit_zero_add]
  unfold mean
  refine congrArg (fun s => Ideal.div s (lit 0x45800000#32)) ?_
  exact Fintype.sum_equiv idx1Equiv x (fun r => x (ix1 r)) fun i => congrArg x (eq_ix1 i)

section Row

variable (a0 : IVec S4096x2048 32) (a1 : FVec Ideal S4096x2048 .f32) (a2 : IVec S4096x2048 32)
  (a3 a4 a5 : FVec Ideal S4096 .f32) (a6 : IVec S4096 32) (r : Fin 4096)

/-- A row's score. -/
theorem res_v57_apply :
    res_v57 (F := Ideal) a0 a1 a2 a3 a4 a6 (ix1 r)
      = rowScore (fun k => a0 (ix2 r k)) (fun k => a1 (ix2 r k)) (fun k => a2 (ix2 r k)) (a3 (ix1 r)) (a4 (ix1 r))
          (mlR (F := Ideal) a6 (ix1 r)) := by
  unfold res_v57 res_v48 rowScore
  show Ideal.div (res_v44 (F := Ideal) a0 a1 a2 a3 a4 (ix1 r)) (lit 0x45000000#32) * lit 0x42C80000#32 * mlR (F := Ideal) a6 (ix1 r) = _
  rw [res_v44_apply]

/-- A row's detection term. -/
theorem res_v60_apply :
    res_v60 (F := Ideal) a0 a1 a2 a3 a4 a6 (ix1 r)
      = rowT0 (fun k => a0 (ix2 r k)) (fun k => a1 (ix2 r k)) (fun k => a2 (ix2 r k)) (a3 (ix1 r)) (a4 (ix1 r))
          (mlR (F := Ideal) a6 (ix1 r)) := by
  unfold res_v60 rowT0
  show max (res_v57 (F := Ideal) a0 a1 a2 a3 a4 a6 (ix1 r) - lit 0x41700000#32) (lit 0x00000000#32) = _
  rw [res_v57_apply]

/-- A row's similarity term. -/
theorem res_v82_apply :
    res_v82 (F := Ideal) a3 a4 a6 (ix1 r)
      = rowT1 (a3 (ix1 r)) (a4 (ix1 r)) (tdR (F := Ideal) a6 (ix1 r)) (tpR (F := Ideal) a6 (ix1 r)) := rfl

/-- The two parts of a row's efficiency term. -/
theorem res_v87_apply : res_v87 (F := Ideal) a3 (ix1 r) = rowT2a (a3 (ix1 r)) := rfl
theorem res_v93_apply : res_v93 (F := Ideal) a4 (ix1 r) = rowT2b (a4 (ix1 r)) := rfl

/-- A row's confidence term. -/
theorem res_v101_apply :
    res_v101 (F := Ideal) a0 a1 a2 a3 a4 a5 a6 (ix1 r)
      = rowT3 (fun k => a0 (ix2 r k)) (fun k => a1 (ix2 r k)) (fun k => a2 (ix2 r k)) (a3 (ix1 r)) (a4 (ix1 r))
          (mlR (F := Ideal) a6 (ix1 r)) (a5 (ix1 r)) := by
  unfold res_v101 res_v99 rowT3
  show (a5 (ix1 r) - FloatOps.uitofp (F := Ideal) .f32 (FloatOps.cmpf .olt (res_v57 (F := Ideal) a0 a1 a2 a3 a4 a6 (ix1 r)) (lit 0x41F00000#32)))
      * (a5 (ix1 r) - FloatOps.uitofp (F := Ideal) .f32 (FloatOps.cmpf .olt (res_v57 (F := Ideal) a0 a1 a2 a3 a4 a6 (ix1 r)) (lit 0x41F00000#32))) = _
  rw [res_v57_apply, uitofp_bit]

end Row

/-- The reference program's result is the weighted combination of the five means of the per-row reading. -/
theorem result_eq (a0 : Vec Ideal S4096x2048 .i32) (a1 : FVec Ideal S4096x2048 .f32) (a2 : Vec Ideal S4096x2048 .i32)
    (a3 a4 a5 : FVec Ideal S4096 .f32) (a6 : Vec Ideal S4096 .i32) :
    result (F := Ideal) a0 a1 a2 a3 a4 a5 a6 = fun _ => totalR
      (fun r => rowT0 (fun k => a0 (ix2 r k)) (fun k => a1 (ix2 r k)) (fun k => a2 (ix2 r k)) (a3 (ix1 r)) (a4 (ix1 r)) (mlR (F := Ideal) a6 (ix1 r)))
      (fun r => rowT1 (a3 (ix1 r)) (a4 (ix1 r)) (tdR (F := Ideal) a6 (ix1 r)) (tpR (F := Ideal) a6 (ix1 r)))
      (fun r => rowT2a (a3 (ix1 r)))
      (fun r => rowT2b (a4 (ix1 r)))
      (fun r => rowT3 (fun k => a0 (ix2 r k)) (fun k => a1 (ix2 r k)) (fun k => a2 (ix2 r k)) (a3 (ix1 r)) (a4 (ix1 r)) (mlR (F := Ideal) a6 (ix1 r)) (a5 (ix1 r))) := by
  funext j
  unfold result res_v63 res_v84 res_v96 res_v90 res_v95 res_v103 totalR
  show ((lit 0x40000000#32 * Ideal.div (Host.divf (Host.reduceAdd (res_v60 (F := Ideal) a0 a1 a2 a3 a4 a6) (constant S_ .f32 0x00000000#32) reducesTo_S4096_S_d0 h_S_) (constant S_ .f32 0x45800000#32) j) (lit 0x41F00000#32)
        + lit 0x3F000000#32 * Host.divf (Host.reduceAdd (res_v82 (F := Ideal) a3 a4 a6) (constant S_ .f32 0x00000000#32) reducesTo_S4096_S_d0 h_S_) (constant S_ .f32 0x45800000#32) j)
        + lit 0x3E99999A#32 * (Ideal.div (Host.divf (Host.reduceAdd (res_v87 (F := Ideal) a3) (constant S_ .f32 0x00000000#32) reducesTo_S4096_S_d0 h_S_) (constant S_ .f32 0x45800000#32) j) (lit 0x41A00000#32)
            + Host.divf (Host.reduceAdd (res_v93 (F := Ideal) a4) (constant S_ .f32 0x00000000#32) reducesTo_S4096_S_d0 h_S_) (constant S_ .f32 0x45800000#32) j))
      + lit 0x3E4CCCCD#32 * Host.divf (Host.reduceAdd (res_v101 (F := Ideal) a0 a1 a2 a3 a4 a5 a6) (constant S_ .f32 0x00000000#32) reducesTo_S4096_S_d0 h_S_) (constant S_ .f32 0x45800000#32) j = _
  rw [mean_apply, mean_apply, mean_apply, mean_apply, mean_apply]
  simp only [res_v60_apply, res_v82_apply, res_v87_apply, res_v93_apply, res_v101_apply]

end Cert.ReferenceIdeal.RefValue

end
-- ==== Proof.Consts.lean ====
/-
  The float constants of the two programs whose values the algebra needs, as the extended reals their
  patterns denote: 20, 4096, the finiteness of 0.3's pattern, and +infinity.
-/
import proofs.«144307_j48833778156001_2_alg».proof.Proof.Spec

noncomputable section

namespace Cert.DpiSpec

open Idealize.ShloMosaic

/-- The pattern of 20.0 denotes the real 20. -/
theorem lit_20 : lit 0x41A00000#32 = ((20 : ℝ) : EReal) := by
  simp [lit, Ideal.ofBits, Ideal.ieee, -EReal.coe_mul]; norm_num

/-- The pattern of 4096.0 denotes the real 4096. -/
theorem lit_4096 : lit 0x45800000#32 = ((4096 : ℝ) : EReal) := by
  simp [lit, Ideal.ofBits, Ideal.ieee, -EReal.coe_mul]; norm_num

/-- The pattern of 0.3 (rounded to f32) denotes a real. -/
theorem lit_p3 : ∃ c : ℝ, lit 0x3E99999A#32 = (c : EReal) := by
  simp [lit, Ideal.ofBits, Ideal.ieee, -EReal.coe_mul]

/-- The pattern of +infinity denotes the top element. -/
theorem lit_inf : lit 0x7F800000#32 = ⊤ := by
  simp [lit, Ideal.ofBits, Ideal.ieee]

end Cert.DpiSpec

end
-- ==== Proof.SpecAlgebra.lean ====
/-
  The one algebraic law between the two programs: linearity of the mean, for the efficiency term.

  One program averages the per-row term `T2a / 20 + T2b`; the other averages `T2a` and `T2b` separately and
  then forms `mean T2a / 20 + mean T2b`. On the extended reals addition is not cancellative at the
  infinities, so the law is proved where it is used: when every applied delay and every padding is a real,
  both parts are reals, the sums and quotients are those of the real numbers, and the identity is the
  real one.
-/
import proofs.«144307_j48833778156001_2_alg».proof.Proof.Spec
import proofs.«144307_j48833778156001_2_alg».proof.Proof.Consts

noncomputable section

open scoped BigOperators

namespace Cert.DpiSpec

open Idealize.ShloMosaic

/-- The coercion of reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of reals into the extended reals commutes with the maximum. -/
theorem coe_max (x y : ℝ) : ((max x y : ℝ) : EReal) = max (x : EReal) (y : EReal) :=
  EReal.coe_strictMono.monotone.map_max

/-- The delay part of the efficiency term at a real delay is a real. -/
theorem rowT2a_coe (a : ℝ) : rowT2a (a : EReal) = ((max (a - 20) 0 : ℝ) : EReal) := by
  unfold rowT2a
  rw [lit_20, lit_zero, ← EReal.coe_sub, ← EReal.coe_zero, ← coe_max]

/-- The padding part at a real padding is a real (`c` the real the pattern of 0.3 denotes). -/
theorem rowT2b_coe (c : ℝ) (hc : lit 0x3E99999A#32 = (c : EReal)) (b : ℝ) :
    rowT2b (b : EReal) = ((max (b - c) 0 : ℝ) : EReal) := by
  unfold rowT2b
  rw [hc, lit_zero, ← EReal.coe_sub, ← EReal.coe_zero, ← coe_max]

/-- The mean of real values is the real mean. -/
theorem mean_coe (f : Fin 4096 → ℝ) :
    mean (fun r => ((f r : ℝ) : EReal)) = (((∑ r, f r) * (1 / 4096) : ℝ) : EReal) := by
  unfold mean
  rw [lit_4096, Ideal.div_coe (by norm_num), ← coe_sum, ← EReal.coe_mul]

/-- LINEARITY OF THE MEAN for the efficiency term: on real delays and paddings, the mean of
    `T2a / 20 + T2b` is `mean T2a / 20 + mean T2b`. -/
theorem mean_rowT2_split (dm pn : Fin 4096 → E) (hdm : ∀ r, ∃ x : ℝ, dm r = (x : EReal))
    (hpn : ∀ r, ∃ x : ℝ, pn r = (x : EReal)) :
    mean (fun r => rowT2 (dm r) (pn r))
      = Ideal.div (mean (fun r => rowT2a (dm r))) (lit 0x41A00000#32) + mean (fun r => rowT2b (pn r)) := by
  choose a ha using hdm
  choose b hb using hpn
  obtain ⟨c, hc⟩ := lit_p3
  have hA : ∀ r, rowT2a (dm r) = ((max (a r - 20) 0 : ℝ) : EReal) := fun r => by rw [ha r]; exact rowT2a_coe _
  have hB : ∀ r, rowT2b (pn r) = ((max (b r - c) 0 : ℝ) : EReal) := fun r => by rw [hb r]; exact rowT2b_coe c hc _
  have h2 : ∀ r, rowT2 (dm r) (pn r) = ((max (a r - 20) 0 * (1 / 20) + max (b r - c) 0 : ℝ) : EReal) := fun r => by
    unfold rowT2
    rw [hA r, hB r, lit_20, Ideal.div_coe (by norm_num), ← EReal.coe_mul, ← EReal.coe_add]
  simp only [hA, hB, h2]
  rw [mean_coe, mean_coe, mean_coe, lit_20, Ideal.div_coe (by norm_num), ← EReal.coe_mul, ← EReal.coe_add]
  refine congrArg (fun x : ℝ => (x : EReal)) ?_
  rw [Finset.sum_add_distrib, ← Finset.sum_mul]
  ring

/-- The two totals agree when the delays and paddings are real. -/
theorem totalK_eq_totalR (T0 T1 T3 : Fin 4096 → E) (dm pn : Fin 4096 → E)
    (hdm : ∀ r, ∃ x : ℝ, dm r = (x : EReal)) (hpn : ∀ r, ∃ x : ℝ, pn r = (x : EReal)) :
    totalK T0 T1 (fun r => rowT2 (dm r) (pn r)) T3
      = totalR T0 T1 (fun r => rowT2a (dm r)) (fun r => rowT2b (pn r)) T3 := by
  unfold totalK totalR
  rw [mean_rowT2_split dm pn hdm hpn]

end Cert.DpiSpec

end
-- ==== Proof.PreFinite.lean ====
/-
  From the printed precondition to finiteness: when the precondition's predicate holds, every entry of the
  applied-delay array and of the padding array is a real number.

  The predicate is the conjunction of four "all entries have absolute value below +infinity" tests, each a
  reduction by `and` of a comparison; a conjunction that is 1 has both conjuncts 1, a reduction by `and`
  that is 1 has every entry 1, and an extended real whose absolute value is below the top element is
  neither infinity.
-/
import proofs.«144307_j48833778156001_2_alg».proof.Pre_finite_inputs
import proofs.«144307_j48833778156001_2_alg».proof.Proof.Gen.Pre_finite_inputs
import proofs.«144307_j48833778156001_2_alg».proof.Proof.Consts
import Idealize.ShloMosaic.Lib.ReduceAll
import Idealize.ShloMosaic.Lib.ValueIdx

noncomputable section

namespace Cert.PreFinite

open Idealize.ShloMosaic
open Cert.Pre_finite_inputs

/-- The scalar shape has one index. -/
instance : Subsingleton S_.Idx := ⟨fun a b => funext fun d => d.elim0⟩

/-- An extended real whose absolute value compares below the pattern of +infinity is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hinf : FloatOps.ofBits (F := Ideal) .f32 0x7F800000#32 = (⊤ : EReal) := Cert.DpiSpec.lit_inf
  rw [hinf] at h
  have hlt : max x (-x) < (⊤ : EReal) := by
    by_contra hn
    have h' : BitVec.ofBool (decide (max x (-x) < (⊤ : EReal))) = 1#1 := h
    rw [decide_eq_false hn] at h'
    exact absurd h' (by decide)
  induction x using EReal.rec with
  | bot =>
    have h2 : -(⊥ : EReal) < ⊤ := lt_of_le_of_lt (le_max_right _ _) hlt
    rw [EReal.neg_bot] at h2
    exact absurd h2 (lt_irrefl _)
  | top => exact absurd (lt_of_le_of_lt (le_max_left _ _) hlt) (lt_irrefl _)
  | coe r => exact ⟨r, rfl⟩

/-- When the precondition's predicate is 1, the applied delays and the paddings are all real. -/
theorem finite_of_pre [Cert.Pre_finite_inputs.Facts] (a0 : Vec Ideal S4096x2048 .i32) (a1 : FVec Ideal S4096x2048 .f32)
    (a2 : Vec Ideal S4096x2048 .i32) (a3 a4 a5 : FVec Ideal S4096 .f32) (a6 : Vec Ideal S4096 .i32)
    (h : Cert.Pre_finite_inputs.fn (F := Ideal) a0 a1 a2 a3 a4 a5 a6 = fun _ => 1#1) :
    (∀ i, ∃ x : ℝ, a3 i = (x : EReal)) ∧ (∀ i, ∃ x : ℝ, a4 i = (x : EReal)) := by
  have h0 := congrFun h ValueIdx.ix0
  dsimp only [fn, fn_part1, andi] at h0
  obtain ⟨h13, _⟩ := IntOp.andi_eq_one.1 h0
  obtain ⟨h8, h12⟩ := IntOp.andi_eq_one.1 h13
  obtain ⟨_, h7⟩ := IntOp.andi_eq_one.1 h8
  exact ⟨fun i => real_of_abs_lt_inf (a3 i) (Host.reduce_andi_all _ _ _ _ _ h7 i),
    fun i => real_of_abs_lt_inf (a4 i) (Host.reduce_andi_all _ _ _ _ _ h12 i)⟩

end Cert.PreFinite

end
-- ==== Proof.lean ====
/-
  Both programs compute one scalar loss from three [4096, 2048] packet arrays (sizes, delays, directions) and four
  per-row vectors (applied delay, padding fraction, confidence, profile id). Per row: the last packet is padded and
  delayed; each packet contributes 0.6 [size > 1400] + 0.4 [delay < 0.05] + 0.2 [|size - previous size| < 0.5]
  + 0.1 [direction changed]; the row's score is the mean contribution times 100 times the profile's multiplier; the
  row yields a detection term max(score - 15, 0), a similarity term |delay - target| + |padding - target|, an
  efficiency term max(delay - 20, 0) / 20 + max(padding - 0.3, 0) and a confidence term (confidence - [score < 30])².
  The loss is 2 (mean detection / 30) + 0.5 mean similarity + 0.3 mean efficiency + 0.2 mean confidence.

  The kernel program computes the four terms of 256 rows per grid point and averages the four columns of the
  resulting [4096, 4] array on the host; the reference computes them on whole arrays and averages the two parts of
  the efficiency term separately: mean(a / 20 + b) against mean(a) / 20 + mean(b). Over the extended reals that is
  the one law the two sides differ by, and it holds because the applied delays and padding fractions are finite
  (the precondition), so that both parts are real numbers. Everything else is the same term row by row: the
  kernel's lane rotation with the first lane replaced reads the previous packet, as the reference's shifted
  concatenation does; selecting on the last lane is the reference's update of the last column; a bit widened and
  converted is the bit converted; comparing directions as integers is comparing them as the reals they denote.

  The three frames: each kernel program is host lines, one pipelined region of sixteen points, host lines; the
  reference is host lines only. All terminate without a fault and leave the arguments unchanged. The idealized
  kernel is the kernel's own text read over the extended reals: nothing was rewritten.
-/
import proofs.«144307_j48833778156001_2_alg».proof.Defs
import proofs.«144307_j48833778156001_2_alg».proof.Proof.Gen.Kernel
import proofs.«144307_j48833778156001_2_alg».proof.Proof.Gen.KernelIdeal
import proofs.«144307_j48833778156001_2_alg».proof.Proof.Gen.ReferenceIdeal
import proofs.«144307_j48833778156001_2_alg».proof.Proof.Gen.Pre_finite_inputs
import proofs.«144307_j48833778156001_2_alg».proof.Proof.KFrame
import proofs.«144307_j48833778156001_2_alg».proof.Proof.KVal4
import proofs.«144307_j48833778156001_2_alg».proof.Proof.RefRun
import proofs.«144307_j48833778156001_2_alg».proof.Proof.RefValue
import proofs.«144307_j48833778156001_2_alg».proof.Proof.SpecAlgebra
import proofs.«144307_j48833778156001_2_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs to the end, faults nowhere, and leaves its arguments unchanged. -/
theorem frame_k : Cert.frame_Kernel (hKernel := Cert.Kernel.Gen.facts) (hPre_finite_inputs := Cert.Pre_finite_inputs.Gen.facts) :=
  fun m ρ _ => Cert.Kernel.Frm.frame m ρ

/-- So does the same program read over the extended reals. -/
theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- The reference is host lines only: its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- The idealization rewrote nothing. -/
theorem preserves : Cert.preserves_Kernel_KernelIdeal := trivial

/-- The gathered per-row values are the same functions of the profile ids in both programs: the same tables, the
    same index arithmetic. -/
theorem ml_eq (a6 : IVec Cert.KernelIdeal.S4096 32) : Cert.ReferenceIdeal.RefRun.mlR (F := Ideal) a6 = Cert.KernelIdeal.KVal.mlK (F := Ideal) a6 := rfl
theorem td_eq (a6 : IVec Cert.KernelIdeal.S4096 32) : Cert.ReferenceIdeal.RefRun.tdR (F := Ideal) a6 = Cert.KernelIdeal.KVal.tdK (F := Ideal) a6 := rfl
theorem tp_eq (a6 : IVec Cert.KernelIdeal.S4096 32) : Cert.ReferenceIdeal.RefRun.tpR (F := Ideal) a6 = Cert.KernelIdeal.KVal.tpK (F := Ideal) a6 := rfl

/-- Over the extended reals, from memories agreeing on the arguments, the two programs end with the same scalar: the
    kernel's weighted combination of its four column means is the reference's, whose efficiency term is averaged in
    two parts; the two agree because the applied delays and padding fractions are finite. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.KVal.run m ρ, ?_⟩
  refine (θ_run Cert.ReferenceIdeal.defs _ _).mono (fun _ h c => ⟨(h c).1.trans ?_, (h c).2⟩) (Cert.ReferenceIdeal.RefRun.run m' ρ')
  obtain ⟨g0, g1, g2, g3, g4, g5, g6⟩ := hagree c
  obtain ⟨hdm, hpn⟩ := @Cert.PreFinite.finite_of_pre Cert.Pre_finite_inputs.Gen.facts _ _ _ _ _ _ _ (hpre c)
  rw [g0, g1, g2, g3, g4, g5, g6, Cert.ReferenceIdeal.RefValue.result_eq]
  funext _
  rw [ml_eq, td_eq, tp_eq]
  exact (Cert.DpiSpec.totalK_eq_totalR _ _ _ _ _ (fun r => hdm (ix1 r)) (fun r => hpn (ix1 r))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
